-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v197)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v197) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v390) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x128x128 : Shape := ⟨4, ![4, 256, 128, 128]⟩
abbrev S4x4096x256 : Shape := ⟨3, ![4, 4096, 256]⟩
abbrev S4x4096x2 : Shape := ⟨3, ![4, 4096, 2]⟩
abbrev S4x5x4096x2 : Shape := ⟨4, ![4, 5, 4096, 2]⟩
abbrev S_ : Shape := ⟨0, ![]⟩

class Facts : Prop where
  bcast_S_S4x256x128x128 : S_.BroadcastsInDim S4x256x128x128 (![] : Fin 0 → Fin S4x256x128x128.rank)
  reducesTo_S4x256x128x128_S_d0_1_2_3 : S4x256x128x128.ReducesTo [0, 1, 2, 3] S_
  h_S_ : 0 < S_.numel
  bcast_S_S4x4096x256 : S_.BroadcastsInDim S4x4096x256 (![] : Fin 0 → Fin S4x4096x256.rank)
  reducesTo_S4x4096x256_S_d0_1_2 : S4x4096x256.ReducesTo [0, 1, 2] S_
  bcast_S_S4x4096x2 : S_.BroadcastsInDim S4x4096x2 (![] : Fin 0 → Fin S4x4096x2.rank)
  reducesTo_S4x4096x2_S_d0_1_2 : S4x4096x2.ReducesTo [0, 1, 2] S_
  bcast_S_S4x5x4096x2 : S_.BroadcastsInDim S4x5x4096x2 (![] : Fin 0 → Fin S4x5x4096x2.rank)
  reducesTo_S4x5x4096x2_S_d0_1_2_3 : S4x5x4096x2.ReducesTo [0, 1, 2, 3] S_

variable [Facts]

def fn_part1 {F : FTy → Type} [FloatOps F] (main_arg4 : FVec F S4x5x4096x2 .f32) (main_v13 : IVec S_ 1) (main_v16 : IVec S4x256x128x128 1) : IVec S_ 1 :=
  let main_c_5 : IVec S_ 1 := constantI S_ 1 1#1
  let main_v17 : IVec S_ 1 := (fun x v => Host.reduce IntOp.andi x v reducesTo_S4x256x128x128_S_d0_1_2_3 h_S_) main_v16 main_c_5
  let main_v18 : IVec S_ 1 := andi main_v13 main_v17
  let main_v19 : FVec F S4x5x4096x2 .f32 := Host.absf main_arg4
  let main_cst_6 : FVec F S_ .f32 := constant S_ .f32 0x7F800000#32
  let main_v20 : FVec F S4x5x4096x2 .f32 := broadcastInDim S4x5x4096x2 ![] bcast_S_S4x5x4096x2 main_cst_6
  let main_v21 : IVec S4x5x4096x2 1 := cmpf .olt main_v19 main_v20
  let main_c_7 : IVec S_ 1 := constantI S_ 1 1#1
  let main_v22 : IVec S_ 1 := (fun x v => Host.reduce IntOp.andi x v reducesTo_S4x5x4096x2_S_d0_1_2_3 h_S_) main_v21 main_c_7
  let main_v23 : IVec S_ 1 := andi main_v18 main_v22
  main_v23

def fn {F : FTy → Type} [FloatOps F] (main_arg0 : FVec F S4x256x128x128 .f32) (main_arg1 : FVec F S4x4096x256 .f32) (main_arg2 : FVec F S4x4096x2 .f32) (main_arg3 : FVec F S4x256x128x128 .f32) (main_arg4 : FVec F S4x5x4096x2 .f32) : IVec S_ 1 :=
  let main_v0 : FVec F S4x256x128x128 .f32 := Host.absf main_arg0
  let main_cst : FVec F S_ .f32 := constant S_ .f32 0x7F800000#32
  let main_v1 : FVec F S4x256x128x128 .f32 := broadcastInDim S4x256x128x128 ![] bcast_S_S4x256x128x128 main_cst
  let main_v2 : IVec S4x256x128x128 1 := cmpf .olt main_v0 main_v1
  let main_c : IVec S_ 1 := constantI S_ 1 1#1
  let main_v3 : IVec S_ 1 := (fun x v => Host.reduce IntOp.andi x v reducesTo_S4x256x128x128_S_d0_1_2_3 h_S_) main_v2 main_c
  let main_v4 : FVec F S4x4096x256 .f32 := Host.absf main_arg1
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  let main_v9 : FVec F S4x4096x2 .f32 := Host.absf main_arg2
  let main_cst_2 : FVec F S_ .f32 := constant S_ .f32 0x7F800000#32
  let main_v10 : FVec F S4x4096x2 .f32 := broadcastInDim S4x4096x2 ![] bcast_S_S4x4096x2 main_cst_2
  let main_v11 : IVec S4x4096x2 1 := cmpf .olt main_v9 main_v10
  let main_c_3 : IVec S_ 1 := constantI S_ 1 1#1
  let main_v12 : IVec S_ 1 := (fun x v => Host.reduce IntOp.andi x v reducesTo_S4x4096x2_S_d0_1_2 h_S_) main_v11 main_c_3
  let main_v13 : IVec S_ 1 := andi main_v8 main_v12
  let main_v14 : FVec F S4x256x128x128 .f32 := Host.absf main_arg3
  let main_cst_4 : FVec F S_ .f32 := constant S_ .f32 0x7F800000#32
  let main_v15 : FVec F S4x256x128x128 .f32 := broadcastInDim S4x256x128x128 ![] bcast_S_S4x256x128x128 main_cst_4
  let main_v16 : IVec S4x256x128x128 1 := cmpf .olt main_v14 main_v15
  fn_part1 (F := F) main_arg4 main_v13 main_v16
-- ==== Kernel.lean ====
abbrev S4x256x128x128 : Shape := ⟨4, ![4, 256, 128, 128]⟩
abbrev S4x4096x256 : Shape := ⟨3, ![4, 4096, 256]⟩
abbrev S4x4096x2 : Shape := ⟨3, ![4, 4096, 2]⟩
abbrev S4x5x4096x2 : Shape := ⟨4, ![4, 5, 4096, 2]⟩
abbrev S4x1x4096x2 : Shape := ⟨4, ![4, 1, 4096, 2]⟩
abbrev S_ : Shape := ⟨0, ![]⟩
abbrev S4x512x128x128 : Shape := ⟨4, ![4, 512, 128, 128]⟩
abbrev S4x128x128x512 : Shape := ⟨4, ![4, 128, 128, 512]⟩
abbrev S4x5x4096x1 : Shape := ⟨4, ![4, 5, 4096, 1]⟩
abbrev S4x5x4096 : Shape := ⟨3, ![4, 5, 4096]⟩
abbrev S4x5x4096x512 : Shape := ⟨4, ![4, 5, 4096, 512]⟩
abbrev S1x5x512x512 : Shape := ⟨4, ![1, 5, 512, 512]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩
abbrev S1x1x512x256 : Shape := ⟨4, ![1, 1, 512, 256]⟩

abbrev nBuf : Space → Nat
  | .hbm => 314
  | .vmem => 6
  | .smem => 0
  | _ => 0

abbrev hbmTy0_0 (i : Nat) : BufTy := match i % 128 with
  | 0 => ⟨S4x256x128x128, .f32⟩
  | 1 => ⟨S4x4096x256, .f32⟩
  | 2 => ⟨S4x4096x2, .f32⟩
  | 3 => ⟨S4x256x128x128, .f32⟩
  | 4 => ⟨S4x5x4096x2, .f32⟩
  | 5 => ⟨S4x1x4096x2, .f32⟩
  | 6 => ⟨S_, .f32⟩
  | 7 => ⟨S4x5x4096x2, .f32⟩
  | 8 => ⟨S4x5x4096x2, .f32⟩
  | 9 => ⟨S_, .f32⟩
  | 10 => ⟨S4x5x4096x2, .f32⟩
  | 11 => ⟨S4x5x4096x2, .f32⟩
  | 12 => ⟨S_, .f32⟩
  | 13 => ⟨S4x5x4096x2, .f32⟩
  | 14 => ⟨S4x5x4096x2, .f32⟩
  | 15 => ⟨S_, .f32⟩
  | 16 => ⟨S4x5x4096x2, .f32⟩
  | 17 => ⟨S4x5x4096x2, .f32⟩
  | 18 => ⟨S4x5x4096x2, .f32⟩
  | 19 => ⟨S4x5x4096x2, .f32⟩
  | 20 => ⟨S_, .f32⟩
  | 21 => ⟨S_, .f32⟩
  | 22 => ⟨S_, .f32⟩
  | 23 => ⟨S4x5x4096x2, .f32⟩
  | 24 => ⟨S4x5x4096x2, .f32⟩
  | 25 => ⟨S_, .f32⟩
  | 26 => ⟨S4x5x4096x2, .f32⟩
  | 27 => ⟨S4x5x4096x2, .f32⟩
  | 28 => ⟨S4x512x128x128, .f32⟩
  | 29 => ⟨S4x128x128x512, .f32⟩
  | 30 => ⟨S4x5x4096x1, .f32⟩
  | 31 => ⟨S4x5x4096, .f32⟩
  | 32 => ⟨S_, .f32⟩
  | 33 => ⟨S4x5x4096, .f32⟩
  | 34 => ⟨S4x5x4096, .f32⟩
  | 35 => ⟨S_, .f32⟩
  | 36 => ⟨S4x5x4096, .f32⟩
  | 37 => ⟨S4x5x4096, .f32⟩
  | 38 => ⟨S_, .f32⟩
  | 39 => ⟨S4x5x4096, .f32⟩
  | 40 => ⟨S4x5x4096, .f32⟩
  | 41 => ⟨S4x5x4096x1, .f32⟩
  | 42 => ⟨S4x5x4096, .f32⟩
  | 43 => ⟨S_, .f32⟩
  | 44 => ⟨S4x5x4096, .f32⟩
  | 45 => ⟨S4x5x4096, .f32⟩
  | 46 => ⟨S_, .f32⟩
  | 47 => ⟨S4x5x4096, .f32⟩
  | 48 => ⟨S4x5x4096, .f32⟩
  | 49 => ⟨S_, .f32⟩
  | 50 => ⟨S4x5x4096, .f32⟩
  | 51 => ⟨S4x5x4096, .f32⟩
  | 52 => ⟨S4x5x4096, .f32⟩
  | 53 => ⟨S4x5x4096, .f32⟩
  | 54 => ⟨S4x5x4096, .f32⟩
  | 55 => ⟨S4x5x4096, .f32⟩
  | 56 => ⟨S_, .f32⟩
  | 57 => ⟨S4x5x4096, .f32⟩
  | 58 => ⟨S4x5x4096, .f32⟩
  | 59 => ⟨S_, .f32⟩
  | 60 => ⟨S4x5x4096, .f32⟩
  | 61 => ⟨S4x5x4096, .f32⟩
  | 62 => ⟨S_, .f32⟩
  | 63 => ⟨S4x5x4096, .f32⟩
  | 64 => ⟨S4x5x4096, .i1⟩
  | 65 => ⟨S_, .f32⟩
  | 66 => ⟨S4x5x4096, .f32⟩
  | 67 => ⟨S4x5x4096, .i1⟩
  | 68 => ⟨S4x5x4096, .i1⟩
  | 69 => ⟨S_, .f32⟩
  | 70 => ⟨S4x5x4096, .f32⟩
  | 71 => ⟨S4x5x4096, .i1⟩
  | 72 => ⟨S4x5x4096, .i1⟩
  | 73 => ⟨S_, .f32⟩
  | 74 => ⟨S4x5x4096, .f32⟩
  | 75 => ⟨S4x5x4096, .i1⟩
  | 76 => ⟨S4x5x4096, .i1⟩
  | 77 => ⟨S_, .i32⟩
  | 78 => ⟨S_, .i32⟩
  | 79 => ⟨S_, .f32⟩
  | 80 => ⟨S4x5x4096, .f32⟩
  | 81 => ⟨S4x5x4096, .f32⟩
  | 82 => ⟨S_, .f32⟩
  | 83 => ⟨S4x5x4096, .f32⟩
  | 84 => ⟨S4x5x4096, .f32⟩
  | 85 => ⟨S4x5x4096, .i32⟩
  | 86 => ⟨S_, .i32⟩
  | 87 => ⟨S_, .i32⟩
  | 88 => ⟨S_, .f32⟩
  | 89 => ⟨S4x5x4096, .f32⟩
  | 90 => ⟨S4x5x4096, .f32⟩
  | 91 => ⟨S_, .f32⟩
  | 92 => ⟨S4x5x4096, .f32⟩
  | 93 => ⟨S4x5x4096, .f32⟩
  | 94 => ⟨S4x5x4096, .i32⟩
  | 95 => ⟨S_, .i32⟩
  | 96 => ⟨S4x5x4096, .i32⟩
  | 97 => ⟨S4x5x4096, .i1⟩
  | 98 => ⟨S_, .i32⟩
  | 99 => ⟨S4x5x4096, .i32⟩
  | 100 => ⟨S4x5x4096, .i32⟩
  | 101 => ⟨S4x5x4096, .i32⟩
  | 102 => ⟨S_, .i32⟩
  | 103 => ⟨S4x5x4096, .i32⟩
  | 104 => ⟨S4x5x4096, .i1⟩
  | 105 => ⟨S_, .i32⟩
  | 106 => ⟨S4x5x4096, .i32⟩
  | 107 => ⟨S4x5x4096, .i32⟩
  | 108 => ⟨S4x5x4096, .i32⟩
  | 109 => ⟨S4x5x4096x1, .i32⟩
  | 110 => ⟨S4x5x4096x1, .i32⟩
  | 111 => ⟨S4x5x4096x2, .i32⟩
  | 112 => ⟨S4x5x4096x512, .f32⟩
  | 113 => ⟨S4x5x4096x1, .i1⟩
  | 114 => ⟨S4x5x4096x1, .f32⟩
  | 115 => ⟨S4x5x4096x512, .f32⟩
  | 116 => ⟨S4x5x4096x512, .f32⟩
  | 117 => ⟨S_, .f32⟩
  | 118 => ⟨S4x5x4096, .f32⟩
  | 119 => ⟨S4x5x4096, .f32⟩
  | 120 => ⟨S_, .f32⟩
  | 121 => ⟨S4x5x4096, .f32⟩
  | 122 => ⟨S4x5x4096, .i1⟩
  | 123 => ⟨S_, .f32⟩
  | 124 => ⟨S4x5x4096, .f32⟩
  | 125 => ⟨S4x5x4096, .i1⟩
  | 126 => ⟨S4x5x4096, .i1⟩
  | 127 => ⟨S_, .f32⟩
  | _ => ⟨S4x256x128x128, .f32⟩

abbrev hbmTy0_1 (i : Nat) : BufTy := match i % 128 with
  | 0 => ⟨S4x5x4096, .f32⟩
  | 1 => ⟨S4x5x4096, .i1⟩
  | 2 => ⟨S4x5x4096, .i1⟩
  | 3 => ⟨S_, .f32⟩
  | 4 => ⟨S4x5x4096, .f32⟩
  | 5 => ⟨S4x5x4096, .i1⟩
  | 6 => ⟨S4x5x4096, .i1⟩
  | 7 => ⟨S_, .i32⟩
  | 8 => ⟨S_, .i32⟩
  | 9 => ⟨S_, .f32⟩
  | 10 => ⟨S4x5x4096, .f32⟩
  | 11 => ⟨S4x5x4096, .f32⟩
  | 12 => ⟨S_, .f32⟩
  | 13 => ⟨S4x5x4096, .f32⟩
  | 14 => ⟨S4x5x4096, .f32⟩
  | 15 => ⟨S4x5x4096, .i32⟩
  | 16 => ⟨S_, .i32⟩
  | 17 => ⟨S_, .i32⟩
  | 18 => ⟨S_, .f32⟩
  | 19 => ⟨S4x5x4096, .f32⟩
  | 20 => ⟨S4x5x4096, .f32⟩
  | 21 => ⟨S_, .f32⟩
  | 22 => ⟨S4x5x4096, .f32⟩
  | 23 => ⟨S4x5x4096, .f32⟩
  | 24 => ⟨S4x5x4096, .i32⟩
  | 25 => ⟨S_, .i32⟩
  | 26 => ⟨S4x5x4096, .i32⟩
  | 27 => ⟨S4x5x4096, .i1⟩
  | 28 => ⟨S_, .i32⟩
  | 29 => ⟨S4x5x4096, .i32⟩
  | 30 => ⟨S4x5x4096, .i32⟩
  | 31 => ⟨S4x5x4096, .i32⟩
  | 32 => ⟨S_, .i32⟩
  | 33 => ⟨S4x5x4096, .i32⟩
  | 34 => ⟨S4x5x4096, .i1⟩
  | 35 => ⟨S_, .i32⟩
  | 36 => ⟨S4x5x4096, .i32⟩
  | 37 => ⟨S4x5x4096, .i32⟩
  | 38 => ⟨S4x5x4096, .i32⟩
  | 39 => ⟨S4x5x4096x1, .i32⟩
  | 40 => ⟨S4x5x4096x1, .i32⟩
  | 41 => ⟨S4x5x4096x2, .i32⟩
  | 42 => ⟨S4x5x4096x512, .f32⟩
  | 43 => ⟨S4x5x4096x1, .i1⟩
  | 44 => ⟨S4x5x4096x1, .f32⟩
  | 45 => ⟨S4x5x4096x512, .f32⟩
  | 46 => ⟨S4x5x4096x512, .f32⟩
  | 47 => ⟨S_, .f32⟩
  | 48 => ⟨S4x5x4096, .f32⟩
  | 49 => ⟨S4x5x4096, .f32⟩
  | 50 => ⟨S_, .f32⟩
  | 51 => ⟨S4x5x4096, .f32⟩
  | 52 => ⟨S4x5x4096, .i1⟩
  | 53 => ⟨S_, .f32⟩
  | 54 => ⟨S4x5x4096, .f32⟩
  | 55 => ⟨S4x5x4096, .i1⟩
  | 56 => ⟨S4x5x4096, .i1⟩
  | 57 => ⟨S_, .f32⟩
  | 58 => ⟨S4x5x4096, .f32⟩
  | 59 => ⟨S4x5x4096, .i1⟩
  | 60 => ⟨S4x5x4096, .i1⟩
  | 61 => ⟨S_, .f32⟩
  | 62 => ⟨S4x5x4096, .f32⟩
  | 63 => ⟨S4x5x4096, .i1⟩
  | 64 => ⟨S4x5x4096, .i1⟩
  | 65 => ⟨S_, .i32⟩
  | 66 => ⟨S_, .i32⟩
  | 67 => ⟨S_, .f32⟩
  | 68 => ⟨S4x5x4096, .f32⟩
  | 69 => ⟨S4x5x4096, .f32⟩
  | 70 => ⟨S_, .f32⟩
  | 71 => ⟨S4x5x4096, .f32⟩
  | 72 => ⟨S4x5x4096, .f32⟩
  | 73 => ⟨S4x5x4096, .i32⟩
  | 74 => ⟨S_, .i32⟩
  | 75 => ⟨S_, .i32⟩
  | 76 => ⟨S_, .f32⟩
  | 77 => ⟨S4x5x4096, .f32⟩
  | 78 => ⟨S4x5x4096, .f32⟩
  | 79 => ⟨S_, .f32⟩
  | 80 => ⟨S4x5x4096, .f32⟩
  | 81 => ⟨S4x5x4096, .f32⟩
  | 82 => ⟨S4x5x4096, .i32⟩
  | 83 => ⟨S_, .i32⟩
  | 84 => ⟨S4x5x4096, .i32⟩
  | 85 => ⟨S4x5x4096, .i1⟩
  | 86 => ⟨S_, .i32⟩
  | 87 => ⟨S4x5x4096, .i32⟩
  | 88 => ⟨S4x5x4096, .i32⟩
  | 89 => ⟨S4x5x4096, .i32⟩
  | 90 => ⟨S_, .i32⟩
  | 91 => ⟨S4x5x4096, .i32⟩
  | 92 => ⟨S4x5x4096, .i1⟩
  | 93 => ⟨S_, .i32⟩
  | 94 => ⟨S4x5x4096, .i32⟩
  | 95 => ⟨S4x5x4096, .i32⟩
  | 96 => ⟨S4x5x4096, .i32⟩
  | 97 => ⟨S4x5x4096x1, .i32⟩
  | 98 => ⟨S4x5x4096x1, .i32⟩
  | 99 => ⟨S4x5x4096x2, .i32⟩
  | 100 => ⟨S4x5x4096x512, .f32⟩
  | 101 => ⟨S4x5x4096x1, .i1⟩
  | 102 => ⟨S4x5x4096x1, .f32⟩
  | 103 => ⟨S4x5x4096x512, .f32⟩
  | 104 => ⟨S4x5x4096x512, .f32⟩
  | 105 => ⟨S_, .f32⟩
  | 106 => ⟨S4x5x4096, .f32⟩
  | 107 => ⟨S4x5x4096, .f32⟩
  | 108 => ⟨S_, .f32⟩
  | 109 => ⟨S4x5x4096, .f32⟩
  | 110 => ⟨S4x5x4096, .f32⟩
  | 111 => ⟨S_, .f32⟩
  | 112 => ⟨S4x5x4096, .f32⟩
  | 113 => ⟨S4x5x4096, .i1⟩
  | 114 => ⟨S_, .f32⟩
  | 115 => ⟨S4x5x4096, .f32⟩
  | 116 => ⟨S4x5x4096, .i1⟩
  | 117 => ⟨S4x5x4096, .i1⟩
  | 118 => ⟨S_, .f32⟩
  | 119 => ⟨S4x5x4096, .f32⟩
  | 120 => ⟨S4x5x4096, .i1⟩
  | 121 => ⟨S4x5x4096, .i1⟩
  | 122 => ⟨S_, .f32⟩
  | 123 => ⟨S4x5x4096, .f32⟩
  | 124 => ⟨S4x5x4096, .i1⟩
  | 125 => ⟨S4x5x4096, .i1⟩
  | 126 => ⟨S_, .i32⟩
  | 127 => ⟨S_, .i32⟩
  | _ => ⟨S4x256x128x128, .f32⟩

abbrev hbmTy0_2 (i : Nat) : BufTy := match i % 128 with
  | 0 => ⟨S_, .f32⟩
  | 1 => ⟨S4x5x4096, .f32⟩
  | 2 => ⟨S4x5x4096, .f32⟩
  | 3 => ⟨S_, .f32⟩
  | 4 => ⟨S4x5x4096, .f32⟩
  | 5 => ⟨S4x5x4096, .f32⟩
  | 6 => ⟨S4x5x4096, .i32⟩
  | 7 => ⟨S_, .i32⟩
  | 8 => ⟨S_, .i32⟩
  | 9 => ⟨S_, .f32⟩
  | 10 => ⟨S4x5x4096, .f32⟩
  | 11 => ⟨S4x5x4096, .f32⟩
  | 12 => ⟨S_, .f32⟩
  | 13 => ⟨S4x5x4096, .f32⟩
  | 14 => ⟨S4x5x4096, .f32⟩
  | 15 => ⟨S4x5x4096, .i32⟩
  | 16 => ⟨S_, .i32⟩
  | 17 => ⟨S4x5x4096, .i32⟩
  | 18 => ⟨S4x5x4096, .i1⟩
  | 19 => ⟨S_, .i32⟩
  | 20 => ⟨S4x5x4096, .i32⟩
  | 21 => ⟨S4x5x4096, .i32⟩
  | 22 => ⟨S4x5x4096, .i32⟩
  | 23 => ⟨S_, .i32⟩
  | 24 => ⟨S4x5x4096, .i32⟩
  | 25 => ⟨S4x5x4096, .i1⟩
  | 26 => ⟨S_, .i32⟩
  | 27 => ⟨S4x5x4096, .i32⟩
  | 28 => ⟨S4x5x4096, .i32⟩
  | 29 => ⟨S4x5x4096, .i32⟩
  | 30 => ⟨S4x5x4096x1, .i32⟩
  | 31 => ⟨S4x5x4096x1, .i32⟩
  | 32 => ⟨S4x5x4096x2, .i32⟩
  | 33 => ⟨S4x5x4096x512, .f32⟩
  | 34 => ⟨S4x5x4096x1, .i1⟩
  | 35 => ⟨S4x5x4096x1, .f32⟩
  | 36 => ⟨S4x5x4096x512, .f32⟩
  | 37 => ⟨S4x5x4096x512, .f32⟩
  | 38 => ⟨S4x5x4096, .f32⟩
  | 39 => ⟨S4x5x4096x1, .f32⟩
  | 40 => ⟨S4x5x4096x512, .f32⟩
  | 41 => ⟨S4x5x4096x512, .f32⟩
  | 42 => ⟨S4x5x4096, .f32⟩
  | 43 => ⟨S4x5x4096x1, .f32⟩
  | 44 => ⟨S4x5x4096x512, .f32⟩
  | 45 => ⟨S4x5x4096x512, .f32⟩
  | 46 => ⟨S4x5x4096x512, .f32⟩
  | 47 => ⟨S4x5x4096, .f32⟩
  | 48 => ⟨S4x5x4096x1, .f32⟩
  | 49 => ⟨S4x5x4096x512, .f32⟩
  | 50 => ⟨S4x5x4096x512, .f32⟩
  | 51 => ⟨S4x5x4096x512, .f32⟩
  | 52 => ⟨S4x5x4096, .f32⟩
  | 53 => ⟨S4x5x4096x1, .f32⟩
  | 54 => ⟨S4x5x4096x512, .f32⟩
  | 55 => ⟨S4x5x4096x512, .f32⟩
  | 56 => ⟨S4x5x4096x512, .f32⟩
  | 57 => ⟨S4x4096x256, .f32⟩
  | _ => ⟨S4x256x128x128, .f32⟩

abbrev hbmTy (i : Nat) : BufTy := match i / 128 with
  | 0 => hbmTy0_0 i
  | 1 => hbmTy0_1 i
  | 2 => hbmTy0_2 i
  | _ => ⟨S4x256x128x128, .f32⟩

abbrev bufTy : (tb : Table) → Fin (tcTables nBuf tb) → BufTy
  | .hbm, ⟨i, _⟩ => hbmTy i
  | .local _ .vmem, ⟨0, _⟩ => ⟨S1x5x512x512, .f32⟩
  | .local _ .vmem, ⟨1, _⟩ => ⟨S1x5x512x512, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | _, _ => ⟨S4x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_cst_6 : Ref sig .tc := ⟨.hbm, 35, rfl⟩
abbrev main_v18 : Ref sig .tc := ⟨.hbm, 36, rfl⟩
abbrev main_v19 : Ref sig .tc := ⟨.hbm, 37, rfl⟩
abbrev main_cst_7 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_8 : Ref sig .tc := ⟨.hbm, 43, rfl⟩
abbrev main_v24 : Ref sig .tc := ⟨.hbm, 44, rfl⟩
abbrev main_v25 : Ref sig .tc := ⟨.hbm, 45, rfl⟩
abbrev main_cst_9 : Ref sig .tc := ⟨.hbm, 46, rfl⟩
abbrev main_v26 : Ref sig .tc := ⟨.hbm, 47, rfl⟩
abbrev main_v27 : Ref sig .tc := ⟨.hbm, 48, rfl⟩
abbrev main_cst_10 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_11 : Ref sig .tc := ⟨.hbm, 56, rfl⟩
abbrev main_v34 : Ref sig .tc := ⟨.hbm, 57, rfl⟩
abbrev main_v35 : Ref sig .tc := ⟨.hbm, 58, rfl⟩
abbrev main_cst_12 : Ref sig .tc := ⟨.hbm, 59, rfl⟩
abbrev main_v36 : Ref sig .tc := ⟨.hbm, 60, rfl⟩
abbrev main_v37 : Ref sig .tc := ⟨.hbm, 61, rfl⟩
abbrev main_cst_13 : Ref sig .tc := ⟨.hbm, 62, rfl⟩
abbrev main_v38 : Ref sig .tc := ⟨.hbm, 63, rfl⟩
abbrev main_v39 : Ref sig .tc := ⟨.hbm, 64, rfl⟩
abbrev main_cst_14 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_15 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_16 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c : Ref sig .tc := ⟨.hbm, 77, rfl⟩
abbrev main_c_17 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_v49 : Ref sig .tc := ⟨.hbm, 84, rfl⟩
abbrev main_v50 : Ref sig .tc := ⟨.hbm, 85, rfl⟩
abbrev main_c_18 : Ref sig .tc := ⟨.hbm, 86, rfl⟩
abbrev main_c_19 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_v51 : Ref sig .tc := ⟨.hbm, 93, rfl⟩
abbrev main_v52 : Ref sig .tc := ⟨.hbm, 94, rfl⟩
abbrev main_c_20 : Ref sig .tc := ⟨.hbm, 95, rfl⟩
abbrev main_v53 : Ref sig .tc := ⟨.hbm, 96, rfl⟩
abbrev main_v54 : Ref sig .tc := ⟨.hbm, 97, rfl⟩
abbrev main_c_21 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_c_22 : Ref sig .tc := ⟨.hbm, 102, rfl⟩
abbrev main_v58 : Ref sig .tc := ⟨.hbm, 103, rfl⟩
abbrev main_v59 : Ref sig .tc := ⟨.hbm, 104, rfl⟩
abbrev main_c_23 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_24 : Ref sig .tc := ⟨.hbm, 117, rfl⟩
abbrev main_v71 : Ref sig .tc := ⟨.hbm, 118, rfl⟩
abbrev main_v72 : Ref sig .tc := ⟨.hbm, 119, rfl⟩
abbrev main_cst_25 : Ref sig .tc := ⟨.hbm, 120, rfl⟩
abbrev main_v73 : Ref sig .tc := ⟨.hbm, 121, rfl⟩
abbrev main_v74 : Ref sig .tc := ⟨.hbm, 122, rfl⟩
abbrev main_cst_26 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_cst_27 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_28 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_c_29 : Ref sig .tc := ⟨.hbm, 135, rfl⟩
abbrev main_c_30 : Ref sig .tc := ⟨.hbm, 136, rfl⟩
abbrev main_call3_v0 : Ref sig .tc := ⟨.hbm, 137, rfl⟩
abbrev main_call3_v1 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_v84 : Ref sig .tc := ⟨.hbm, 142, rfl⟩
abbrev main_v85 : Ref sig .tc := ⟨.hbm, 143, rfl⟩
abbrev main_c_31 : Ref sig .tc := ⟨.hbm, 144, rfl⟩
abbrev main_c_32 : Ref sig .tc := ⟨.hbm, 145, rfl⟩
abbrev main_call4_v0 : Ref sig .tc := ⟨.hbm, 146, rfl⟩
abbrev main_call4_v1 : Ref sig .tc := ⟨.hbm, 147, rfl⟩
abbrev main_call4_v2 : Ref sig .tc := ⟨.hbm, 148, rfl⟩
abbrev main_call4_v3 : Ref sig .tc := ⟨.hbm, 149, rfl⟩
abbrev main_call4_v4 : Ref sig .tc := ⟨.hbm, 150, rfl⟩
abbrev main_v86 : Ref sig .tc := ⟨.hbm, 151, rfl⟩
abbrev main_v87 : Ref sig .tc := ⟨.hbm, 152, rfl⟩
abbrev main_c_33 : Ref sig .tc := ⟨.hbm, 153, rfl⟩
abbrev main_v88 : Ref sig .tc := ⟨.hbm, 154, rfl⟩
abbrev main_v89 : Ref sig .tc := ⟨.hbm, 155, rfl⟩
abbrev main_c_34 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_c_35 : Ref sig .tc := ⟨.hbm, 160, rfl⟩
abbrev main_v93 : Ref sig .tc := ⟨.hbm, 161, rfl⟩
abbrev main_v94 : Ref sig .tc := ⟨.hbm, 162, rfl⟩
abbrev main_c_36 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_cst_37 : Ref sig .tc := ⟨.hbm, 175, rfl⟩
abbrev main_v106 : Ref sig .tc := ⟨.hbm, 176, rfl⟩
abbrev main_v107 : Ref sig .tc := ⟨.hbm, 177, rfl⟩
abbrev main_cst_38 : Ref sig .tc := ⟨.hbm, 178, rfl⟩
abbrev main_v108 : Ref sig .tc := ⟨.hbm, 179, rfl⟩
abbrev main_v109 : Ref sig .tc := ⟨.hbm, 180, rfl⟩
abbrev main_cst_39 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_cst_40 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_cst_41 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_c_42 : Ref sig .tc := ⟨.hbm, 193, rfl⟩
abbrev main_c_43 : Ref sig .tc := ⟨.hbm, 194, rfl⟩
abbrev main_call5_v0 : Ref sig .tc := ⟨.hbm, 195, rfl⟩
abbrev main_call5_v1 : Ref sig .tc := ⟨.hbm, 196, rfl⟩
abbrev main_call5_v2 : Ref sig .tc := ⟨.hbm, 197, rfl⟩
abbrev main_call5_v3 : Ref sig .tc := ⟨.hbm, 198, rfl⟩
abbrev main_call5_v4 : Ref sig .tc := ⟨.hbm, 199, rfl⟩
abbrev main_v119 : Ref sig .tc := ⟨.hbm, 200, rfl⟩
abbrev main_v120 : Ref sig .tc := ⟨.hbm, 201, rfl⟩
abbrev main_c_44 : Ref sig .tc := ⟨.hbm, 202, rfl⟩
abbrev main_c_45 : Ref sig .tc := ⟨.hbm, 203, rfl⟩
abbrev main_call6_v0 : Ref sig .tc := ⟨.hbm, 204, rfl⟩
abbrev main_call6_v1 : Ref sig .tc := ⟨.hbm, 205, rfl⟩
abbrev main_call6_v2 : Ref sig .tc := ⟨.hbm, 206, rfl⟩
abbrev main_call6_v3 : Ref sig .tc := ⟨.hbm, 207, rfl⟩
abbrev main_call6_v4 : Ref sig .tc := ⟨.hbm, 208, rfl⟩
abbrev main_v121 : Ref sig .tc := ⟨.hbm, 209, rfl⟩
abbrev main_v122 : Ref sig .tc := ⟨.hbm, 210, rfl⟩
abbrev main_c_46 : Ref sig .tc := ⟨.hbm, 211, rfl⟩
abbrev main_v123 : Ref sig .tc := ⟨.hbm, 212, rfl⟩
abbrev main_v124 : Ref sig .tc := ⟨.hbm, 213, rfl⟩
abbrev main_c_47 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_c_48 : Ref sig .tc := ⟨.hbm, 218, rfl⟩
abbrev main_v128 : Ref sig .tc := ⟨.hbm, 219, rfl⟩
abbrev main_v129 : Ref sig .tc := ⟨.hbm, 220, rfl⟩
abbrev main_c_49 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_cst_50 : Ref sig .tc := ⟨.hbm, 233, rfl⟩
abbrev main_v141 : Ref sig .tc := ⟨.hbm, 234, rfl⟩
abbrev main_v142 : Ref sig .tc := ⟨.hbm, 235, rfl⟩
abbrev main_cst_51 : Ref sig .tc := ⟨.hbm, 236, rfl⟩
abbrev main_v143 : Ref sig .tc := ⟨.hbm, 237, rfl⟩
abbrev main_v144 : Ref sig .tc := ⟨.hbm, 238, rfl⟩
abbrev main_cst_52 : Ref sig .tc := ⟨.hbm, 239, rfl⟩
abbrev main_v145 : Ref sig .tc := ⟨.hbm, 240, rfl⟩
abbrev main_v146 : Ref sig .tc := ⟨.hbm, 241, rfl⟩
abbrev main_cst_53 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_cst_54 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_cst_55 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_c_56 : Ref sig .tc := ⟨.hbm, 254, rfl⟩
abbrev main_c_57 : Ref sig .tc := ⟨.hbm, 255, rfl⟩
abbrev main_call7_v0 : Ref sig .tc := ⟨.hbm, 256, rfl⟩
abbrev main_call7_v1 : Ref sig .tc := ⟨.hbm, 257, rfl⟩
abbrev main_call7_v2 : Ref sig .tc := ⟨.hbm, 258, rfl⟩
abbrev main_call7_v3 : Ref sig .tc := ⟨.hbm, 259, rfl⟩
abbrev main_call7_v4 : Ref sig .tc := ⟨.hbm, 260, rfl⟩
abbrev main_v156 : Ref sig .tc := ⟨.hbm, 261, rfl⟩
abbrev main_v157 : Ref sig .tc := ⟨.hbm, 262, rfl⟩
abbrev main_c_58 : Ref sig .tc := ⟨.hbm, 263, rfl⟩
abbrev main_c_59 : Ref sig .tc := ⟨.hbm, 264, rfl⟩
abbrev main_call8_v0 : Ref sig .tc := ⟨.hbm, 265, rfl⟩
abbrev main_call8_v1 : Ref sig .tc := ⟨.hbm, 266, rfl⟩
abbrev main_call8_v2 : Ref sig .tc := ⟨.hbm, 267, rfl⟩
abbrev main_call8_v3 : Ref sig .tc := ⟨.hbm, 268, rfl⟩
abbrev main_call8_v4 : Ref sig .tc := ⟨.hbm, 269, rfl⟩
abbrev main_v158 : Ref sig .tc := ⟨.hbm, 270, rfl⟩
abbrev main_v159 : Ref sig .tc := ⟨.hbm, 271, rfl⟩
abbrev main_c_60 : Ref sig .tc := ⟨.hbm, 272, rfl⟩
abbrev main_v160 : Ref sig .tc := ⟨.hbm, 273, rfl⟩
abbrev main_v161 : Ref sig .tc := ⟨.hbm, 274, rfl⟩
abbrev main_c_61 : Ref sig .tc := ⟨.hbm, 275, rfl⟩
abbrev main_v162 : Ref sig .tc := ⟨.hbm, 276, rfl⟩
abbrev main_v163 : Ref sig .tc := ⟨.hbm, 277, rfl⟩
abbrev main_v164 : Ref sig .tc := ⟨.hbm, 278, rfl⟩
abbrev main_c_62 : Ref sig .tc := ⟨.hbm, 279, rfl⟩
abbrev main_v165 : Ref sig .tc := ⟨.hbm, 280, rfl⟩
abbrev main_v166 : Ref sig .tc := ⟨.hbm, 281, rfl⟩
abbrev main_c_63 : Ref sig .tc := ⟨.hbm, 282, rfl⟩
abbrev main_v167 : Ref sig .tc := ⟨.hbm, 283, rfl⟩
abbrev main_v168 : Ref sig .tc := ⟨.hbm, 284, rfl⟩
abbrev main_v169 : Ref sig .tc := ⟨.hbm, 285, rfl⟩
abbrev main_v170 : Ref sig .tc := ⟨.hbm, 286, rfl⟩
abbrev main_v171 : Ref sig .tc := ⟨.hbm, 287, rfl⟩
abbrev main_v172 : Ref sig .tc := ⟨.hbm, 288, rfl⟩
abbrev main_v173 : Ref sig .tc := ⟨.hbm, 289, rfl⟩
abbrev main_v174 : Ref sig .tc := ⟨.hbm, 290, rfl⟩
abbrev main_v175 : Ref sig .tc := ⟨.hbm, 291, rfl⟩
abbrev main_v176 : Ref sig .tc := ⟨.hbm, 292, rfl⟩
abbrev main_v177 : Ref sig .tc := ⟨.hbm, 293, rfl⟩
abbrev main_v178 : Ref sig .tc := ⟨.hbm, 294, rfl⟩
abbrev main_v179 : Ref sig .tc := ⟨.hbm, 295, rfl⟩
abbrev main_v180 : Ref sig .tc := ⟨.hbm, 296, rfl⟩
abbrev main_v181 : Ref sig .tc := ⟨.hbm, 297, rfl⟩
abbrev main_v182 : Ref sig .tc := ⟨.hbm, 298, rfl⟩
abbrev main_v183 : Ref sig .tc := ⟨.hbm, 299, rfl⟩
abbrev main_v184 : Ref sig .tc := ⟨.hbm, 300, rfl⟩
abbrev main_v185 : Ref sig .tc := ⟨.hbm, 301, rfl⟩
abbrev main_v186 : Ref sig .tc := ⟨.hbm, 302, rfl⟩
abbrev main_v187 : Ref sig .tc := ⟨.hbm, 303, rfl⟩
abbrev main_v188 : Ref sig .tc := ⟨.hbm, 304, rfl⟩
abbrev main_v189 : Ref sig .tc := ⟨.hbm, 305, rfl⟩
abbrev main_v190 : Ref sig .tc := ⟨.hbm, 306, rfl⟩
abbrev main_v191 : Ref sig .tc := ⟨.hbm, 307, rfl⟩
abbrev main_v192 : Ref sig .tc := ⟨.hbm, 308, rfl⟩
abbrev main_v193 : Ref sig .tc := ⟨.hbm, 309, rfl⟩
abbrev main_v194 : Ref sig .tc := ⟨.hbm, 310, rfl⟩
abbrev main_v195 : Ref sig .tc := ⟨.hbm, 311, rfl⟩
abbrev main_v196 : Ref sig .tc := ⟨.hbm, 312, rfl⟩
abbrev main_v197 : Ref sig .tc := ⟨.hbm, 313, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x5x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S4x4096x2_S4x1x4096x2_0_2_3 : S4x4096x2.BroadcastsInDim S4x1x4096x2 (![0, 2, 3] : Fin 3 → Fin S4x1x4096x2.rank)
  bcast_S_S4x5x4096x2 : S_.BroadcastsInDim S4x5x4096x2 (![] : Fin 0 → Fin S4x5x4096x2.rank)
  bcast_S4x1x4096x2_S4x5x4096x2_0_1_2_3 : S4x1x4096x2.BroadcastsInDim S4x5x4096x2 (![0, 1, 2, 3] : Fin 4 → Fin S4x5x4096x2.rank)
  concatenates_S4x256x128x128_S4x256x128x128_S4x512x128x128_d1 : Shape.Concatenates [S4x256x128x128, S4x256x128x128] S4x512x128x128 1
  transposes_S4x512x128x128_S4x128x128x512_0_2_3_1 : S4x512x128x128.Transposes [0, 2, 3, 1] S4x128x128x512
  slices_S4x5x4096x2_S4x5x4096x1_0_0_0_0 : S4x5x4096x2.Slices ![0, 0, 0, 0] S4x5x4096x1
  shapeCasts_S4x5x4096x1_S4x5x4096 : S4x5x4096x1.ShapeCasts S4x5x4096
  bcast_S_S4x5x4096 : S_.BroadcastsInDim S4x5x4096 (![] : Fin 0 → Fin S4x5x4096.rank)
  slices_S4x5x4096x2_S4x5x4096x1_0_0_0_1 : S4x5x4096x2.Slices ![0, 0, 0, 1] S4x5x4096x1
  bcast_S4x5x4096_S4x5x4096x1_0_1_2 : S4x5x4096.BroadcastsInDim S4x5x4096x1 (![0, 1, 2] : Fin 3 → Fin S4x5x4096x1.rank)
  concatenates_S4x5x4096x1_S4x5x4096x1_S4x5x4096x2_d3 : Shape.Concatenates [S4x5x4096x1, S4x5x4096x1] S4x5x4096x2 3
  bcast_S4x5x4096x1_S4x5x4096x512_0_1_2_3 : S4x5x4096x1.BroadcastsInDim S4x5x4096x512 (![0, 1, 2, 3] : Fin 4 → Fin S4x5x4096x512.rank)
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  reduces_S512x256_S512 : S512x256.Reduces [1] S512
  shapeCasts_S512_S512x1 : S512.ShapeCasts S512x1
  inb_S1x5x512x512_S1x1x512x256_0_0_0_0 : ∀ a, (![0, 0, 0, 0] : Fin 4 → Nat) a + S1x1x512x256.size a ≤ S1x5x512x512.size a
  h_S1x1x512x256 : 0 < S1x1x512x256.numel
  shapeCasts_S1x1x512x256_S512x256 : S1x1x512x256.ShapeCasts S512x256
  inb_S1x5x512x512_S1x1x512x256_0_1_0_0 : ∀ a, (![0, 1, 0, 0] : Fin 4 → Nat) a + S1x1x512x256.size a ≤ S1x5x512x512.size a
  inb_S1x5x512x512_S1x1x512x256_0_2_0_0 : ∀ a, (![0, 2, 0, 0] : Fin 4 → Nat) a + S1x1x512x256.size a ≤ S1x5x512x512.size a
  inb_S1x5x512x512_S1x1x512x256_0_3_0_0 : ∀ a, (![0, 3, 0, 0] : Fin 4 → Nat) a + S1x1x512x256.size a ≤ S1x5x512x512.size a
  inb_S1x5x512x512_S1x1x512x256_0_4_0_0 : ∀ a, (![0, 4, 0, 0] : Fin 4 → Nat) a + S1x1x512x256.size a ≤ S1x5x512x512.size a
  inb_S1x5x512x512_S1x1x512x256_0_0_0_256 : ∀ a, (![0, 0, 0, 256] : Fin 4 → Nat) a + S1x1x512x256.size a ≤ S1x5x512x512.size a
  broadcasts_S512x1_S512x256 : S512x1.Broadcasts S512x256
  inb_S1x5x512x512_S1x1x512x256_0_1_0_256 : ∀ a, (![0, 1, 0, 256] : Fin 4 → Nat) a + S1x1x512x256.size a ≤ S1x5x512x512.size a
  inb_S1x5x512x512_S1x1x512x256_0_2_0_256 : ∀ a, (![0, 2, 0, 256] : Fin 4 → Nat) a + S1x1x512x256.size a ≤ S1x5x512x512.size a
  inb_S1x5x512x512_S1x1x512x256_0_3_0_256 : ∀ a, (![0, 3, 0, 256] : Fin 4 → Nat) a + S1x1x512x256.size a ≤ S1x5x512x512.size a
  inb_S1x5x512x512_S1x1x512x256_0_4_0_256 : ∀ a, (![0, 4, 0, 256] : Fin 4 → Nat) a + S1x1x512x256.size a ≤ S1x5x512x512.size a
  shapeCasts_S512x256_S1x512x256 : S512x256.ShapeCasts S1x512x256
  gather_S4x128x128x512_S4x5x4096x2_S4x5x4096x512_3_12_0_0_12_3_111512_wf : GatherDims.WF S4x128x128x512 S4x5x4096x2 S4x5x4096x512 [3] [1, 2] [0] [1, 2] [0] 3 ![1, 1, 1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5x512x512.size a ≤ S4x5x4096x512.size a
  hwx0_0 : ∀ i : grid0.Coords, EltTy.bits .f32 = 32 ∨ (Rect.block (s := S4x5x4096x512) S1x5x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S4x4096x256.size a
  hwx0_1 : ∀ i : grid0.Coords, EltTy.bits .f32 = 32 ∨ (Rect.block (s := S4x4096x256) S1x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S4x4096x256.size a
  hwx0_2 : ∀ i : grid0.Coords, EltTy.bits .f32 = 32 ∨ (Rect.block (s := S4x4096x256) S1x512x256.size (cc0_transform_2 i) (hinb0_2 i)).WholeWords (EltTy.packing .f32)

variable [Facts₀]

def gather_S4x128x128x512_S4x5x4096x2_S4x5x4096x512_3_12_0_0_12_3_111512 : GatherDims S4x128x128x512 S4x5x4096x2 S4x5x4096x512 where
  offsetDims := [3]
  collapsedSliceDims := [1, 2]
  operandBatchingDims := [0]
  startIndicesBatchingDims := [0]
  startIndexMap := [1, 2]
  indexVectorDim := 3
  sliceSizes := ![1, 1, 1, 512]
  wf := gather_S4x128x128x512_S4x5x4096x2_S4x5x4096x512_3_12_0_0_12_3_111512_wf

abbrev win0_0 : Pipeline.Window sig grid0 :=
  Pipeline.Window.ofSpec (Memref.whole main_v196) S1x5x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v197) S1x512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x256x128x128 : Shape := ⟨4, ![4, 256, 128, 128]⟩
abbrev S4x4096x256 : Shape := ⟨3, ![4, 4096, 256]⟩
abbrev S4x4096x2 : Shape := ⟨3, ![4, 4096, 2]⟩
abbrev S4x5x4096x2 : Shape := ⟨4, ![4, 5, 4096, 2]⟩
abbrev S4x1x4096x2 : Shape := ⟨4, ![4, 1, 4096, 2]⟩
abbrev S_ : Shape := ⟨0, ![]⟩
abbrev S4x256x4096 : Shape := ⟨3, ![4, 256, 4096]⟩
abbrev S4x256x1x4096 : Shape := ⟨4, ![4, 256, 1, 4096]⟩
abbrev S4x5x4096x1 : Shape := ⟨4, ![4, 5, 4096, 1]⟩
abbrev S4x5x4096 : Shape := ⟨3, ![4, 5, 4096]⟩
abbrev S4x256x16384 : Shape := ⟨3, ![4, 256, 16384]⟩
abbrev S4x20480 : Shape := ⟨2, ![4, 20480]⟩
abbrev S4x20480x1 : Shape := ⟨3, ![4, 20480, 1]⟩
abbrev S4x256x20480 : Shape := ⟨3, ![4, 256, 20480]⟩
abbrev S4x256x5x4096 : Shape := ⟨4, ![4, 256, 5, 4096]⟩
abbrev S4x1x5x4096 : Shape := ⟨4, ![4, 1, 5, 4096]⟩
abbrev S4x1x4096 : Shape := ⟨3, ![4, 1, 4096]⟩
abbrev S4x4096 : Shape := ⟨2, ![4, 4096]⟩

abbrev nBuf : Space → Nat
  | .hbm => 608
  | .vmem => 0
  | .smem => 0
  | _ => 0

abbrev hbmTy0_0 (i : Nat) : BufTy := match i % 128 with
  | 0 => ⟨S4x256x128x128, .f32⟩
  | 1 => ⟨S4x4096x256, .f32⟩
  | 2 => ⟨S4x4096x2, .f32⟩
  | 3 => ⟨S4x256x128x128, .f32⟩
  | 4 => ⟨S4x5x4096x2, .f32⟩
  | 5 => ⟨S4x1x4096x2, .f32⟩
  | 6 => ⟨S_, .f32⟩
  | 7 => ⟨S4x5x4096x2, .f32⟩
  | 8 => ⟨S4x5x4096x2, .f32⟩
  | 9 => ⟨S_, .f32⟩
  | 10 => ⟨S4x5x4096x2, .f32⟩
  | 11 => ⟨S4x5x4096x2, .f32⟩
  | 12 => ⟨S_, .f32⟩
  | 13 => ⟨S4x5x4096x2, .f32⟩
  | 14 => ⟨S4x5x4096x2, .f32⟩
  | 15 => ⟨S_, .f32⟩
  | 16 => ⟨S4x5x4096x2, .f32⟩
  | 17 => ⟨S4x5x4096x2, .f32⟩
  | 18 => ⟨S4x5x4096x2, .f32⟩
  | 19 => ⟨S4x5x4096x2, .f32⟩
  | 20 => ⟨S_, .f32⟩
  | 21 => ⟨S_, .f32⟩
  | 22 => ⟨S_, .f32⟩
  | 23 => ⟨S4x5x4096x2, .f32⟩
  | 24 => ⟨S4x5x4096x2, .f32⟩
  | 25 => ⟨S_, .f32⟩
  | 26 => ⟨S4x5x4096x2, .f32⟩
  | 27 => ⟨S4x5x4096x2, .f32⟩
  | 28 => ⟨S4x256x4096, .f32⟩
  | 29 => ⟨S4x256x1x4096, .f32⟩
  | 30 => ⟨S4x5x4096x1, .f32⟩
  | 31 => ⟨S4x5x4096, .f32⟩
  | 32 => ⟨S_, .f32⟩
  | 33 => ⟨S4x5x4096, .f32⟩
  | 34 => ⟨S4x5x4096, .f32⟩
  | 35 => ⟨S_, .f32⟩
  | 36 => ⟨S4x5x4096, .f32⟩
  | 37 => ⟨S4x5x4096, .f32⟩
  | 38 => ⟨S_, .f32⟩
  | 39 => ⟨S4x5x4096, .f32⟩
  | 40 => ⟨S4x5x4096, .f32⟩
  | 41 => ⟨S4x5x4096x1, .f32⟩
  | 42 => ⟨S4x5x4096, .f32⟩
  | 43 => ⟨S_, .f32⟩
  | 44 => ⟨S4x5x4096, .f32⟩
  | 45 => ⟨S4x5x4096, .f32⟩
  | 46 => ⟨S_, .f32⟩
  | 47 => ⟨S4x5x4096, .f32⟩
  | 48 => ⟨S4x5x4096, .f32⟩
  | 49 => ⟨S_, .f32⟩
  | 50 => ⟨S4x5x4096, .f32⟩
  | 51 => ⟨S4x5x4096, .f32⟩
  | 52 => ⟨S4x5x4096, .f32⟩
  | 53 => ⟨S4x5x4096, .f32⟩
  | 54 => ⟨S4x5x4096, .f32⟩
  | 55 => ⟨S4x5x4096, .f32⟩
  | 56 => ⟨S_, .f32⟩
  | 57 => ⟨S4x5x4096, .f32⟩
  | 58 => ⟨S4x5x4096, .f32⟩
  | 59 => ⟨S_, .f32⟩
  | 60 => ⟨S4x5x4096, .f32⟩
  | 61 => ⟨S4x5x4096, .f32⟩
  | 62 => ⟨S4x256x16384, .f32⟩
  | 63 => ⟨S_, .f32⟩
  | 64 => ⟨S4x5x4096, .f32⟩
  | 65 => ⟨S4x5x4096, .i1⟩
  | 66 => ⟨S_, .f32⟩
  | 67 => ⟨S4x5x4096, .f32⟩
  | 68 => ⟨S4x5x4096, .i1⟩
  | 69 => ⟨S4x5x4096, .i1⟩
  | 70 => ⟨S_, .f32⟩
  | 71 => ⟨S4x5x4096, .f32⟩
  | 72 => ⟨S4x5x4096, .i1⟩
  | 73 => ⟨S4x5x4096, .i1⟩
  | 74 => ⟨S_, .f32⟩
  | 75 => ⟨S4x5x4096, .f32⟩
  | 76 => ⟨S4x5x4096, .i1⟩
  | 77 => ⟨S4x5x4096, .i1⟩
  | 78 => ⟨S_, .i32⟩
  | 79 => ⟨S_, .i32⟩
  | 80 => ⟨S_, .f32⟩
  | 81 => ⟨S4x5x4096, .f32⟩
  | 82 => ⟨S4x5x4096, .f32⟩
  | 83 => ⟨S_, .f32⟩
  | 84 => ⟨S4x5x4096, .f32⟩
  | 85 => ⟨S4x5x4096, .f32⟩
  | 86 => ⟨S_, .f32⟩
  | 87 => ⟨S4x5x4096, .f32⟩
  | 88 => ⟨S4x5x4096, .f32⟩
  | 89 => ⟨S_, .i32⟩
  | 90 => ⟨S_, .i32⟩
  | 91 => ⟨S_, .f32⟩
  | 92 => ⟨S4x5x4096, .f32⟩
  | 93 => ⟨S4x5x4096, .f32⟩
  | 94 => ⟨S_, .f32⟩
  | 95 => ⟨S4x5x4096, .f32⟩
  | 96 => ⟨S4x5x4096, .f32⟩
  | 97 => ⟨S4x5x4096, .f32⟩
  | 98 => ⟨S4x5x4096, .i32⟩
  | 99 => ⟨S4x20480, .i32⟩
  | 100 => ⟨S_, .i32⟩
  | 101 => ⟨S4x20480, .i32⟩
  | 102 => ⟨S4x20480, .i1⟩
  | 103 => ⟨S_, .i32⟩
  | 104 => ⟨S4x20480, .i32⟩
  | 105 => ⟨S4x20480, .i32⟩
  | 106 => ⟨S4x20480, .i32⟩
  | 107 => ⟨S4x20480x1, .i32⟩
  | 108 => ⟨S4x256x20480, .f32⟩
  | 109 => ⟨S4x256x5x4096, .f32⟩
  | 110 => ⟨S4x1x5x4096, .i1⟩
  | 111 => ⟨S4x1x5x4096, .f32⟩
  | 112 => ⟨S4x256x5x4096, .f32⟩
  | 113 => ⟨S4x256x5x4096, .f32⟩
  | 114 => ⟨S_, .f32⟩
  | 115 => ⟨S4x5x4096, .f32⟩
  | 116 => ⟨S4x5x4096, .f32⟩
  | 117 => ⟨S_, .f32⟩
  | 118 => ⟨S4x5x4096, .f32⟩
  | 119 => ⟨S4x5x4096, .i1⟩
  | 120 => ⟨S_, .f32⟩
  | 121 => ⟨S4x5x4096, .f32⟩
  | 122 => ⟨S4x5x4096, .i1⟩
  | 123 => ⟨S4x5x4096, .i1⟩
  | 124 => ⟨S_, .f32⟩
  | 125 => ⟨S4x5x4096, .f32⟩
  | 126 => ⟨S4x5x4096, .i1⟩
  | 127 => ⟨S4x5x4096, .i1⟩
  | _ => ⟨S4x256x128x128, .f32⟩

abbrev hbmTy0_1 (i : Nat) : BufTy := match i % 128 with
  | 0 => ⟨S_, .f32⟩
  | 1 => ⟨S4x5x4096, .f32⟩
  | 2 => ⟨S4x5x4096, .i1⟩
  | 3 => ⟨S4x5x4096, .i1⟩
  | 4 => ⟨S_, .i32⟩
  | 5 => ⟨S_, .i32⟩
  | 6 => ⟨S_, .f32⟩
  | 7 => ⟨S4x5x4096, .f32⟩
  | 8 => ⟨S4x5x4096, .f32⟩
  | 9 => ⟨S_, .f32⟩
  | 10 => ⟨S4x5x4096, .f32⟩
  | 11 => ⟨S4x5x4096, .f32⟩
  | 12 => ⟨S_, .f32⟩
  | 13 => ⟨S4x5x4096, .f32⟩
  | 14 => ⟨S4x5x4096, .f32⟩
  | 15 => ⟨S_, .i32⟩
  | 16 => ⟨S_, .i32⟩
  | 17 => ⟨S_, .f32⟩
  | 18 => ⟨S4x5x4096, .f32⟩
  | 19 => ⟨S4x5x4096, .f32⟩
  | 20 => ⟨S_, .f32⟩
  | 21 => ⟨S4x5x4096, .f32⟩
  | 22 => ⟨S4x5x4096, .f32⟩
  | 23 => ⟨S4x5x4096, .f32⟩
  | 24 => ⟨S4x5x4096, .i32⟩
  | 25 => ⟨S4x20480, .i32⟩
  | 26 => ⟨S_, .i32⟩
  | 27 => ⟨S4x20480, .i32⟩
  | 28 => ⟨S4x20480, .i1⟩
  | 29 => ⟨S_, .i32⟩
  | 30 => ⟨S4x20480, .i32⟩
  | 31 => ⟨S4x20480, .i32⟩
  | 32 => ⟨S4x20480, .i32⟩
  | 33 => ⟨S4x20480x1, .i32⟩
  | 34 => ⟨S4x256x20480, .f32⟩
  | 35 => ⟨S4x256x5x4096, .f32⟩
  | 36 => ⟨S4x1x5x4096, .i1⟩
  | 37 => ⟨S4x1x5x4096, .f32⟩
  | 38 => ⟨S4x256x5x4096, .f32⟩
  | 39 => ⟨S4x256x5x4096, .f32⟩
  | 40 => ⟨S_, .f32⟩
  | 41 => ⟨S4x5x4096, .f32⟩
  | 42 => ⟨S4x5x4096, .f32⟩
  | 43 => ⟨S_, .f32⟩
  | 44 => ⟨S4x5x4096, .f32⟩
  | 45 => ⟨S4x5x4096, .i1⟩
  | 46 => ⟨S_, .f32⟩
  | 47 => ⟨S4x5x4096, .f32⟩
  | 48 => ⟨S4x5x4096, .i1⟩
  | 49 => ⟨S4x5x4096, .i1⟩
  | 50 => ⟨S_, .f32⟩
  | 51 => ⟨S4x5x4096, .f32⟩
  | 52 => ⟨S4x5x4096, .i1⟩
  | 53 => ⟨S4x5x4096, .i1⟩
  | 54 => ⟨S_, .f32⟩
  | 55 => ⟨S4x5x4096, .f32⟩
  | 56 => ⟨S4x5x4096, .i1⟩
  | 57 => ⟨S4x5x4096, .i1⟩
  | 58 => ⟨S_, .i32⟩
  | 59 => ⟨S_, .i32⟩
  | 60 => ⟨S_, .f32⟩
  | 61 => ⟨S4x5x4096, .f32⟩
  | 62 => ⟨S4x5x4096, .f32⟩
  | 63 => ⟨S_, .f32⟩
  | 64 => ⟨S4x5x4096, .f32⟩
  | 65 => ⟨S4x5x4096, .f32⟩
  | 66 => ⟨S_, .f32⟩
  | 67 => ⟨S4x5x4096, .f32⟩
  | 68 => ⟨S4x5x4096, .f32⟩
  | 69 => ⟨S_, .i32⟩
  | 70 => ⟨S_, .i32⟩
  | 71 => ⟨S_, .f32⟩
  | 72 => ⟨S4x5x4096, .f32⟩
  | 73 => ⟨S4x5x4096, .f32⟩
  | 74 => ⟨S_, .f32⟩
  | 75 => ⟨S4x5x4096, .f32⟩
  | 76 => ⟨S4x5x4096, .f32⟩
  | 77 => ⟨S4x5x4096, .f32⟩
  | 78 => ⟨S4x5x4096, .i32⟩
  | 79 => ⟨S4x20480, .i32⟩
  | 80 => ⟨S_, .i32⟩
  | 81 => ⟨S4x20480, .i32⟩
  | 82 => ⟨S4x20480, .i1⟩
  | 83 => ⟨S_, .i32⟩
  | 84 => ⟨S4x20480, .i32⟩
  | 85 => ⟨S4x20480, .i32⟩
  | 86 => ⟨S4x20480, .i32⟩
  | 87 => ⟨S4x20480x1, .i32⟩
  | 88 => ⟨S4x256x20480, .f32⟩
  | 89 => ⟨S4x256x5x4096, .f32⟩
  | 90 => ⟨S4x1x5x4096, .i1⟩
  | 91 => ⟨S4x1x5x4096, .f32⟩
  | 92 => ⟨S4x256x5x4096, .f32⟩
  | 93 => ⟨S4x256x5x4096, .f32⟩
  | 94 => ⟨S_, .f32⟩
  | 95 => ⟨S4x5x4096, .f32⟩
  | 96 => ⟨S4x5x4096, .f32⟩
  | 97 => ⟨S_, .f32⟩
  | 98 => ⟨S4x5x4096, .f32⟩
  | 99 => ⟨S4x5x4096, .f32⟩
  | 100 => ⟨S_, .f32⟩
  | 101 => ⟨S4x5x4096, .f32⟩
  | 102 => ⟨S4x5x4096, .i1⟩
  | 103 => ⟨S_, .f32⟩
  | 104 => ⟨S4x5x4096, .f32⟩
  | 105 => ⟨S4x5x4096, .i1⟩
  | 106 => ⟨S4x5x4096, .i1⟩
  | 107 => ⟨S_, .f32⟩
  | 108 => ⟨S4x5x4096, .f32⟩
  | 109 => ⟨S4x5x4096, .i1⟩
  | 110 => ⟨S4x5x4096, .i1⟩
  | 111 => ⟨S_, .f32⟩
  | 112 => ⟨S4x5x4096, .f32⟩
  | 113 => ⟨S4x5x4096, .i1⟩
  | 114 => ⟨S4x5x4096, .i1⟩
  | 115 => ⟨S_, .i32⟩
  | 116 => ⟨S_, .i32⟩
  | 117 => ⟨S_, .f32⟩
  | 118 => ⟨S4x5x4096, .f32⟩
  | 119 => ⟨S4x5x4096, .f32⟩
  | 120 => ⟨S_, .f32⟩
  | 121 => ⟨S4x5x4096, .f32⟩
  | 122 => ⟨S4x5x4096, .f32⟩
  | 123 => ⟨S_, .f32⟩
  | 124 => ⟨S4x5x4096, .f32⟩
  | 125 => ⟨S4x5x4096, .f32⟩
  | 126 => ⟨S_, .i32⟩
  | 127 => ⟨S_, .i32⟩
  | _ => ⟨S4x256x128x128, .f32⟩

abbrev hbmTy0_2 (i : Nat) : BufTy := match i % 128 with
  | 0 => ⟨S_, .f32⟩
  | 1 => ⟨S4x5x4096, .f32⟩
  | 2 => ⟨S4x5x4096, .f32⟩
  | 3 => ⟨S_, .f32⟩
  | 4 => ⟨S4x5x4096, .f32⟩
  | 5 => ⟨S4x5x4096, .f32⟩
  | 6 => ⟨S4x5x4096, .f32⟩
  | 7 => ⟨S4x5x4096, .i32⟩
  | 8 => ⟨S4x20480, .i32⟩
  | 9 => ⟨S_, .i32⟩
  | 10 => ⟨S4x20480, .i32⟩
  | 11 => ⟨S4x20480, .i1⟩
  | 12 => ⟨S_, .i32⟩
  | 13 => ⟨S4x20480, .i32⟩
  | 14 => ⟨S4x20480, .i32⟩
  | 15 => ⟨S4x20480, .i32⟩
  | 16 => ⟨S4x20480x1, .i32⟩
  | 17 => ⟨S4x256x20480, .f32⟩
  | 18 => ⟨S4x256x5x4096, .f32⟩
  | 19 => ⟨S4x1x5x4096, .i1⟩
  | 20 => ⟨S4x1x5x4096, .f32⟩
  | 21 => ⟨S4x256x5x4096, .f32⟩
  | 22 => ⟨S4x256x5x4096, .f32⟩
  | 23 => ⟨S4x5x4096, .f32⟩
  | 24 => ⟨S4x1x5x4096, .f32⟩
  | 25 => ⟨S4x256x5x4096, .f32⟩
  | 26 => ⟨S4x256x5x4096, .f32⟩
  | 27 => ⟨S4x5x4096, .f32⟩
  | 28 => ⟨S4x1x5x4096, .f32⟩
  | 29 => ⟨S4x256x5x4096, .f32⟩
  | 30 => ⟨S4x256x5x4096, .f32⟩
  | 31 => ⟨S4x256x5x4096, .f32⟩
  | 32 => ⟨S4x5x4096, .f32⟩
  | 33 => ⟨S4x1x5x4096, .f32⟩
  | 34 => ⟨S4x256x5x4096, .f32⟩
  | 35 => ⟨S4x256x5x4096, .f32⟩
  | 36 => ⟨S4x256x5x4096, .f32⟩
  | 37 => ⟨S4x5x4096, .f32⟩
  | 38 => ⟨S4x1x5x4096, .f32⟩
  | 39 => ⟨S4x256x5x4096, .f32⟩
  | 40 => ⟨S4x256x5x4096, .f32⟩
  | 41 => ⟨S4x256x5x4096, .f32⟩
  | 42 => ⟨S4x5x4096x1, .f32⟩
  | 43 => ⟨S4x5x4096, .f32⟩
  | 44 => ⟨S_, .f32⟩
  | 45 => ⟨S4x5x4096, .f32⟩
  | 46 => ⟨S4x5x4096, .f32⟩
  | 47 => ⟨S_, .f32⟩
  | 48 => ⟨S4x5x4096, .f32⟩
  | 49 => ⟨S4x5x4096, .f32⟩
  | 50 => ⟨S_, .f32⟩
  | 51 => ⟨S4x5x4096, .f32⟩
  | 52 => ⟨S4x5x4096, .f32⟩
  | 53 => ⟨S4x5x4096x1, .f32⟩
  | 54 => ⟨S4x5x4096, .f32⟩
  | 55 => ⟨S_, .f32⟩
  | 56 => ⟨S4x5x4096, .f32⟩
  | 57 => ⟨S4x5x4096, .f32⟩
  | 58 => ⟨S_, .f32⟩
  | 59 => ⟨S4x5x4096, .f32⟩
  | 60 => ⟨S4x5x4096, .f32⟩
  | 61 => ⟨S_, .f32⟩
  | 62 => ⟨S4x5x4096, .f32⟩
  | 63 => ⟨S4x5x4096, .f32⟩
  | 64 => ⟨S4x5x4096, .f32⟩
  | 65 => ⟨S4x5x4096, .f32⟩
  | 66 => ⟨S4x5x4096, .f32⟩
  | 67 => ⟨S4x5x4096, .f32⟩
  | 68 => ⟨S_, .f32⟩
  | 69 => ⟨S4x5x4096, .f32⟩
  | 70 => ⟨S4x5x4096, .f32⟩
  | 71 => ⟨S_, .f32⟩
  | 72 => ⟨S4x5x4096, .f32⟩
  | 73 => ⟨S4x5x4096, .f32⟩
  | 74 => ⟨S4x256x16384, .f32⟩
  | 75 => ⟨S_, .f32⟩
  | 76 => ⟨S4x5x4096, .f32⟩
  | 77 => ⟨S4x5x4096, .i1⟩
  | 78 => ⟨S_, .f32⟩
  | 79 => ⟨S4x5x4096, .f32⟩
  | 80 => ⟨S4x5x4096, .i1⟩
  | 81 => ⟨S4x5x4096, .i1⟩
  | 82 => ⟨S_, .f32⟩
  | 83 => ⟨S4x5x4096, .f32⟩
  | 84 => ⟨S4x5x4096, .i1⟩
  | 85 => ⟨S4x5x4096, .i1⟩
  | 86 => ⟨S_, .f32⟩
  | 87 => ⟨S4x5x4096, .f32⟩
  | 88 => ⟨S4x5x4096, .i1⟩
  | 89 => ⟨S4x5x4096, .i1⟩
  | 90 => ⟨S_, .i32⟩
  | 91 => ⟨S_, .i32⟩
  | 92 => ⟨S_, .f32⟩
  | 93 => ⟨S4x5x4096, .f32⟩
  | 94 => ⟨S4x5x4096, .f32⟩
  | 95 => ⟨S_, .f32⟩
  | 96 => ⟨S4x5x4096, .f32⟩
  | 97 => ⟨S4x5x4096, .f32⟩
  | 98 => ⟨S_, .f32⟩
  | 99 => ⟨S4x5x4096, .f32⟩
  | 100 => ⟨S4x5x4096, .f32⟩
  | 101 => ⟨S_, .i32⟩
  | 102 => ⟨S_, .i32⟩
  | 103 => ⟨S_, .f32⟩
  | 104 => ⟨S4x5x4096, .f32⟩
  | 105 => ⟨S4x5x4096, .f32⟩
  | 106 => ⟨S_, .f32⟩
  | 107 => ⟨S4x5x4096, .f32⟩
  | 108 => ⟨S4x5x4096, .f32⟩
  | 109 => ⟨S4x5x4096, .f32⟩
  | 110 => ⟨S4x5x4096, .i32⟩
  | 111 => ⟨S4x20480, .i32⟩
  | 112 => ⟨S_, .i32⟩
  | 113 => ⟨S4x20480, .i32⟩
  | 114 => ⟨S4x20480, .i1⟩
  | 115 => ⟨S_, .i32⟩
  | 116 => ⟨S4x20480, .i32⟩
  | 117 => ⟨S4x20480, .i32⟩
  | 118 => ⟨S4x20480, .i32⟩
  | 119 => ⟨S4x20480x1, .i32⟩
  | 120 => ⟨S4x256x20480, .f32⟩
  | 121 => ⟨S4x256x5x4096, .f32⟩
  | 122 => ⟨S4x1x5x4096, .i1⟩
  | 123 => ⟨S4x1x5x4096, .f32⟩
  | 124 => ⟨S4x256x5x4096, .f32⟩
  | 125 => ⟨S4x256x5x4096, .f32⟩
  | 126 => ⟨S_, .f32⟩
  | 127 => ⟨S4x5x4096, .f32⟩
  | _ => ⟨S4x256x128x128, .f32⟩

abbrev hbmTy0_3 (i : Nat) : BufTy := match i % 128 with
  | 0 => ⟨S4x5x4096, .f32⟩
  | 1 => ⟨S_, .f32⟩
  | 2 => ⟨S4x5x4096, .f32⟩
  | 3 => ⟨S4x5x4096, .i1⟩
  | 4 => ⟨S_, .f32⟩
  | 5 => ⟨S4x5x4096, .f32⟩
  | 6 => ⟨S4x5x4096, .i1⟩
  | 7 => ⟨S4x5x4096, .i1⟩
  | 8 => ⟨S_, .f32⟩
  | 9 => ⟨S4x5x4096, .f32⟩
  | 10 => ⟨S4x5x4096, .i1⟩
  | 11 => ⟨S4x5x4096, .i1⟩
  | 12 => ⟨S_, .f32⟩
  | 13 => ⟨S4x5x4096, .f32⟩
  | 14 => ⟨S4x5x4096, .i1⟩
  | 15 => ⟨S4x5x4096, .i1⟩
  | 16 => ⟨S_, .i32⟩
  | 17 => ⟨S_, .i32⟩
  | 18 => ⟨S_, .f32⟩
  | 19 => ⟨S4x5x4096, .f32⟩
  | 20 => ⟨S4x5x4096, .f32⟩
  | 21 => ⟨S_, .f32⟩
  | 22 => ⟨S4x5x4096, .f32⟩
  | 23 => ⟨S4x5x4096, .f32⟩
  | 24 => ⟨S_, .f32⟩
  | 25 => ⟨S4x5x4096, .f32⟩
  | 26 => ⟨S4x5x4096, .f32⟩
  | 27 => ⟨S_, .i32⟩
  | 28 => ⟨S_, .i32⟩
  | 29 => ⟨S_, .f32⟩
  | 30 => ⟨S4x5x4096, .f32⟩
  | 31 => ⟨S4x5x4096, .f32⟩
  | 32 => ⟨S_, .f32⟩
  | 33 => ⟨S4x5x4096, .f32⟩
  | 34 => ⟨S4x5x4096, .f32⟩
  | 35 => ⟨S4x5x4096, .f32⟩
  | 36 => ⟨S4x5x4096, .i32⟩
  | 37 => ⟨S4x20480, .i32⟩
  | 38 => ⟨S_, .i32⟩
  | 39 => ⟨S4x20480, .i32⟩
  | 40 => ⟨S4x20480, .i1⟩
  | 41 => ⟨S_, .i32⟩
  | 42 => ⟨S4x20480, .i32⟩
  | 43 => ⟨S4x20480, .i32⟩
  | 44 => ⟨S4x20480, .i32⟩
  | 45 => ⟨S4x20480x1, .i32⟩
  | 46 => ⟨S4x256x20480, .f32⟩
  | 47 => ⟨S4x256x5x4096, .f32⟩
  | 48 => ⟨S4x1x5x4096, .i1⟩
  | 49 => ⟨S4x1x5x4096, .f32⟩
  | 50 => ⟨S4x256x5x4096, .f32⟩
  | 51 => ⟨S4x256x5x4096, .f32⟩
  | 52 => ⟨S_, .f32⟩
  | 53 => ⟨S4x5x4096, .f32⟩
  | 54 => ⟨S4x5x4096, .f32⟩
  | 55 => ⟨S_, .f32⟩
  | 56 => ⟨S4x5x4096, .f32⟩
  | 57 => ⟨S4x5x4096, .i1⟩
  | 58 => ⟨S_, .f32⟩
  | 59 => ⟨S4x5x4096, .f32⟩
  | 60 => ⟨S4x5x4096, .i1⟩
  | 61 => ⟨S4x5x4096, .i1⟩
  | 62 => ⟨S_, .f32⟩
  | 63 => ⟨S4x5x4096, .f32⟩
  | 64 => ⟨S4x5x4096, .i1⟩
  | 65 => ⟨S4x5x4096, .i1⟩
  | 66 => ⟨S_, .f32⟩
  | 67 => ⟨S4x5x4096, .f32⟩
  | 68 => ⟨S4x5x4096, .i1⟩
  | 69 => ⟨S4x5x4096, .i1⟩
  | 70 => ⟨S_, .i32⟩
  | 71 => ⟨S_, .i32⟩
  | 72 => ⟨S_, .f32⟩
  | 73 => ⟨S4x5x4096, .f32⟩
  | 74 => ⟨S4x5x4096, .f32⟩
  | 75 => ⟨S_, .f32⟩
  | 76 => ⟨S4x5x4096, .f32⟩
  | 77 => ⟨S4x5x4096, .f32⟩
  | 78 => ⟨S_, .f32⟩
  | 79 => ⟨S4x5x4096, .f32⟩
  | 80 => ⟨S4x5x4096, .f32⟩
  | 81 => ⟨S_, .i32⟩
  | 82 => ⟨S_, .i32⟩
  | 83 => ⟨S_, .f32⟩
  | 84 => ⟨S4x5x4096, .f32⟩
  | 85 => ⟨S4x5x4096, .f32⟩
  | 86 => ⟨S_, .f32⟩
  | 87 => ⟨S4x5x4096, .f32⟩
  | 88 => ⟨S4x5x4096, .f32⟩
  | 89 => ⟨S4x5x4096, .f32⟩
  | 90 => ⟨S4x5x4096, .i32⟩
  | 91 => ⟨S4x20480, .i32⟩
  | 92 => ⟨S_, .i32⟩
  | 93 => ⟨S4x20480, .i32⟩
  | 94 => ⟨S4x20480, .i1⟩
  | 95 => ⟨S_, .i32⟩
  | 96 => ⟨S4x20480, .i32⟩
  | 97 => ⟨S4x20480, .i32⟩
  | 98 => ⟨S4x20480, .i32⟩
  | 99 => ⟨S4x20480x1, .i32⟩
  | 100 => ⟨S4x256x20480, .f32⟩
  | 101 => ⟨S4x256x5x4096, .f32⟩
  | 102 => ⟨S4x1x5x4096, .i1⟩
  | 103 => ⟨S4x1x5x4096, .f32⟩
  | 104 => ⟨S4x256x5x4096, .f32⟩
  | 105 => ⟨S4x256x5x4096, .f32⟩
  | 106 => ⟨S_, .f32⟩
  | 107 => ⟨S4x5x4096, .f32⟩
  | 108 => ⟨S4x5x4096, .f32⟩
  | 109 => ⟨S_, .f32⟩
  | 110 => ⟨S4x5x4096, .f32⟩
  | 111 => ⟨S4x5x4096, .f32⟩
  | 112 => ⟨S_, .f32⟩
  | 113 => ⟨S4x5x4096, .f32⟩
  | 114 => ⟨S4x5x4096, .i1⟩
  | 115 => ⟨S_, .f32⟩
  | 116 => ⟨S4x5x4096, .f32⟩
  | 117 => ⟨S4x5x4096, .i1⟩
  | 118 => ⟨S4x5x4096, .i1⟩
  | 119 => ⟨S_, .f32⟩
  | 120 => ⟨S4x5x4096, .f32⟩
  | 121 => ⟨S4x5x4096, .i1⟩
  | 122 => ⟨S4x5x4096, .i1⟩
  | 123 => ⟨S_, .f32⟩
  | 124 => ⟨S4x5x4096, .f32⟩
  | 125 => ⟨S4x5x4096, .i1⟩
  | 126 => ⟨S4x5x4096, .i1⟩
  | 127 => ⟨S_, .i32⟩
  | _ => ⟨S4x256x128x128, .f32⟩

abbrev hbmTy0_4 (i : Nat) : BufTy := match i % 128 with
  | 0 => ⟨S_, .i32⟩
  | 1 => ⟨S_, .f32⟩
  | 2 => ⟨S4x5x4096, .f32⟩
  | 3 => ⟨S4x5x4096, .f32⟩
  | 4 => ⟨S_, .f32⟩
  | 5 => ⟨S4x5x4096, .f32⟩
  | 6 => ⟨S4x5x4096, .f32⟩
  | 7 => ⟨S_, .f32⟩
  | 8 => ⟨S4x5x4096, .f32⟩
  | 9 => ⟨S4x5x4096, .f32⟩
  | 10 => ⟨S_, .i32⟩
  | 11 => ⟨S_, .i32⟩
  | 12 => ⟨S_, .f32⟩
  | 13 => ⟨S4x5x4096, .f32⟩
  | 14 => ⟨S4x5x4096, .f32⟩
  | 15 => ⟨S_, .f32⟩
  | 16 => ⟨S4x5x4096, .f32⟩
  | 17 => ⟨S4x5x4096, .f32⟩
  | 18 => ⟨S4x5x4096, .f32⟩
  | 19 => ⟨S4x5x4096, .i32⟩
  | 20 => ⟨S4x20480, .i32⟩
  | 21 => ⟨S_, .i32⟩
  | 22 => ⟨S4x20480, .i32⟩
  | 23 => ⟨S4x20480, .i1⟩
  | 24 => ⟨S_, .i32⟩
  | 25 => ⟨S4x20480, .i32⟩
  | 26 => ⟨S4x20480, .i32⟩
  | 27 => ⟨S4x20480, .i32⟩
  | 28 => ⟨S4x20480x1, .i32⟩
  | 29 => ⟨S4x256x20480, .f32⟩
  | 30 => ⟨S4x256x5x4096, .f32⟩
  | 31 => ⟨S4x1x5x4096, .i1⟩
  | 32 => ⟨S4x1x5x4096, .f32⟩
  | 33 => ⟨S4x256x5x4096, .f32⟩
  | 34 => ⟨S4x256x5x4096, .f32⟩
  | 35 => ⟨S4x5x4096, .f32⟩
  | 36 => ⟨S4x1x5x4096, .f32⟩
  | 37 => ⟨S4x256x5x4096, .f32⟩
  | 38 => ⟨S4x256x5x4096, .f32⟩
  | 39 => ⟨S4x5x4096, .f32⟩
  | 40 => ⟨S4x1x5x4096, .f32⟩
  | 41 => ⟨S4x256x5x4096, .f32⟩
  | 42 => ⟨S4x256x5x4096, .f32⟩
  | 43 => ⟨S4x256x5x4096, .f32⟩
  | 44 => ⟨S4x5x4096, .f32⟩
  | 45 => ⟨S4x1x5x4096, .f32⟩
  | 46 => ⟨S4x256x5x4096, .f32⟩
  | 47 => ⟨S4x256x5x4096, .f32⟩
  | 48 => ⟨S4x256x5x4096, .f32⟩
  | 49 => ⟨S4x5x4096, .f32⟩
  | 50 => ⟨S4x1x5x4096, .f32⟩
  | 51 => ⟨S4x256x5x4096, .f32⟩
  | 52 => ⟨S4x256x5x4096, .f32⟩
  | 53 => ⟨S4x256x5x4096, .f32⟩
  | 54 => ⟨S4x256x5x4096, .f32⟩
  | 55 => ⟨S4x256x5x4096, .f32⟩
  | 56 => ⟨S_, .f32⟩
  | 57 => ⟨S4x5x4096, .f32⟩
  | 58 => ⟨S4x256x1x4096, .f32⟩
  | 59 => ⟨S_, .f32⟩
  | 60 => ⟨S4x1x4096, .f32⟩
  | 61 => ⟨S4x1x4096, .f32⟩
  | 62 => ⟨S_, .f32⟩
  | 63 => ⟨S4x1x4096, .f32⟩
  | 64 => ⟨S4x1x4096, .f32⟩
  | 65 => ⟨S4x256x5x4096, .f32⟩
  | 66 => ⟨S_, .f32⟩
  | 67 => ⟨S4x5x4096, .f32⟩
  | 68 => ⟨S4x5x4096, .f32⟩
  | 69 => ⟨S_, .f32⟩
  | 70 => ⟨S4x5x4096, .f32⟩
  | 71 => ⟨S4x5x4096, .f32⟩
  | 72 => ⟨S4x5x4096, .f32⟩
  | 73 => ⟨S4x5x4096, .f32⟩
  | 74 => ⟨S4x5x4096, .f32⟩
  | 75 => ⟨S_, .f32⟩
  | 76 => ⟨S4x4096, .f32⟩
  | 77 => ⟨S_, .f32⟩
  | 78 => ⟨S4x4096, .f32⟩
  | 79 => ⟨S4x4096, .f32⟩
  | 80 => ⟨S4x1x4096, .f32⟩
  | 81 => ⟨S4x5x4096, .f32⟩
  | 82 => ⟨S4x5x4096, .f32⟩
  | 83 => ⟨S4x5x4096, .f32⟩
  | 84 => ⟨S_, .f32⟩
  | 85 => ⟨S4x4096, .f32⟩
  | 86 => ⟨S4x1x4096, .f32⟩
  | 87 => ⟨S4x5x4096, .f32⟩
  | 88 => ⟨S4x5x4096, .f32⟩
  | 89 => ⟨S4x1x5x4096, .f32⟩
  | 90 => ⟨S4x256x5x4096, .f32⟩
  | 91 => ⟨S4x256x5x4096, .f32⟩
  | 92 => ⟨S_, .f32⟩
  | 93 => ⟨S4x256x4096, .f32⟩
  | 94 => ⟨S4x4096x256, .f32⟩
  | 95 => ⟨S4x4096x256, .f32⟩
  | _ => ⟨S4x256x128x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x256x128x128, .f32⟩

abbrev bufTy : (tb : Table) → Fin (tcTables nBuf tb) → BufTy
  | .hbm, ⟨i, _⟩ => hbmTy i
  | _, _ => ⟨S4x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_cst_6 : Ref sig .tc := ⟨.hbm, 35, rfl⟩
abbrev main_v18 : Ref sig .tc := ⟨.hbm, 36, rfl⟩
abbrev main_v19 : Ref sig .tc := ⟨.hbm, 37, rfl⟩
abbrev main_cst_7 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_8 : Ref sig .tc := ⟨.hbm, 43, rfl⟩
abbrev main_v24 : Ref sig .tc := ⟨.hbm, 44, rfl⟩
abbrev main_v25 : Ref sig .tc := ⟨.hbm, 45, rfl⟩
abbrev main_cst_9 : Ref sig .tc := ⟨.hbm, 46, rfl⟩
abbrev main_v26 : Ref sig .tc := ⟨.hbm, 47, rfl⟩
abbrev main_v27 : Ref sig .tc := ⟨.hbm, 48, rfl⟩
abbrev main_cst_10 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_11 : Ref sig .tc := ⟨.hbm, 56, rfl⟩
abbrev main_v34 : Ref sig .tc := ⟨.hbm, 57, rfl⟩
abbrev main_v35 : Ref sig .tc := ⟨.hbm, 58, rfl⟩
abbrev main_cst_12 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_13 : Ref sig .tc := ⟨.hbm, 63, rfl⟩
abbrev main_v39 : Ref sig .tc := ⟨.hbm, 64, rfl⟩
abbrev main_v40 : Ref sig .tc := ⟨.hbm, 65, rfl⟩
abbrev main_cst_14 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_15 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_16 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c : Ref sig .tc := ⟨.hbm, 78, rfl⟩
abbrev main_c_17 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v50 : Ref sig .tc := ⟨.hbm, 85, rfl⟩
abbrev main_cst_18 : Ref sig .tc := ⟨.hbm, 86, rfl⟩
abbrev main_v51 : Ref sig .tc := ⟨.hbm, 87, rfl⟩
abbrev main_v52 : Ref sig .tc := ⟨.hbm, 88, rfl⟩
abbrev main_c_19 : Ref sig .tc := ⟨.hbm, 89, rfl⟩
abbrev main_c_20 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_c_21 : Ref sig .tc := ⟨.hbm, 100, rfl⟩
abbrev main_v57 : Ref sig .tc := ⟨.hbm, 101, rfl⟩
abbrev main_v58 : Ref sig .tc := ⟨.hbm, 102, rfl⟩
abbrev main_c_22 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_cst_23 : Ref sig .tc := ⟨.hbm, 114, rfl⟩
abbrev main_v69 : Ref sig .tc := ⟨.hbm, 115, rfl⟩
abbrev main_v70 : Ref sig .tc := ⟨.hbm, 116, rfl⟩
abbrev main_cst_24 : Ref sig .tc := ⟨.hbm, 117, rfl⟩
abbrev main_v71 : Ref sig .tc := ⟨.hbm, 118, rfl⟩
abbrev main_v72 : Ref sig .tc := ⟨.hbm, 119, rfl⟩
abbrev main_cst_25 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_cst_26 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_cst_27 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_c_28 : Ref sig .tc := ⟨.hbm, 132, rfl⟩
abbrev main_c_29 : Ref sig .tc := ⟨.hbm, 133, rfl⟩
abbrev main_call3_v0 : Ref sig .tc := ⟨.hbm, 134, rfl⟩
abbrev main_call3_v1 : Ref sig .tc := ⟨.hbm, 135, rfl⟩
abbrev main_call3_v2 : Ref sig .tc := ⟨.hbm, 136, rfl⟩
abbrev main_call3_v3 : Ref sig .tc := ⟨.hbm, 137, rfl⟩
abbrev main_call3_v4 : Ref sig .tc := ⟨.hbm, 138, rfl⟩
abbrev main_v82 : Ref sig .tc := ⟨.hbm, 139, rfl⟩
abbrev main_cst_30 : Ref sig .tc := ⟨.hbm, 140, rfl⟩
abbrev main_v83 : Ref sig .tc := ⟨.hbm, 141, rfl⟩
abbrev main_v84 : Ref sig .tc := ⟨.hbm, 142, rfl⟩
abbrev main_c_31 : Ref sig .tc := ⟨.hbm, 143, rfl⟩
abbrev main_c_32 : Ref sig .tc := ⟨.hbm, 144, rfl⟩
abbrev main_call4_v0 : Ref sig .tc := ⟨.hbm, 145, rfl⟩
abbrev main_call4_v1 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_c_33 : Ref sig .tc := ⟨.hbm, 154, rfl⟩
abbrev main_v89 : Ref sig .tc := ⟨.hbm, 155, rfl⟩
abbrev main_v90 : Ref sig .tc := ⟨.hbm, 156, rfl⟩
abbrev main_c_34 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_cst_35 : Ref sig .tc := ⟨.hbm, 168, rfl⟩
abbrev main_v101 : Ref sig .tc := ⟨.hbm, 169, rfl⟩
abbrev main_v102 : Ref sig .tc := ⟨.hbm, 170, rfl⟩
abbrev main_cst_36 : Ref sig .tc := ⟨.hbm, 171, rfl⟩
abbrev main_v103 : Ref sig .tc := ⟨.hbm, 172, rfl⟩
abbrev main_v104 : Ref sig .tc := ⟨.hbm, 173, rfl⟩
abbrev main_cst_37 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_cst_38 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_cst_39 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_c_40 : Ref sig .tc := ⟨.hbm, 186, rfl⟩
abbrev main_c_41 : Ref sig .tc := ⟨.hbm, 187, rfl⟩
abbrev main_call5_v0 : Ref sig .tc := ⟨.hbm, 188, rfl⟩
abbrev main_call5_v1 : Ref sig .tc := ⟨.hbm, 189, rfl⟩
abbrev main_call5_v2 : Ref sig .tc := ⟨.hbm, 190, rfl⟩
abbrev main_call5_v3 : Ref sig .tc := ⟨.hbm, 191, rfl⟩
abbrev main_call5_v4 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_c_43 : Ref sig .tc := ⟨.hbm, 197, rfl⟩
abbrev main_c_44 : Ref sig .tc := ⟨.hbm, 198, rfl⟩
abbrev main_call6_v0 : Ref sig .tc := ⟨.hbm, 199, rfl⟩
abbrev main_call6_v1 : Ref sig .tc := ⟨.hbm, 200, rfl⟩
abbrev main_call6_v2 : Ref sig .tc := ⟨.hbm, 201, rfl⟩
abbrev main_call6_v3 : Ref sig .tc := ⟨.hbm, 202, rfl⟩
abbrev main_call6_v4 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_c_45 : Ref sig .tc := ⟨.hbm, 208, rfl⟩
abbrev main_v121 : Ref sig .tc := ⟨.hbm, 209, rfl⟩
abbrev main_v122 : Ref sig .tc := ⟨.hbm, 210, rfl⟩
abbrev main_c_46 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_cst_47 : Ref sig .tc := ⟨.hbm, 222, rfl⟩
abbrev main_v133 : Ref sig .tc := ⟨.hbm, 223, rfl⟩
abbrev main_v134 : Ref sig .tc := ⟨.hbm, 224, rfl⟩
abbrev main_cst_48 : Ref sig .tc := ⟨.hbm, 225, rfl⟩
abbrev main_v135 : Ref sig .tc := ⟨.hbm, 226, rfl⟩
abbrev main_v136 : Ref sig .tc := ⟨.hbm, 227, rfl⟩
abbrev main_cst_49 : Ref sig .tc := ⟨.hbm, 228, rfl⟩
abbrev main_v137 : Ref sig .tc := ⟨.hbm, 229, rfl⟩
abbrev main_v138 : Ref sig .tc := ⟨.hbm, 230, rfl⟩
abbrev main_cst_50 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_51 : Ref sig .tc := ⟨.hbm, 235, rfl⟩
abbrev main_v142 : Ref sig .tc := ⟨.hbm, 236, rfl⟩
abbrev main_v143 : Ref sig .tc := ⟨.hbm, 237, rfl⟩
abbrev main_v144 : Ref sig .tc := ⟨.hbm, 238, rfl⟩
abbrev main_cst_52 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_c_53 : Ref sig .tc := ⟨.hbm, 243, rfl⟩
abbrev main_c_54 : Ref sig .tc := ⟨.hbm, 244, rfl⟩
abbrev main_call7_v0 : Ref sig .tc := ⟨.hbm, 245, rfl⟩
abbrev main_call7_v1 : Ref sig .tc := ⟨.hbm, 246, rfl⟩
abbrev main_call7_v2 : Ref sig .tc := ⟨.hbm, 247, rfl⟩
abbrev main_call7_v3 : Ref sig .tc := ⟨.hbm, 248, rfl⟩
abbrev main_call7_v4 : Ref sig .tc := ⟨.hbm, 249, rfl⟩
abbrev main_v148 : Ref sig .tc := ⟨.hbm, 250, rfl⟩
abbrev main_cst_55 : Ref sig .tc := ⟨.hbm, 251, rfl⟩
abbrev main_v149 : Ref sig .tc := ⟨.hbm, 252, rfl⟩
abbrev main_v150 : Ref sig .tc := ⟨.hbm, 253, rfl⟩
abbrev main_c_56 : Ref sig .tc := ⟨.hbm, 254, rfl⟩
abbrev main_c_57 : Ref sig .tc := ⟨.hbm, 255, rfl⟩
abbrev main_call8_v0 : Ref sig .tc := ⟨.hbm, 256, rfl⟩
abbrev main_call8_v1 : Ref sig .tc := ⟨.hbm, 257, rfl⟩
abbrev main_call8_v2 : Ref sig .tc := ⟨.hbm, 258, rfl⟩
abbrev main_call8_v3 : Ref sig .tc := ⟨.hbm, 259, rfl⟩
abbrev main_call8_v4 : Ref sig .tc := ⟨.hbm, 260, rfl⟩
abbrev main_v151 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_c_58 : Ref sig .tc := ⟨.hbm, 265, rfl⟩
abbrev main_v155 : Ref sig .tc := ⟨.hbm, 266, rfl⟩
abbrev main_v156 : Ref sig .tc := ⟨.hbm, 267, rfl⟩
abbrev main_c_59 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_v160 : Ref sig .tc := ⟨.hbm, 272, rfl⟩
abbrev main_v161 : Ref sig .tc := ⟨.hbm, 273, rfl⟩
abbrev main_v162 : Ref sig .tc := ⟨.hbm, 274, rfl⟩
abbrev main_v163 : Ref sig .tc := ⟨.hbm, 275, rfl⟩
abbrev main_v164 : Ref sig .tc := ⟨.hbm, 276, rfl⟩
abbrev main_v165 : Ref sig .tc := ⟨.hbm, 277, rfl⟩
abbrev main_v166 : Ref sig .tc := ⟨.hbm, 278, rfl⟩
abbrev main_v167 : Ref sig .tc := ⟨.hbm, 279, rfl⟩
abbrev main_v168 : Ref sig .tc := ⟨.hbm, 280, rfl⟩
abbrev main_v169 : Ref sig .tc := ⟨.hbm, 281, rfl⟩
abbrev main_v170 : Ref sig .tc := ⟨.hbm, 282, rfl⟩
abbrev main_v171 : Ref sig .tc := ⟨.hbm, 283, rfl⟩
abbrev main_v172 : Ref sig .tc := ⟨.hbm, 284, rfl⟩
abbrev main_v173 : Ref sig .tc := ⟨.hbm, 285, rfl⟩
abbrev main_v174 : Ref sig .tc := ⟨.hbm, 286, rfl⟩
abbrev main_v175 : Ref sig .tc := ⟨.hbm, 287, rfl⟩
abbrev main_v176 : Ref sig .tc := ⟨.hbm, 288, rfl⟩
abbrev main_v177 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_v181 : Ref sig .tc := ⟨.hbm, 293, rfl⟩
abbrev main_v182 : Ref sig .tc := ⟨.hbm, 294, rfl⟩
abbrev main_v183 : Ref sig .tc := ⟨.hbm, 295, rfl⟩
abbrev main_v184 : Ref sig .tc := ⟨.hbm, 296, rfl⟩
abbrev main_v185 : Ref sig .tc := ⟨.hbm, 297, rfl⟩
abbrev main_v186 : Ref sig .tc := ⟨.hbm, 298, rfl⟩
abbrev main_v187 : Ref sig .tc := ⟨.hbm, 299, rfl⟩
abbrev main_cst_60 : Ref sig .tc := ⟨.hbm, 300, rfl⟩
abbrev main_v188 : Ref sig .tc := ⟨.hbm, 301, rfl⟩
abbrev main_v189 : Ref sig .tc := ⟨.hbm, 302, rfl⟩
abbrev main_cst_61 : Ref sig .tc := ⟨.hbm, 303, rfl⟩
abbrev main_v190 : Ref sig .tc := ⟨.hbm, 304, rfl⟩
abbrev main_v191 : Ref sig .tc := ⟨.hbm, 305, rfl⟩
abbrev main_cst_62 : Ref sig .tc := ⟨.hbm, 306, rfl⟩
abbrev main_v192 : Ref sig .tc := ⟨.hbm, 307, rfl⟩
abbrev main_v193 : Ref sig .tc := ⟨.hbm, 308, rfl⟩
abbrev main_v194 : Ref sig .tc := ⟨.hbm, 309, rfl⟩
abbrev main_v195 : Ref sig .tc := ⟨.hbm, 310, rfl⟩
abbrev main_cst_63 : Ref sig .tc := ⟨.hbm, 311, rfl⟩
abbrev main_v196 : Ref sig .tc := ⟨.hbm, 312, rfl⟩
abbrev main_v197 : Ref sig .tc := ⟨.hbm, 313, rfl⟩
abbrev main_cst_64 : Ref sig .tc := ⟨.hbm, 314, rfl⟩
abbrev main_v198 : Ref sig .tc := ⟨.hbm, 315, rfl⟩
abbrev main_v199 : Ref sig .tc := ⟨.hbm, 316, rfl⟩
abbrev main_cst_65 : Ref sig .tc := ⟨.hbm, 317, rfl⟩
abbrev main_v200 : Ref sig .tc := ⟨.hbm, 318, rfl⟩
abbrev main_v201 : Ref sig .tc := ⟨.hbm, 319, rfl⟩
abbrev main_v202 : Ref sig .tc := ⟨.hbm, 320, rfl⟩
abbrev main_v203 : Ref sig .tc := ⟨.hbm, 321, rfl⟩
abbrev main_v204 : Ref sig .tc := ⟨.hbm, 322, rfl⟩
abbrev main_v205 : Ref sig .tc := ⟨.hbm, 323, rfl⟩
abbrev main_cst_66 : Ref sig .tc := ⟨.hbm, 324, rfl⟩
abbrev main_v206 : Ref sig .tc := ⟨.hbm, 325, rfl⟩
abbrev main_v207 : Ref sig .tc := ⟨.hbm, 326, rfl⟩
abbrev main_cst_67 : Ref sig .tc := ⟨.hbm, 327, rfl⟩
abbrev main_v208 : Ref sig .tc := ⟨.hbm, 328, rfl⟩
abbrev main_v209 : Ref sig .tc := ⟨.hbm, 329, rfl⟩
abbrev main_v210 : Ref sig .tc := ⟨.hbm, 330, rfl⟩
abbrev main_cst_68 : Ref sig .tc := ⟨.hbm, 331, rfl⟩
abbrev main_v211 : Ref sig .tc := ⟨.hbm, 332, rfl⟩
abbrev main_v212 : Ref sig .tc := ⟨.hbm, 333, rfl⟩
abbrev main_cst_69 : Ref sig .tc := ⟨.hbm, 334, rfl⟩
abbrev main_v213 : Ref sig .tc := ⟨.hbm, 335, rfl⟩
abbrev main_v214 : Ref sig .tc := ⟨.hbm, 336, rfl⟩
abbrev main_v215 : Ref sig .tc := ⟨.hbm, 337, rfl⟩
abbrev main_cst_70 : Ref sig .tc := ⟨.hbm, 338, rfl⟩
abbrev main_v216 : Ref sig .tc := ⟨.hbm, 339, rfl⟩
abbrev main_v217 : Ref sig .tc := ⟨.hbm, 340, rfl⟩
abbrev main_v218 : Ref sig .tc := ⟨.hbm, 341, rfl⟩
abbrev main_cst_71 : Ref sig .tc := ⟨.hbm, 342, rfl⟩
abbrev main_v219 : Ref sig .tc := ⟨.hbm, 343, rfl⟩
abbrev main_v220 : Ref sig .tc := ⟨.hbm, 344, rfl⟩
abbrev main_v221 : Ref sig .tc := ⟨.hbm, 345, rfl⟩
abbrev main_c_72 : Ref sig .tc := ⟨.hbm, 346, rfl⟩
abbrev main_c_73 : Ref sig .tc := ⟨.hbm, 347, rfl⟩
abbrev main_call9_v0 : Ref sig .tc := ⟨.hbm, 348, rfl⟩
abbrev main_call9_v1 : Ref sig .tc := ⟨.hbm, 349, rfl⟩
abbrev main_call9_v2 : Ref sig .tc := ⟨.hbm, 350, rfl⟩
abbrev main_call9_v3 : Ref sig .tc := ⟨.hbm, 351, rfl⟩
abbrev main_call9_v4 : Ref sig .tc := ⟨.hbm, 352, rfl⟩
abbrev main_v222 : Ref sig .tc := ⟨.hbm, 353, rfl⟩
abbrev main_cst_74 : Ref sig .tc := ⟨.hbm, 354, rfl⟩
abbrev main_v223 : Ref sig .tc := ⟨.hbm, 355, rfl⟩
abbrev main_v224 : Ref sig .tc := ⟨.hbm, 356, rfl⟩
abbrev main_c_75 : Ref sig .tc := ⟨.hbm, 357, rfl⟩
abbrev main_c_76 : Ref sig .tc := ⟨.hbm, 358, rfl⟩
abbrev main_call10_v0 : Ref sig .tc := ⟨.hbm, 359, rfl⟩
abbrev main_call10_v1 : Ref sig .tc := ⟨.hbm, 360, rfl⟩
abbrev main_call10_v2 : Ref sig .tc := ⟨.hbm, 361, rfl⟩
abbrev main_call10_v3 : Ref sig .tc := ⟨.hbm, 362, rfl⟩
abbrev main_call10_v4 : Ref sig .tc := ⟨.hbm, 363, rfl⟩
abbrev main_v225 : Ref sig .tc := ⟨.hbm, 364, rfl⟩
abbrev main_v226 : Ref sig .tc := ⟨.hbm, 365, rfl⟩
abbrev main_v227 : Ref sig .tc := ⟨.hbm, 366, rfl⟩
abbrev main_v228 : Ref sig .tc := ⟨.hbm, 367, rfl⟩
abbrev main_c_77 : Ref sig .tc := ⟨.hbm, 368, rfl⟩
abbrev main_v229 : Ref sig .tc := ⟨.hbm, 369, rfl⟩
abbrev main_v230 : Ref sig .tc := ⟨.hbm, 370, rfl⟩
abbrev main_c_78 : Ref sig .tc := ⟨.hbm, 371, rfl⟩
abbrev main_v231 : Ref sig .tc := ⟨.hbm, 372, rfl⟩
abbrev main_v232 : Ref sig .tc := ⟨.hbm, 373, rfl⟩
abbrev main_v233 : Ref sig .tc := ⟨.hbm, 374, rfl⟩
abbrev main_v234 : Ref sig .tc := ⟨.hbm, 375, rfl⟩
abbrev main_v235 : Ref sig .tc := ⟨.hbm, 376, rfl⟩
abbrev main_v236 : Ref sig .tc := ⟨.hbm, 377, rfl⟩
abbrev main_v237 : Ref sig .tc := ⟨.hbm, 378, rfl⟩
abbrev main_v238 : Ref sig .tc := ⟨.hbm, 379, rfl⟩
abbrev main_v239 : Ref sig .tc := ⟨.hbm, 380, rfl⟩
abbrev main_v240 : Ref sig .tc := ⟨.hbm, 381, rfl⟩
abbrev main_cst_79 : Ref sig .tc := ⟨.hbm, 382, rfl⟩
abbrev main_v241 : Ref sig .tc := ⟨.hbm, 383, rfl⟩
abbrev main_v242 : Ref sig .tc := ⟨.hbm, 384, rfl⟩
abbrev main_cst_80 : Ref sig .tc := ⟨.hbm, 385, rfl⟩
abbrev main_v243 : Ref sig .tc := ⟨.hbm, 386, rfl⟩
abbrev main_v244 : Ref sig .tc := ⟨.hbm, 387, rfl⟩
abbrev main_cst_81 : Ref sig .tc := ⟨.hbm, 388, rfl⟩
abbrev main_v245 : Ref sig .tc := ⟨.hbm, 389, rfl⟩
abbrev main_v246 : Ref sig .tc := ⟨.hbm, 390, rfl⟩
abbrev main_v247 : Ref sig .tc := ⟨.hbm, 391, rfl⟩
abbrev main_cst_82 : Ref sig .tc := ⟨.hbm, 392, rfl⟩
abbrev main_v248 : Ref sig .tc := ⟨.hbm, 393, rfl⟩
abbrev main_v249 : Ref sig .tc := ⟨.hbm, 394, rfl⟩
abbrev main_v250 : Ref sig .tc := ⟨.hbm, 395, rfl⟩
abbrev main_cst_83 : Ref sig .tc := ⟨.hbm, 396, rfl⟩
abbrev main_v251 : Ref sig .tc := ⟨.hbm, 397, rfl⟩
abbrev main_v252 : Ref sig .tc := ⟨.hbm, 398, rfl⟩
abbrev main_v253 : Ref sig .tc := ⟨.hbm, 399, rfl⟩
abbrev main_c_84 : Ref sig .tc := ⟨.hbm, 400, rfl⟩
abbrev main_c_85 : Ref sig .tc := ⟨.hbm, 401, rfl⟩
abbrev main_call11_v0 : Ref sig .tc := ⟨.hbm, 402, rfl⟩
abbrev main_call11_v1 : Ref sig .tc := ⟨.hbm, 403, rfl⟩
abbrev main_call11_v2 : Ref sig .tc := ⟨.hbm, 404, rfl⟩
abbrev main_call11_v3 : Ref sig .tc := ⟨.hbm, 405, rfl⟩
abbrev main_call11_v4 : Ref sig .tc := ⟨.hbm, 406, rfl⟩
abbrev main_v254 : Ref sig .tc := ⟨.hbm, 407, rfl⟩
abbrev main_cst_86 : Ref sig .tc := ⟨.hbm, 408, rfl⟩
abbrev main_v255 : Ref sig .tc := ⟨.hbm, 409, rfl⟩
abbrev main_v256 : Ref sig .tc := ⟨.hbm, 410, rfl⟩
abbrev main_c_87 : Ref sig .tc := ⟨.hbm, 411, rfl⟩
abbrev main_c_88 : Ref sig .tc := ⟨.hbm, 412, rfl⟩
abbrev main_call12_v0 : Ref sig .tc := ⟨.hbm, 413, rfl⟩
abbrev main_call12_v1 : Ref sig .tc := ⟨.hbm, 414, rfl⟩
abbrev main_call12_v2 : Ref sig .tc := ⟨.hbm, 415, rfl⟩
abbrev main_call12_v3 : Ref sig .tc := ⟨.hbm, 416, rfl⟩
abbrev main_call12_v4 : Ref sig .tc := ⟨.hbm, 417, rfl⟩
abbrev main_v257 : Ref sig .tc := ⟨.hbm, 418, rfl⟩
abbrev main_v258 : Ref sig .tc := ⟨.hbm, 419, rfl⟩
abbrev main_v259 : Ref sig .tc := ⟨.hbm, 420, rfl⟩
abbrev main_v260 : Ref sig .tc := ⟨.hbm, 421, rfl⟩
abbrev main_c_89 : Ref sig .tc := ⟨.hbm, 422, rfl⟩
abbrev main_v261 : Ref sig .tc := ⟨.hbm, 423, rfl⟩
abbrev main_v262 : Ref sig .tc := ⟨.hbm, 424, rfl⟩
abbrev main_c_90 : Ref sig .tc := ⟨.hbm, 425, rfl⟩
abbrev main_v263 : Ref sig .tc := ⟨.hbm, 426, rfl⟩
abbrev main_v264 : Ref sig .tc := ⟨.hbm, 427, rfl⟩
abbrev main_v265 : Ref sig .tc := ⟨.hbm, 428, rfl⟩
abbrev main_v266 : Ref sig .tc := ⟨.hbm, 429, rfl⟩
abbrev main_v267 : Ref sig .tc := ⟨.hbm, 430, rfl⟩
abbrev main_v268 : Ref sig .tc := ⟨.hbm, 431, rfl⟩
abbrev main_v269 : Ref sig .tc := ⟨.hbm, 432, rfl⟩
abbrev main_v270 : Ref sig .tc := ⟨.hbm, 433, rfl⟩
abbrev main_v271 : Ref sig .tc := ⟨.hbm, 434, rfl⟩
abbrev main_v272 : Ref sig .tc := ⟨.hbm, 435, rfl⟩
abbrev main_cst_91 : Ref sig .tc := ⟨.hbm, 436, rfl⟩
abbrev main_v273 : Ref sig .tc := ⟨.hbm, 437, rfl⟩
abbrev main_v274 : Ref sig .tc := ⟨.hbm, 438, rfl⟩
abbrev main_cst_92 : Ref sig .tc := ⟨.hbm, 439, rfl⟩
abbrev main_v275 : Ref sig .tc := ⟨.hbm, 440, rfl⟩
abbrev main_v276 : Ref sig .tc := ⟨.hbm, 441, rfl⟩
abbrev main_cst_93 : Ref sig .tc := ⟨.hbm, 442, rfl⟩
abbrev main_v277 : Ref sig .tc := ⟨.hbm, 443, rfl⟩
abbrev main_v278 : Ref sig .tc := ⟨.hbm, 444, rfl⟩
abbrev main_v279 : Ref sig .tc := ⟨.hbm, 445, rfl⟩
abbrev main_cst_94 : Ref sig .tc := ⟨.hbm, 446, rfl⟩
abbrev main_v280 : Ref sig .tc := ⟨.hbm, 447, rfl⟩
abbrev main_v281 : Ref sig .tc := ⟨.hbm, 448, rfl⟩
abbrev main_v282 : Ref sig .tc := ⟨.hbm, 449, rfl⟩
abbrev main_cst_95 : Ref sig .tc := ⟨.hbm, 450, rfl⟩
abbrev main_v283 : Ref sig .tc := ⟨.hbm, 451, rfl⟩
abbrev main_v284 : Ref sig .tc := ⟨.hbm, 452, rfl⟩
abbrev main_v285 : Ref sig .tc := ⟨.hbm, 453, rfl⟩
abbrev main_c_96 : Ref sig .tc := ⟨.hbm, 454, rfl⟩
abbrev main_c_97 : Ref sig .tc := ⟨.hbm, 455, rfl⟩
abbrev main_call13_v0 : Ref sig .tc := ⟨.hbm, 456, rfl⟩
abbrev main_call13_v1 : Ref sig .tc := ⟨.hbm, 457, rfl⟩
abbrev main_call13_v2 : Ref sig .tc := ⟨.hbm, 458, rfl⟩
abbrev main_call13_v3 : Ref sig .tc := ⟨.hbm, 459, rfl⟩
abbrev main_call13_v4 : Ref sig .tc := ⟨.hbm, 460, rfl⟩
abbrev main_v286 : Ref sig .tc := ⟨.hbm, 461, rfl⟩
abbrev main_cst_98 : Ref sig .tc := ⟨.hbm, 462, rfl⟩
abbrev main_v287 : Ref sig .tc := ⟨.hbm, 463, rfl⟩
abbrev main_v288 : Ref sig .tc := ⟨.hbm, 464, rfl⟩
abbrev main_c_99 : Ref sig .tc := ⟨.hbm, 465, rfl⟩
abbrev main_c_100 : Ref sig .tc := ⟨.hbm, 466, rfl⟩
abbrev main_call14_v0 : Ref sig .tc := ⟨.hbm, 467, rfl⟩
abbrev main_call14_v1 : Ref sig .tc := ⟨.hbm, 468, rfl⟩
abbrev main_call14_v2 : Ref sig .tc := ⟨.hbm, 469, rfl⟩
abbrev main_call14_v3 : Ref sig .tc := ⟨.hbm, 470, rfl⟩
abbrev main_call14_v4 : Ref sig .tc := ⟨.hbm, 471, rfl⟩
abbrev main_v289 : Ref sig .tc := ⟨.hbm, 472, rfl⟩
abbrev main_v290 : Ref sig .tc := ⟨.hbm, 473, rfl⟩
abbrev main_v291 : Ref sig .tc := ⟨.hbm, 474, rfl⟩
abbrev main_v292 : Ref sig .tc := ⟨.hbm, 475, rfl⟩
abbrev main_c_101 : Ref sig .tc := ⟨.hbm, 476, rfl⟩
abbrev main_v293 : Ref sig .tc := ⟨.hbm, 477, rfl⟩
abbrev main_v294 : Ref sig .tc := ⟨.hbm, 478, rfl⟩
abbrev main_c_102 : Ref sig .tc := ⟨.hbm, 479, rfl⟩
abbrev main_v295 : Ref sig .tc := ⟨.hbm, 480, rfl⟩
abbrev main_v296 : Ref sig .tc := ⟨.hbm, 481, rfl⟩
abbrev main_v297 : Ref sig .tc := ⟨.hbm, 482, rfl⟩
abbrev main_v298 : Ref sig .tc := ⟨.hbm, 483, rfl⟩
abbrev main_v299 : Ref sig .tc := ⟨.hbm, 484, rfl⟩
abbrev main_v300 : Ref sig .tc := ⟨.hbm, 485, rfl⟩
abbrev main_v301 : Ref sig .tc := ⟨.hbm, 486, rfl⟩
abbrev main_v302 : Ref sig .tc := ⟨.hbm, 487, rfl⟩
abbrev main_v303 : Ref sig .tc := ⟨.hbm, 488, rfl⟩
abbrev main_v304 : Ref sig .tc := ⟨.hbm, 489, rfl⟩
abbrev main_cst_103 : Ref sig .tc := ⟨.hbm, 490, rfl⟩
abbrev main_v305 : Ref sig .tc := ⟨.hbm, 491, rfl⟩
abbrev main_v306 : Ref sig .tc := ⟨.hbm, 492, rfl⟩
abbrev main_cst_104 : Ref sig .tc := ⟨.hbm, 493, rfl⟩
abbrev main_v307 : Ref sig .tc := ⟨.hbm, 494, rfl⟩
abbrev main_v308 : Ref sig .tc := ⟨.hbm, 495, rfl⟩
abbrev main_cst_105 : Ref sig .tc := ⟨.hbm, 496, rfl⟩
abbrev main_v309 : Ref sig .tc := ⟨.hbm, 497, rfl⟩
abbrev main_v310 : Ref sig .tc := ⟨.hbm, 498, rfl⟩
abbrev main_cst_106 : Ref sig .tc := ⟨.hbm, 499, rfl⟩
abbrev main_v311 : Ref sig .tc := ⟨.hbm, 500, rfl⟩
abbrev main_v312 : Ref sig .tc := ⟨.hbm, 501, rfl⟩
abbrev main_v313 : Ref sig .tc := ⟨.hbm, 502, rfl⟩
abbrev main_cst_107 : Ref sig .tc := ⟨.hbm, 503, rfl⟩
abbrev main_v314 : Ref sig .tc := ⟨.hbm, 504, rfl⟩
abbrev main_v315 : Ref sig .tc := ⟨.hbm, 505, rfl⟩
abbrev main_v316 : Ref sig .tc := ⟨.hbm, 506, rfl⟩
abbrev main_cst_108 : Ref sig .tc := ⟨.hbm, 507, rfl⟩
abbrev main_v317 : Ref sig .tc := ⟨.hbm, 508, rfl⟩
abbrev main_v318 : Ref sig .tc := ⟨.hbm, 509, rfl⟩
abbrev main_v319 : Ref sig .tc := ⟨.hbm, 510, rfl⟩
abbrev main_c_109 : Ref sig .tc := ⟨.hbm, 511, rfl⟩
abbrev main_c_110 : Ref sig .tc := ⟨.hbm, 512, rfl⟩
abbrev main_call15_v0 : Ref sig .tc := ⟨.hbm, 513, rfl⟩
abbrev main_call15_v1 : Ref sig .tc := ⟨.hbm, 514, rfl⟩
abbrev main_call15_v2 : Ref sig .tc := ⟨.hbm, 515, rfl⟩
abbrev main_call15_v3 : Ref sig .tc := ⟨.hbm, 516, rfl⟩
abbrev main_call15_v4 : Ref sig .tc := ⟨.hbm, 517, rfl⟩
abbrev main_v320 : Ref sig .tc := ⟨.hbm, 518, rfl⟩
abbrev main_cst_111 : Ref sig .tc := ⟨.hbm, 519, rfl⟩
abbrev main_v321 : Ref sig .tc := ⟨.hbm, 520, rfl⟩
abbrev main_v322 : Ref sig .tc := ⟨.hbm, 521, rfl⟩
abbrev main_c_112 : Ref sig .tc := ⟨.hbm, 522, rfl⟩
abbrev main_c_113 : Ref sig .tc := ⟨.hbm, 523, rfl⟩
abbrev main_call16_v0 : Ref sig .tc := ⟨.hbm, 524, rfl⟩
abbrev main_call16_v1 : Ref sig .tc := ⟨.hbm, 525, rfl⟩
abbrev main_call16_v2 : Ref sig .tc := ⟨.hbm, 526, rfl⟩
abbrev main_call16_v3 : Ref sig .tc := ⟨.hbm, 527, rfl⟩
abbrev main_call16_v4 : Ref sig .tc := ⟨.hbm, 528, rfl⟩
abbrev main_v323 : Ref sig .tc := ⟨.hbm, 529, rfl⟩
abbrev main_v324 : Ref sig .tc := ⟨.hbm, 530, rfl⟩
abbrev main_v325 : Ref sig .tc := ⟨.hbm, 531, rfl⟩
abbrev main_v326 : Ref sig .tc := ⟨.hbm, 532, rfl⟩
abbrev main_c_114 : Ref sig .tc := ⟨.hbm, 533, rfl⟩
abbrev main_v327 : Ref sig .tc := ⟨.hbm, 534, rfl⟩
abbrev main_v328 : Ref sig .tc := ⟨.hbm, 535, rfl⟩
abbrev main_c_115 : Ref sig .tc := ⟨.hbm, 536, rfl⟩
abbrev main_v329 : Ref sig .tc := ⟨.hbm, 537, rfl⟩
abbrev main_v330 : Ref sig .tc := ⟨.hbm, 538, rfl⟩
abbrev main_v331 : Ref sig .tc := ⟨.hbm, 539, rfl⟩
abbrev main_v332 : Ref sig .tc := ⟨.hbm, 540, rfl⟩
abbrev main_v333 : Ref sig .tc := ⟨.hbm, 541, rfl⟩
abbrev main_v334 : Ref sig .tc := ⟨.hbm, 542, rfl⟩
abbrev main_v335 : Ref sig .tc := ⟨.hbm, 543, rfl⟩
abbrev main_v336 : Ref sig .tc := ⟨.hbm, 544, rfl⟩
abbrev main_v337 : Ref sig .tc := ⟨.hbm, 545, rfl⟩
abbrev main_v338 : Ref sig .tc := ⟨.hbm, 546, rfl⟩
abbrev main_v339 : Ref sig .tc := ⟨.hbm, 547, rfl⟩
abbrev main_v340 : Ref sig .tc := ⟨.hbm, 548, rfl⟩
abbrev main_v341 : Ref sig .tc := ⟨.hbm, 549, rfl⟩
abbrev main_v342 : Ref sig .tc := ⟨.hbm, 550, rfl⟩
abbrev main_v343 : Ref sig .tc := ⟨.hbm, 551, rfl⟩
abbrev main_v344 : Ref sig .tc := ⟨.hbm, 552, rfl⟩
abbrev main_v345 : Ref sig .tc := ⟨.hbm, 553, rfl⟩
abbrev main_v346 : Ref sig .tc := ⟨.hbm, 554, rfl⟩
abbrev main_v347 : Ref sig .tc := ⟨.hbm, 555, rfl⟩
abbrev main_v348 : Ref sig .tc := ⟨.hbm, 556, rfl⟩
abbrev main_v349 : Ref sig .tc := ⟨.hbm, 557, rfl⟩
abbrev main_v350 : Ref sig .tc := ⟨.hbm, 558, rfl⟩
abbrev main_v351 : Ref sig .tc := ⟨.hbm, 559, rfl⟩
abbrev main_v352 : Ref sig .tc := ⟨.hbm, 560, rfl⟩
abbrev main_v353 : Ref sig .tc := ⟨.hbm, 561, rfl⟩
abbrev main_v354 : Ref sig .tc := ⟨.hbm, 562, rfl⟩
abbrev main_v355 : Ref sig .tc := ⟨.hbm, 563, rfl⟩
abbrev main_v356 : Ref sig .tc := ⟨.hbm, 564, rfl⟩
abbrev main_v357 : Ref sig .tc := ⟨.hbm, 565, rfl⟩
abbrev main_v358 : Ref sig .tc := ⟨.hbm, 566, rfl⟩
abbrev main_v359 : Ref sig .tc := ⟨.hbm, 567, rfl⟩
abbrev main_cst_116 : Ref sig .tc := ⟨.hbm, 568, rfl⟩
abbrev main_v360 : Ref sig .tc := ⟨.hbm, 569, rfl⟩
abbrev main_v361 : Ref sig .tc := ⟨.hbm, 570, rfl⟩
abbrev main_cst_117 : Ref sig .tc := ⟨.hbm, 571, rfl⟩
abbrev main_v362 : Ref sig .tc := ⟨.hbm, 572, rfl⟩
abbrev main_v363 : Ref sig .tc := ⟨.hbm, 573, rfl⟩
abbrev main_cst_118 : Ref sig .tc := ⟨.hbm, 574, rfl⟩
abbrev main_v364 : Ref sig .tc := ⟨.hbm, 575, rfl⟩
abbrev main_v365 : Ref sig .tc := ⟨.hbm, 576, rfl⟩
abbrev main_v366 : Ref sig .tc := ⟨.hbm, 577, rfl⟩
abbrev main_cst_119 : Ref sig .tc := ⟨.hbm, 578, rfl⟩
abbrev main_v367 : Ref sig .tc := ⟨.hbm, 579, rfl⟩
abbrev main_v368 : Ref sig .tc := ⟨.hbm, 580, rfl⟩
abbrev main_cst_120 : Ref sig .tc := ⟨.hbm, 581, rfl⟩
abbrev main_v369 : Ref sig .tc := ⟨.hbm, 582, rfl⟩
abbrev main_v370 : Ref sig .tc := ⟨.hbm, 583, rfl⟩
abbrev main_v371 : Ref sig .tc := ⟨.hbm, 584, rfl⟩
abbrev main_v372 : Ref sig .tc := ⟨.hbm, 585, rfl⟩
abbrev main_v373 : Ref sig .tc := ⟨.hbm, 586, rfl⟩
abbrev main_cst_121 : Ref sig .tc := ⟨.hbm, 587, rfl⟩
abbrev main_v374 : Ref sig .tc := ⟨.hbm, 588, rfl⟩
abbrev main_cst_122 : Ref sig .tc := ⟨.hbm, 589, rfl⟩
abbrev main_v375 : Ref sig .tc := ⟨.hbm, 590, rfl⟩
abbrev main_v376 : Ref sig .tc := ⟨.hbm, 591, rfl⟩
abbrev main_v377 : Ref sig .tc := ⟨.hbm, 592, rfl⟩
abbrev main_v378 : Ref sig .tc := ⟨.hbm, 593, rfl⟩
abbrev main_v379 : Ref sig .tc := ⟨.hbm, 594, rfl⟩
abbrev main_v380 : Ref sig .tc := ⟨.hbm, 595, rfl⟩
abbrev main_cst_123 : Ref sig .tc := ⟨.hbm, 596, rfl⟩
abbrev main_v381 : Ref sig .tc := ⟨.hbm, 597, rfl⟩
abbrev main_v382 : Ref sig .tc := ⟨.hbm, 598, rfl⟩
abbrev main_v383 : Ref sig .tc := ⟨.hbm, 599, rfl⟩
abbrev main_v384 : Ref sig .tc := ⟨.hbm, 600, rfl⟩
abbrev main_v385 : Ref sig .tc := ⟨.hbm, 601, rfl⟩
abbrev main_v386 : Ref sig .tc := ⟨.hbm, 602, rfl⟩
abbrev main_v387 : Ref sig .tc := ⟨.hbm, 603, rfl⟩
abbrev main_cst_124 : Ref sig .tc := ⟨.hbm, 604, rfl⟩
abbrev main_v388 : Ref sig .tc := ⟨.hbm, 605, rfl⟩
abbrev main_v389 : Ref sig .tc := ⟨.hbm, 606, rfl⟩
abbrev main_v390 : Ref sig .tc := ⟨.hbm, 607, rfl⟩

abbrev nD : Nat := 1
abbrev τ : Topo := Topo.v7x

variable {F : FTy → Type} [FloatOps F]

class Facts₀ : Prop where
  bcast_S4x4096x2_S4x1x4096x2_0_2_3 : S4x4096x2.BroadcastsInDim S4x1x4096x2 (![0, 2, 3] : Fin 3 → Fin S4x1x4096x2.rank)
  bcast_S_S4x5x4096x2 : S_.BroadcastsInDim S4x5x4096x2 (![] : Fin 0 → Fin S4x5x4096x2.rank)
  bcast_S4x1x4096x2_S4x5x4096x2_0_1_2_3 : S4x1x4096x2.BroadcastsInDim S4x5x4096x2 (![0, 1, 2, 3] : Fin 4 → Fin S4x5x4096x2.rank)
  transposes_S4x4096x256_S4x256x4096_0_2_1 : S4x4096x256.Transposes [0, 2, 1] S4x256x4096
  bcast_S4x256x4096_S4x256x1x4096_0_1_3 : S4x256x4096.BroadcastsInDim S4x256x1x4096 (![0, 1, 3] : Fin 3 → Fin S4x256x1x4096.rank)
  slices_S4x5x4096x2_S4x5x4096x1_0_0_0_0 : S4x5x4096x2.Slices ![0, 0, 0, 0] S4x5x4096x1
  shapeCasts_S4x5x4096x1_S4x5x4096 : S4x5x4096x1.ShapeCasts S4x5x4096
  bcast_S_S4x5x4096 : S_.BroadcastsInDim S4x5x4096 (![] : Fin 0 → Fin S4x5x4096.rank)
  slices_S4x5x4096x2_S4x5x4096x1_0_0_0_1 : S4x5x4096x2.Slices ![0, 0, 0, 1] S4x5x4096x1
  shapeCasts_S4x256x128x128_S4x256x16384 : S4x256x128x128.ShapeCasts S4x256x16384
  shapeCasts_S4x5x4096_S4x20480 : S4x5x4096.ShapeCasts S4x20480
  bcast_S_S4x20480 : S_.BroadcastsInDim S4x20480 (![] : Fin 0 → Fin S4x20480.rank)
  bcast_S4x20480_S4x20480x1_0_1 : S4x20480.BroadcastsInDim S4x20480x1 (![0, 1] : Fin 2 → Fin S4x20480x1.rank)
  shapeCasts_S4x256x20480_S4x256x5x4096 : S4x256x20480.ShapeCasts S4x256x5x4096
  bcast_S4x5x4096_S4x1x5x4096_0_2_3 : S4x5x4096.BroadcastsInDim S4x1x5x4096 (![0, 2, 3] : Fin 3 → Fin S4x1x5x4096.rank)
  bcast_S4x1x5x4096_S4x256x5x4096_0_1_2_3 : S4x1x5x4096.BroadcastsInDim S4x256x5x4096 (![0, 1, 2, 3] : Fin 4 → Fin S4x256x5x4096.rank)
  bcast_S4x256x1x4096_S4x256x5x4096_0_1_2_3 : S4x256x1x4096.BroadcastsInDim S4x256x5x4096 (![0, 1, 2, 3] : Fin 4 → Fin S4x256x5x4096.rank)
  reducesTo_S4x256x5x4096_S4x5x4096_d1 : S4x256x5x4096.ReducesTo [1] S4x5x4096
  h_S_ : 0 < S_.numel
  reducesTo_S4x256x1x4096_S4x1x4096_d1 : S4x256x1x4096.ReducesTo [1] S4x1x4096
  bcast_S_S4x1x4096 : S_.BroadcastsInDim S4x1x4096 (![] : Fin 0 → Fin S4x1x4096.rank)
  bcast_S4x1x4096_S4x5x4096_0_1_2 : S4x1x4096.BroadcastsInDim S4x5x4096 (![0, 1, 2] : Fin 3 → Fin S4x5x4096.rank)
  reducesTo_S4x5x4096_S4x4096_d1 : S4x5x4096.ReducesTo [1] S4x4096
  bcast_S_S4x4096 : S_.BroadcastsInDim S4x4096 (![] : Fin 0 → Fin S4x4096.rank)
  bcast_S4x4096_S4x1x4096_0_2 : S4x4096.BroadcastsInDim S4x1x4096 (![0, 2] : Fin 2 → Fin S4x1x4096.rank)
  reducesTo_S4x256x5x4096_S4x256x4096_d2 : S4x256x5x4096.ReducesTo [2] S4x256x4096
  transposes_S4x256x4096_S4x4096x256_0_2_1 : S4x256x4096.Transposes [0, 2, 1] S4x4096x256
  gather_S4x256x16384_S4x20480x1_S4x256x20480_1_2_0_0_2_2_12561_wf : GatherDims.WF S4x256x16384 S4x20480x1 S4x256x20480 [1] [2] [0] [2] [0] 2 ![1, 256, 1]

variable [Facts₀]

def gather_S4x256x16384_S4x20480x1_S4x256x20480_1_2_0_0_2_2_12561 : GatherDims S4x256x16384 S4x20480x1 S4x256x20480 where
  offsetDims := [1]
  collapsedSliceDims := [2]
  operandBatchingDims := [0]
  startIndicesBatchingDims := [0]
  startIndexMap := [2]
  indexVectorDim := 2
  sliceSizes := ![1, 256, 1]
  wf := gather_S4x256x16384_S4x20480x1_S4x256x20480_1_2_0_0_2_2_12561_wf

class Facts : Prop extends Facts₀ where

variable [Facts]
-- ==== Proof.SoftAlignSpec.lean ====
/-
  The arithmetic of one point of the soft alignment, on the extended reals.
  For one point there are a feature row `p` (256 channels), five sampled feature rows `f a` and five sampled
  embedding rows `e a`. The cosine similarity of `p` with each `f a` (norms floored at a small constant) is put
  through a softmax over the five, and the embedding rows are averaged with those weights and added to `p`.
  Two arrangements of this arithmetic are stated — sums with or without a leading zero, the maximum folded from −∞
  or taken pairwise, the weights on the left or on the right of each product — and shown equal. Nothing here needs
  finiteness: only commutativity of the product, `0 + x = x` and `max ⊥ x = x` are used.
-/
import Idealize.ShloMosaic.PureOps.Ideal
import Idealize.ShloMosaic.PureOps.Ideal.Laws

noncomputable section

open scoped BigOperators

namespace Cert.SoftAlign

open Idealize.ShloMosaic

/-- The floor under a norm: the binary32 word nearest 1e-8. -/
abbrev epsW : EReal := Ideal.ofBits .f32 0x322BCC77#32
/-- The zero word. -/
abbrev zeroW : EReal := Ideal.ofBits .f32 0x00000000#32

theorem zeroW_eq : zeroW = 0 := by
  simp [zeroW, Ideal.ofBits, Ideal.ieee]

/-- Length of a row, floored. -/
def nrm (v : Fin 256 → EReal) : EReal := max (Ideal.sqrt (∑ c, v c * v c)) epsW
/-- Cosine similarity of two rows. -/
def sim (p f : Fin 256 → EReal) : EReal := Ideal.div (∑ c, p c * f c) (nrm p * nrm f)
/-- The largest of five. -/
def top (s : Fin 5 → EReal) : EReal := max (max (max (max (s 0) (s 1)) (s 2)) (s 3)) (s 4)
/-- A shifted exponential. -/
def ex (s : Fin 5 → EReal) (a : Fin 5) : EReal := Ideal.exp (s a - top s)
/-- Their total. -/
def den (s : Fin 5 → EReal) : EReal := ex s 0 + ex s 1 + ex s 2 + ex s 3 + ex s 4
/-- The weighted average of five values, weights on the left, accumulated from the zero word. -/
def mix (s e : Fin 5 → EReal) : EReal :=
  ((((zeroW + Ideal.div (ex s 0) (den s) * e 0) + Ideal.div (ex s 1) (den s) * e 1) + Ideal.div (ex s 2) (den s) * e 2)
    + Ideal.div (ex s 3) (den s) * e 3) + Ideal.div (ex s 4) (den s) * e 4
/-- One output entry: the row's entry plus the average of the embeddings' entries. -/
def out (p : Fin 256 → EReal) (f e : Fin 5 → Fin 256 → EReal) (c : Fin 256) : EReal :=
  p c + mix (fun a => sim p (f a)) (fun a => e a c)

theorem out_congr {p p' : Fin 256 → EReal} {f f' e e' : Fin 5 → Fin 256 → EReal} {c c' : Fin 256}
    (hp : p = p') (hf : f = f') (he : e = e') (hc : c = c') : out p f e c = out p' f' e' c' := by
  subst hp hf he hc; rfl

/-! ## The other arrangement -/

/-- Length of a row, the sum started from the zero word. -/
def nrm' (v : Fin 256 → EReal) : EReal := max (Ideal.sqrt (zeroW + ∑ c, v c * v c)) epsW
/-- Cosine similarity, sums started from the zero word. -/
def sim' (p f : Fin 256 → EReal) : EReal := Ideal.div (zeroW + ∑ c, p c * f c) (nrm' p * nrm' f)
/-- The largest of five, folded from an initial value and then compared with −∞ once more. -/
def top' (i0 : EReal) (s : Fin 5 → EReal) : EReal := max ⊥ ((Finset.univ : Finset (Fin 5)).fold max i0 s)
/-- A shifted exponential. -/
def ex' (i0 : EReal) (s : Fin 5 → EReal) (a : Fin 5) : EReal := Ideal.exp (s a - top' i0 s)
/-- The weighted average, weights on the right, as one sum started from the zero word. -/
def mix' (i0 : EReal) (s e : Fin 5 → EReal) : EReal :=
  zeroW + ∑ a : Fin 5, e a * Ideal.div (ex' i0 s a) (zeroW + ∑ a' : Fin 5, ex' i0 s a')
/-- One output entry in the other arrangement. -/
def out' (i0 : EReal) (p : Fin 256 → EReal) (f e : Fin 5 → Fin 256 → EReal) (c : Fin 256) : EReal :=
  p c + mix' i0 (fun a => sim' p (f a)) (fun a => e a c)

theorem nrm'_eq (v : Fin 256 → EReal) : nrm' v = nrm v := by
  unfold nrm' nrm; rw [zeroW_eq, zero_add]

theorem sim'_eq (p f : Fin 256 → EReal) : sim' p f = sim p f := by
  unfold sim' sim; rw [zeroW_eq, zero_add, nrm'_eq, nrm'_eq]

theorem top'_eq (s : Fin 5 → EReal) : top' ⊥ s = top s := by
  unfold top' top
  rw [max_eq_right bot_le]
  apply le_antisymm
  · rw [Finset.fold_max_le]
    refine ⟨bot_le, fun a _ => ?_⟩
    fin_cases a
    · exact le_trans (le_trans (le_trans (le_max_left _ _) (le_max_left _ _)) (le_max_left _ _)) (le_max_left _ _)
    · exact le_trans (le_trans (le_trans (le_max_right _ _) (le_max_left _ _)) (le_max_left _ _)) (le_max_left _ _)
    · exact le_trans (le_trans (le_max_right _ _) (le_max_left _ _)) (le_max_left _ _)
    · exact le_trans (le_max_right _ _) (le_max_left _ _)
    · exact le_max_right _ _
  · have h : ∀ a : Fin 5, s a ≤ (Finset.univ : Finset (Fin 5)).fold max ⊥ s := fun a =>
      (Finset.le_fold_max (s a)).2 (Or.inr ⟨a, Finset.mem_univ a, le_rfl⟩)
    exact max_le (max_le (max_le (max_le (h 0) (h 1)) (h 2)) (h 3)) (h 4)

theorem ex'_eq (s : Fin 5 → EReal) (a : Fin 5) : ex' ⊥ s a = ex s a := by
  unfold ex' ex; rw [top'_eq]

theorem mix'_eq (s e : Fin 5 → EReal) : mix' ⊥ s e = mix s e := by
  unfold mix' mix den
  simp only [ex'_eq, Fin.sum_univ_five, zeroW_eq, zero_add]
  simp only [mul_comm (e _)]

/-- The two arrangements give the same entry. -/
theorem out'_eq (p : Fin 256 → EReal) (f e : Fin 5 → Fin 256 → EReal) (c : Fin 256) : out' ⊥ p f e c = out p f e c := by
  unfold out' out
  rw [mix'_eq]
  simp only [sim'_eq]

end Cert.SoftAlign

end
-- ==== Proof.KernelBody.lean ====
/-
  The kernel body's arithmetic read at one entry. The body holds a 512×256 block `P0` of the point features and ten
  512×256 slabs of the sampled image — five of sampled features `Pf a`, five of sampled embeddings `Pe a` — and writes
  a 512×256 block. Every quantity it forms for row r depends on row r of the slabs only: the norms and dot products are
  lane sums of row r, the five similarities, their maximum, the shifted exponentials and their total are columns, and
  the stored entry (r, c) is the point feature's entry plus the weighted average of the five embeddings' entries — the
  function `SoftAlign.out` of row r.
-/
import proofs.«100191_j53017076302568_2_alg».proof.Proof.Gen.KernelIdeal.Skeleton
import proofs.«100191_j53017076302568_2_alg».proof.Proof.SoftAlignSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx
open Cert.SoftAlign

/-! ## The layout operations of the body at an entry -/

/-- A [1,1,512,256] slab read as a 512×256 block. -/
theorem slab_apply (P : Vec Ideal S1x1x512x256 .f32) (h : S1x1x512x256.ShapeCasts S512x256) (r : Fin 512) (c : Fin 256) :
    shapeCast S512x256 P h (ix2 r c) = P (ix4 (0 : Fin 1) (0 : Fin 1) r c) :=
  shapeCast_apply P h _ _ (by
    rw [Shape.rowMajor_val_four, Shape.rowMajor_val_two]
    show ((0 * 1 + 0) * 512 + r.val) * 256 + c.val = r.val * 256 + c.val
    omega)

/-- A [1,512,256] block read as a 512×256 block. -/
theorem block_apply (P : Vec Ideal S1x512x256 .f32) (h : S1x512x256.ShapeCasts S512x256) (r : Fin 512) (c : Fin 256) :
    shapeCast S512x256 P h (ix2 r c) = P (ix3 (0 : Fin 1) r c) :=
  shapeCast_1ab_ab_apply P h r c

/-- A length-512 vector laid out as a column. -/
theorem column_apply (v : FVec Ideal S512 .f32) (h : S512.ShapeCasts S512x1) (r : Fin 512) :
    shapeCast S512x1 v h (ix2 r (0 : Fin 1)) = v (ix1 r) :=
  shapeCast_apply v h _ _ (by
    rw [Shape.rowMajor_val_one, Shape.rowMajor_val_two]
    show r.val = r.val * 1 + 0
    omega)

/-- A column broadcast along the lanes. -/
theorem lanes_apply (v : FVec Ideal S512x1 .f32) (h : S512x1.Broadcasts S512x256) (r : Fin 512) (c : Fin 256) :
    broadcastTo S512x256 v h (ix2 r c) = v (ix2 r (0 : Fin 1)) :=
  broadcastTo_apply v h _ _ (fun a => by
    match a with
    | ⟨0, _⟩ => rfl
    | ⟨1, _⟩ => rfl)

/-- A lane sum of a 512×256 block at row r. -/
theorem laneSum_apply (M : FVec Ideal S512x256 .f32) (h : S512x256.Reduces [1] S512) (hφ : FKind.Formats .f32)
    (hacc : (0x00000000#32 : BitVec 32) = 0x00000000#32) (r : Fin 512) :
    multiReduction (F := Ideal) .add [1] S512 M 0x00000000#32 h hφ hacc (ix1 r) = ∑ c : Fin 256, M (ix2 r c) := by
  refine (Ideal.multiReduction_add_single M 0x00000000#32 h hφ hacc (ix1 r)).trans ?_
  refine Finset.sum_congr rfl fun c _ => congrArg M ?_
  funext a
  match a with
  | ⟨0, _⟩ => rfl
  | ⟨1, _⟩ => rfl

/-- A 512×256 block written back as [1,512,256]. -/
theorem store_apply (M : FVec Ideal S512x256 .f32) (h : S512x256.ShapeCasts S1x512x256) (r : Fin 512) (c : Fin 256) :
    shapeCast S1x512x256 M h (ix3 (0 : Fin 1) r c) = M (ix2 r c) :=
  shapeCast_ab_1ab_apply M h 0 r c

/-! ## The rows a block entry depends on -/

/-- Row r of a [1,512,256] block. -/
def row3 (P : Vec Ideal S1x512x256 .f32) (r : Fin 512) : Fin 256 → EReal := fun c => P (ix3 (0 : Fin 1) r c)
/-- Row r of a [1,1,512,256] slab. -/
def row4 (P : Vec Ideal S1x1x512x256 .f32) (r : Fin 512) : Fin 256 → EReal := fun c => P (ix4 (0 : Fin 1) (0 : Fin 1) r c)

/-! ## The body's values at row r -/

theorem pay2_apply (P0 : Vec Ideal S1x512x256 .f32) (r : Fin 512) (c : Fin 256) :
    k0_pay2 P0 (ix2 r c) = row3 P0 r c := by
  unfold k0_pay2
  exact block_apply P0 _ r c

/-- The floored length of a slab's row, as the body spells it. -/
theorem slabNorm_apply (P : Vec Ideal S1x1x512x256 .f32) (h : S1x1x512x256.ShapeCasts S512x256) (hr : S512x256.Reduces [1] S512)
    (hφ : FKind.Formats .f32) (hacc : (0x00000000#32 : BitVec 32) = 0x00000000#32) (hc : S512.ShapeCasts S512x1) (r : Fin 512) :
    maximumf (F := Ideal) (sqrt (shapeCast S512x1 (multiReduction (F := Ideal) .add [1] S512 (mulf (shapeCast S512x256 P h) (shapeCast S512x256 P h))
      0x00000000#32 hr hφ hacc) hc)) (broadcast S512x1 (Scalar.ofBits .f32 0x322BCC77#32)) (ix2 r (0 : Fin 1)) = nrm (row4 P r) := by
  show max (Ideal.sqrt (shapeCast S512x1 (multiReduction (F := Ideal) .add [1] S512 (mulf (shapeCast S512x256 P h) (shapeCast S512x256 P h))
      0x00000000#32 hr hφ hacc) hc (ix2 r (0 : Fin 1)))) epsW = _
  rw [column_apply, laneSum_apply]
  unfold nrm row4
  refine congrArg (fun t => max (Ideal.sqrt t) epsW) (Finset.sum_congr rfl fun c _ => ?_)
  show shapeCast S512x256 P h (ix2 r c) * shapeCast S512x256 P h (ix2 r c) = _
  rw [slab_apply]

theorem pay3_apply (P0 : Vec Ideal S1x512x256 .f32) (r : Fin 512) :
    k0_pay3 P0 (ix2 r (0 : Fin 1)) = nrm (row3 P0 r) := by
  unfold k0_pay3
  show max (Ideal.sqrt (shapeCast S512x1 (multiReduction (F := Ideal) .add [1] S512 (mulf (k0_pay2 P0) (k0_pay2 P0))
      0x00000000#32 reduces_S512x256_S512 (.inl rfl) rfl) shapeCasts_S512_S512x1 (ix2 r (0 : Fin 1)))) epsW = _
  rw [column_apply, laneSum_apply]
  unfold nrm
  refine congrArg (fun t => max (Ideal.sqrt t) epsW) (Finset.sum_congr rfl fun c _ => ?_)
  show k0_pay2 P0 (ix2 r c) * k0_pay2 P0 (ix2 r c) = _
  rw [pay2_apply]

/-- A similarity as the body spells it, over any 512×256 block `v1` and any column of floored lengths `v7`. -/
theorem simShape_apply (v1 : FVec Ideal S512x256 .f32) (v7 : FVec Ideal S512x1 .f32) (P : Vec Ideal S1x1x512x256 .f32)
    (h : S1x1x512x256.ShapeCasts S512x256) (hr : S512x256.Reduces [1] S512)
    (hφ : FKind.Formats .f32) (hacc : (0x00000000#32 : BitVec 32) = 0x00000000#32) (hc : S512.ShapeCasts S512x1) (r : Fin 512) :
    divf (F := Ideal) (shapeCast S512x1 (multiReduction (F := Ideal) .add [1] S512 (mulf v1 (shapeCast S512x256 P h)) 0x00000000#32 hr hφ hacc) hc)
      (mulf (F := Ideal) v7 (maximumf (F := Ideal) (sqrt (shapeCast S512x1 (multiReduction (F := Ideal) .add [1] S512 (mulf (shapeCast S512x256 P h) (shapeCast S512x256 P h))
        0x00000000#32 hr hφ hacc) hc)) (broadcast S512x1 (Scalar.ofBits .f32 0x322BCC77#32)))) (ix2 r (0 : Fin 1))
      = Ideal.div (∑ c : Fin 256, v1 (ix2 r c) * row4 P r c) (v7 (ix2 r (0 : Fin 1)) * nrm (row4 P r)) := by
  show Ideal.div (shapeCast S512x1 (multiReduction (F := Ideal) .add [1] S512 (mulf v1 (shapeCast S512x256 P h)) 0x00000000#32 hr hφ hacc) hc (ix2 r (0 : Fin 1)))
      (v7 (ix2 r (0 : Fin 1)) * (maximumf (F := Ideal) (sqrt (shapeCast S512x1 (multiReduction (F := Ideal) .add [1] S512 (mulf (shapeCast S512x256 P h) (shapeCast S512x256 P h))
        0x00000000#32 hr hφ hacc) hc)) (broadcast S512x1 (Scalar.ofBits .f32 0x322BCC77#32)) (ix2 r (0 : Fin 1)))) = _
  rw [slabNorm_apply, column_apply, laneSum_apply]
  refine congrArg (fun t => Ideal.div t _) (Finset.sum_congr rfl fun c _ => ?_)
  show v1 (ix2 r c) * shapeCast S512x256 P h (ix2 r c) = _
  rw [slab_apply]; rfl

theorem pay4_apply (P0 : Vec Ideal S1x512x256 .f32) (P : Vec Ideal S1x1x512x256 .f32) (r : Fin 512) :
    k0_pay4 P0 P (ix2 r (0 : Fin 1)) = sim (row3 P0 r) (row4 P r) := by
  unfold k0_pay4
  refine (simShape_apply (k0_pay2 P0) (k0_pay3 P0) P _ _ _ _ _ r).trans ?_
  unfold sim
  rw [pay3_apply]
  simp only [pay2_apply]

theorem pay5_apply (P0 : Vec Ideal S1x512x256 .f32) (P : Vec Ideal S1x1x512x256 .f32) (r : Fin 512) :
    k0_pay5 P0 P (ix2 r (0 : Fin 1)) = sim (row3 P0 r) (row4 P r) := by
  unfold k0_pay5
  refine (simShape_apply (k0_pay2 P0) (k0_pay3 P0) P _ _ _ _ _ r).trans ?_
  unfold sim
  rw [pay3_apply]
  simp only [pay2_apply]

theorem pay6_apply (P0 : Vec Ideal S1x512x256 .f32) (P : Vec Ideal S1x1x512x256 .f32) (r : Fin 512) :
    k0_pay6 (k0_pay2 P0) (k0_pay3 P0) P (ix2 r (0 : Fin 1)) = sim (row3 P0 r) (row4 P r) := by
  unfold k0_pay6
  refine (simShape_apply (k0_pay2 P0) (k0_pay3 P0) P _ _ _ _ _ r).trans ?_
  unfold sim
  rw [pay3_apply]
  simp only [pay2_apply]

theorem pay7_apply (P0 : Vec Ideal S1x512x256 .f32) (P : Vec Ideal S1x1x512x256 .f32) (r : Fin 512) :
    k0_pay7 (k0_pay2 P0) (k0_pay3 P0) P (ix2 r (0 : Fin 1)) = sim (row3 P0 r) (row4 P r) := by
  unfold k0_pay7
  refine (simShape_apply (k0_pay2 P0) (k0_pay3 P0) P _ _ _ _ _ r).trans ?_
  unfold sim
  rw [pay3_apply]
  simp only [pay2_apply]

theorem pay8_apply (P0 : Vec Ideal S1x512x256 .f32) (P : Vec Ideal S1x1x512x256 .f32) (r : Fin 512) :
    k0_pay8 (k0_pay2 P0) (k0_pay3 P0) P (ix2 r (0 : Fin 1)) = sim (row3 P0 r) (row4 P r) := by
  unfold k0_pay8
  refine (simShape_apply (k0_pay2 P0) (k0_pay3 P0) P _ _ _ _ _ r).trans ?_
  unfold sim
  rw [pay3_apply]
  simp only [pay2_apply]

/-! ## The columns and the stored block -/

theorem pay9_apply (v1 : FVec Ideal S512x256 .f32) (v7 v20 v33 : FVec Ideal S512x1 .f32) (P3 P4 P5 : Vec Ideal S1x1x512x256 .f32)
    (i : S512x1.Idx) :
    k0_pay9 v1 v7 v20 v33 P3 P4 P5 i
      = max (max (max (max (v20 i) (v33 i)) (k0_pay6 v1 v7 P3 i)) (k0_pay7 v1 v7 P4 i)) (k0_pay8 v1 v7 P5 i) := rfl

theorem pay10_apply (v1 : FVec Ideal S512x256 .f32) (v7 v20 v33 : FVec Ideal S512x1 .f32) (P3 P4 P5 : Vec Ideal S1x1x512x256 .f32)
    (i : S512x1.Idx) :
    k0_pay10 v1 v7 v20 v33 P3 P4 P5 i = v20 i - k0_pay9 v1 v7 v20 v33 P3 P4 P5 i := rfl

theorem pay11_apply (v : FVec Ideal S512x1 .f32) (i : S512x1.Idx) : k0_pay11 v i = Ideal.exp (v i) := rfl
theorem pay12_apply (v w : FVec Ideal S512x1 .f32) (i : S512x1.Idx) : k0_pay12 v w i = Ideal.exp (v i - w i) := rfl
theorem pay13_apply (v w : FVec Ideal S512x1 .f32) (i : S512x1.Idx) : k0_pay13 v w i = Ideal.exp (v i - w i) := rfl
theorem pay14_apply (v w : FVec Ideal S512x1 .f32) (i : S512x1.Idx) : k0_pay14 v w i = Ideal.exp (v i - w i) := rfl
theorem pay15_apply (v w : FVec Ideal S512x1 .f32) (i : S512x1.Idx) : k0_pay15 v w i = Ideal.exp (v i - w i) := rfl

theorem pay16_apply (v33 v46 v59 v72 v76 v77 : FVec Ideal S512x1 .f32) (i : S512x1.Idx) :
    k0_pay16 v33 v46 v59 v72 v76 v77 i
      = k0_pay11 v77 i + k0_pay12 v33 v76 i + k0_pay13 v46 v76 i + k0_pay14 v59 v76 i + k0_pay15 v72 v76 i := rfl

theorem pay17_apply (v33 v46 v59 v72 v76 v77 : FVec Ideal S512x1 .f32) (P6 P7 P8 P9 : Vec Ideal S1x1x512x256 .f32)
    (r : Fin 512) (c : Fin 256) :
    k0_pay17 v33 v46 v59 v72 v76 v77 P6 P7 P8 P9 (ix2 r c)
      = (((zeroW + Ideal.div (k0_pay11 v77 (ix2 r (0 : Fin 1))) (k0_pay16 v33 v46 v59 v72 v76 v77 (ix2 r (0 : Fin 1))) * row4 P6 r c)
          + Ideal.div (k0_pay12 v33 v76 (ix2 r (0 : Fin 1))) (k0_pay16 v33 v46 v59 v72 v76 v77 (ix2 r (0 : Fin 1))) * row4 P7 r c)
          + Ideal.div (k0_pay13 v46 v76 (ix2 r (0 : Fin 1))) (k0_pay16 v33 v46 v59 v72 v76 v77 (ix2 r (0 : Fin 1))) * row4 P8 r c)
          + Ideal.div (k0_pay14 v59 v76 (ix2 r (0 : Fin 1))) (k0_pay16 v33 v46 v59 v72 v76 v77 (ix2 r (0 : Fin 1))) * row4 P9 r c := by
  unfold k0_pay17
  simp only [ValueIdx.addf_apply, ValueIdx.mulf_apply, lanes_apply]
  rw [slab_apply P6, slab_apply P7, slab_apply P8, slab_apply P9]
  rfl

theorem pay1_apply (v1 : FVec Ideal S512x256 .f32) (v86 v90 : FVec Ideal S512x1 .f32) (v115 : FVec Ideal S512x256 .f32)
    (P10 : Vec Ideal S1x1x512x256 .f32) (r : Fin 512) (c : Fin 256) :
    k0_pay1 v1 v86 v90 v115 P10 (ix3 (0 : Fin 1) r c)
      = v1 (ix2 r c) + (v115 (ix2 r c) + Ideal.div (v86 (ix2 r (0 : Fin 1))) (v90 (ix2 r (0 : Fin 1))) * row4 P10 r c) := by
  unfold k0_pay1
  simp only [store_apply, ValueIdx.addf_apply, ValueIdx.mulf_apply, lanes_apply]
  rw [slab_apply P10]
  rfl

/-- The block the body stores, as the composed payloads of its eleven loads: the point features `P0`, the five sampled
    feature slabs `P1 … P5` and the five sampled embedding slabs `P6 … P10`. -/
def blockOf (P0 : Vec Ideal S1x512x256 .f32) (P1 P2 P3 P4 P5 P6 P7 P8 P9 P10 : Vec Ideal S1x1x512x256 .f32) :
    FVec Ideal S1x512x256 .f32 :=
  k0_pay1 (k0_pay2 P0) (k0_pay15 (k0_pay8 (k0_pay2 P0) (k0_pay3 P0) P5) (k0_pay9 (k0_pay2 P0) (k0_pay3 P0) (k0_pay4 P0 P1) (k0_pay5 P0 P2) P3 P4 P5)) (k0_pay16 (k0_pay5 P0 P2) (k0_pay6 (k0_pay2 P0) (k0_pay3 P0) P3) (k0_pay7 (k0_pay2 P0) (k0_pay3 P0) P4) (k0_pay8 (k0_pay2 P0) (k0_pay3 P0) P5) (k0_pay9 (k0_pay2 P0) (k0_pay3 P0) (k0_pay4 P0 P1) (k0_pay5 P0 P2) P3 P4 P5) (k0_pay10 (k0_pay2 P0) (k0_pay3 P0) (k0_pay4 P0 P1) (k0_pay5 P0 P2) P3 P4 P5)) (k0_pay17 (k0_pay5 P0 P2) (k0_pay6 (k0_pay2 P0) (k0_pay3 P0) P3) (k0_pay7 (k0_pay2 P0) (k0_pay3 P0) P4) (k0_pay8 (k0_pay2 P0) (k0_pay3 P0) P5) (k0_pay9 (k0_pay2 P0) (k0_pay3 P0) (k0_pay4 P0 P1) (k0_pay5 P0 P2) P3 P4 P5) (k0_pay10 (k0_pay2 P0) (k0_pay3 P0) (k0_pay4 P0 P1) (k0_pay5 P0 P2) P3 P4 P5) P6 P7 P8 P9) P10

/-- THE STORED BLOCK AT (r, c): the soft alignment of row r. -/
theorem blockOf_apply (P0 : Vec Ideal S1x512x256 .f32) (P1 P2 P3 P4 P5 P6 P7 P8 P9 P10 : Vec Ideal S1x1x512x256 .f32)
    (r : Fin 512) (c : Fin 256) :
    blockOf P0 P1 P2 P3 P4 P5 P6 P7 P8 P9 P10 (ix3 (0 : Fin 1) r c)
      = out (row3 P0 r) (fun a => row4 (![P1, P2, P3, P4, P5] a) r) (fun a => row4 (![P6, P7, P8, P9, P10] a) r) c := by
  unfold blockOf
  rw [pay1_apply, pay17_apply, pay2_apply]
  simp only [pay16_apply, pay15_apply, pay14_apply, pay13_apply, pay12_apply, pay11_apply, pay10_apply, pay9_apply,
    pay8_apply, pay7_apply, pay6_apply, pay5_apply, pay4_apply]
  rfl

/-- The same at any index of the block. -/
theorem blockOf_apply' (P0 : Vec Ideal S1x512x256 .f32) (P1 P2 P3 P4 P5 P6 P7 P8 P9 P10 : Vec Ideal S1x1x512x256 .f32)
    (j : S1x512x256.Idx) :
    blockOf P0 P1 P2 P3 P4 P5 P6 P7 P8 P9 P10 j
      = out (row3 P0 (⟨(j 1).val, (j 1).isLt⟩ : Fin 512)) (fun a => row4 (![P1, P2, P3, P4, P5] a) (⟨(j 1).val, (j 1).isLt⟩ : Fin 512))
          (fun a => row4 (![P6, P7, P8, P9, P10] a) (⟨(j 1).val, (j 1).isLt⟩ : Fin 512)) (⟨(j 2).val, (j 2).isLt⟩ : Fin 256) := by
  have hj : j = ix3 (0 : Fin 1) (⟨(j 1).val, (j 1).isLt⟩ : Fin 512) (⟨(j 2).val, (j 2).isLt⟩ : Fin 256) := by
    funext ax
    match ax with
    | ⟨0, _⟩ => exact Fin.ext (by have h := (j 0).isLt; show (j 0).val = 0; have : (j 0).val < 1 := h; omega)
    | ⟨1, _⟩ => rfl
    | ⟨2, _⟩ => rfl
  rw [hj]
  exact blockOf_apply P0 P1 P2 P3 P4 P5 P6 P7 P8 P9 P10 _ _

end Cert.KernelIdeal.Body

end
-- ==== Proof.KernelValue.lean ====
/-
  The kernel's result array as one function of the arrays the region finds. The grid is 4 × 8: point (b, i) takes the
  512 points n = 512·i … 512·i + 511 of batch b — their feature rows from the [4, 4096, 256] array, their five sampled
  slabs of 512 channels from the [4, 5, 4096, 512] array (channels 0 … 255 the sampled features, 256 … 511 the sampled
  embeddings) — and writes their 512 result rows. So entry (b, n, c) of the result is the soft alignment
  (`SoftAlign.out`) of point (b, n): of its feature row, its five sampled feature rows and its five sampled embedding
  rows. The blocks of the 32 points tile the array, so this holds at every index.
-/
import proofs.«100191_j53017076302568_2_alg».proof.Proof.KernelBlocks
import proofs.«100191_j53017076302568_2_alg».proof.Proof.KernelBody

noncomputable section

namespace Cert.KernelIdeal.Whole

open Cert.KernelIdeal Cert.KernelIdeal.Gen Cert.KernelIdeal.Body Idealize.ShloMosaic Idealize.ShloMosaic.TcCoe Idealize.SL.Sem
open Idealize.ShloMosaic.ValueIdx Cert.SoftAlign
open Idealize.ShloMosaic.Pipeline (Dat)

variable (m : (ℓ : Loc nD τ sig) → Buf (Elt Ideal) ℓ) (ρ : Dev nD → PrngReg)

/-- The result at (b, n, c), from the point features `pf` and the sampled array `g`. -/
def G3 (pf : S4x4096x256.Idx → EReal) (g : S4x5x4096x512.Idx → EReal) (b : Fin 4) (n : Fin 4096) (c : Fin 256) : EReal :=
  out (fun c' => pf (ix3 b n c')) (fun a c' => g (ix4 b a n (⟨c'.val, by omega⟩ : Fin 512)))
    (fun a c' => g (ix4 b a n (⟨c'.val + 256, by omega⟩ : Fin 512))) c

/-- The result array. -/
def G (pf : S4x4096x256.Idx → EReal) (g : S4x5x4096x512.Idx → EReal) : S4x4096x256.Idx → EReal := fun i =>
  G3 pf g (⟨(i 0).val, (i 0).isLt⟩ : Fin 4) (⟨(i 1).val, (i 1).isLt⟩ : Fin 4096) (⟨(i 2).val, (i 2).isLt⟩ : Fin 256)

theorem hz3 : (![0, 0, 0] : Fin 3 → Nat) = fun _ => 0 := funext fun a => by fin_cases a <;> rfl

/-- The printed index maps over the grid: the feature block moves with the result block; the sampled block has the
    result block's batch and point-tile indices and is whole along the five offsets and the channels. -/
theorem idx_facts : ∀ t : Fin cfg0.N,
    win0_1.index t (0 : Fin 3) = win0_2.index t (0 : Fin 3) ∧ win0_1.index t (1 : Fin 3) = win0_2.index t (1 : Fin 3)
    ∧ win0_1.index t (2 : Fin 3) = win0_2.index t (2 : Fin 3)
    ∧ win0_0.index t (0 : Fin 4) = win0_2.index t (0 : Fin 3) ∧ win0_0.index t (1 : Fin 4) = 0
    ∧ win0_0.index t (2 : Fin 4) = win0_2.index t (1 : Fin 3) ∧ win0_0.index t (3 : Fin 4) = 0
    ∧ win0_2.index t (0 : Fin 3) ≤ 3 ∧ win0_2.index t (1 : Fin 3) ≤ 7 ∧ win0_2.index t (2 : Fin 3) = 0 :=
  (by decide +kernel : ∀ t : Fin grid0.N, _)

/-- Every block of the result array is some point's. -/
theorem idx_onto : ∀ (q0 : Fin 4) (q1 : Fin 8), ∃ t : Fin cfg0.N, win0_2.index t = ![q0.val, q1.val, 0] :=
  (by decide +kernel : ∀ (q0 : Fin 4) (q1 : Fin 8), ∃ t : Fin grid0.N, win0_2.index t = ![q0.val, q1.val, 0])

/-- WHAT POINT `t` WRITES BACK is block `t` of `G` of the arrays the region finds. -/
theorem flushed_eq (c : Dev nD) (t : Fin cfg0.N) :
    (dats m 0 c).flushed 2 t
      = ((cfg0.win 2).blk t).view.read (Elt Ideal) (G (V m c main_arg1) (V m c main_v196)) := by
  rw [Cert.KernelIdeal.Value.flushed2]
  unfold out0_2
  rw [View.canon_unit_zero hz3]
  simp only [View.ld_unit_zero (S := S1x512x256) hz3]
  obtain ⟨e0, e1, e2, e3, e4, e5, e6, e7, e8, e9⟩ := idx_facts t
  rw [show iblk m c 0 t = ((cfg0.win 0).blk t).view.read (Elt Ideal) (V m c main_v196) from rfl,
    show iblk m c 1 t = ((cfg0.win 1).blk t).view.read (Elt Ideal) (V m c main_arg1) from rfl]
  generalize V m c main_v196 = gath
  generalize V m c main_arg1 = feat
  funext j
  have hj0 : (j 0).val < 1 := (j 0).isLt
  have hj1 : (j 1).val < 512 := (j 1).isLt
  have hj2 : (j 2).val < 256 := (j 2).isLt
  show blockOf (((cfg0.win 1).blk t).view.read (Elt Ideal) feat)
      (View.ld (((cfg0.win 0).blk t).view.read (Elt Ideal) gath) r0_1) (View.ld (((cfg0.win 0).blk t).view.read (Elt Ideal) gath) r0_2)
      (View.ld (((cfg0.win 0).blk t).view.read (Elt Ideal) gath) r0_3) (View.ld (((cfg0.win 0).blk t).view.read (Elt Ideal) gath) r0_4)
      (View.ld (((cfg0.win 0).blk t).view.read (Elt Ideal) gath) r0_5) (View.ld (((cfg0.win 0).blk t).view.read (Elt Ideal) gath) r0_6)
      (View.ld (((cfg0.win 0).blk t).view.read (Elt Ideal) gath) r0_7) (View.ld (((cfg0.win 0).blk t).view.read (Elt Ideal) gath) r0_8)
      (View.ld (((cfg0.win 0).blk t).view.read (Elt Ideal) gath) r0_9) (View.ld (((cfg0.win 0).blk t).view.read (Elt Ideal) gath) r0_10) j
    = G feat gath (((cfg0.win 2).blk t).view.emb j)
  refine (blockOf_apply' _ _ _ _ _ _ _ _ _ _ _ j).trans ?_
  unfold G G3
  refine out_congr ?_ ?_ ?_ ?_
  · funext c'
    show feat (((cfg0.win 1).blk t).view.emb (ix3 (0 : Fin 1) (⟨(j 1).val, hj1⟩ : Fin 512) c')) = feat _
    refine congrArg _ (funext fun ax => Fin.ext ?_)
    match ax with
    | ⟨0, _⟩ => show win0_1.index t (0 : Fin 3) * 1 + 1 * 0 = win0_2.index t (0 : Fin 3) * 1 + 1 * (j 0).val; omega
    | ⟨1, _⟩ => show win0_1.index t (1 : Fin 3) * 512 + 1 * (j 1).val = win0_2.index t (1 : Fin 3) * 512 + 1 * (j 1).val; omega
    | ⟨2, _⟩ => show win0_1.index t (2 : Fin 3) * 256 + 1 * c'.val = c'.val; omega
  · funext a c'
    fin_cases a
    ·
      show gath (((cfg0.win 0).blk t).view.emb (r0_1.emb (ix4 (0 : Fin 1) (0 : Fin 1) (⟨(j 1).val, hj1⟩ : Fin 512) c'))) = gath _
      refine congrArg _ (funext fun ax => Fin.ext ?_)
      match ax with
      | ⟨0, _⟩ => show win0_0.index t (0 : Fin 4) * 1 + 1 * (0 + 1 * 0) = win0_2.index t (0 : Fin 3) * 1 + 1 * (j 0).val; omega
      | ⟨1, _⟩ => show win0_0.index t (1 : Fin 4) * 5 + 1 * (0 + 1 * 0) = 0; omega
      | ⟨2, _⟩ => show win0_0.index t (2 : Fin 4) * 512 + 1 * (0 + 1 * (j 1).val) = win0_2.index t (1 : Fin 3) * 512 + 1 * (j 1).val; omega
      | ⟨3, _⟩ => show win0_0.index t (3 : Fin 4) * 512 + 1 * (0 + 1 * c'.val) = c'.val; omega
    ·
      show gath (((cfg0.win 0).blk t).view.emb (r0_2.emb (ix4 (0 : Fin 1) (0 : Fin 1) (⟨(j 1).val, hj1⟩ : Fin 512) c'))) = gath _
      refine congrArg _ (funext fun ax => Fin.ext ?_)
      match ax with
      | ⟨0, _⟩ => show win0_0.index t (0 : Fin 4) * 1 + 1 * (0 + 1 * 0) = win0_2.index t (0 : Fin 3) * 1 + 1 * (j 0).val; omega
      | ⟨1, _⟩ => show win0_0.index t (1 : Fin 4) * 5 + 1 * (1 + 1 * 0) = 1; omega
      | ⟨2, _⟩ => show win0_0.index t (2 : Fin 4) * 512 + 1 * (0 + 1 * (j 1).val) = win0_2.index t (1 : Fin 3) * 512 + 1 * (j 1).val; omega
      | ⟨3, _⟩ => show win0_0.index t (3 : Fin 4) * 512 + 1 * (0 + 1 * c'.val) = c'.val; omega
    ·
      show gath (((cfg0.win 0).blk t).view.emb (r0_3.emb (ix4 (0 : Fin 1) (0 : Fin 1) (⟨(j 1).val, hj1⟩ : Fin 512) c'))) = gath _
      refine congrArg _ (funext fun ax => Fin.ext ?_)
      match ax with
      | ⟨0, _⟩ => show win0_0.index t (0 : Fin 4) * 1 + 1 * (0 + 1 * 0) = win0_2.index t (0 : Fin 3) * 1 + 1 * (j 0).val; omega
      | ⟨1, _⟩ => show win0_0.index t (1 : Fin 4) * 5 + 1 * (2 + 1 * 0) = 2; omega
      | ⟨2, _⟩ => show win0_0.index t (2 : Fin 4) * 512 + 1 * (0 + 1 * (j 1).val) = win0_2.index t (1 : Fin 3) * 512 + 1 * (j 1).val; omega
      | ⟨3, _⟩ => show win0_0.index t (3 : Fin 4) * 512 + 1 * (0 + 1 * c'.val) = c'.val; omega
    ·
      show gath (((cfg0.win 0).blk t).view.emb (r0_4.emb (ix4 (0 : Fin 1) (0 : Fin 1) (⟨(j 1).val, hj1⟩ : Fin 512) c'))) = gath _
      refine congrArg _ (funext fun ax => Fin.ext ?_)
      match ax with
      | ⟨0, _⟩ => show win0_0.index t (0 : Fin 4) * 1 + 1 * (0 + 1 * 0) = win0_2.index t (0 : Fin 3) * 1 + 1 * (j 0).val; omega
      | ⟨1, _⟩ => show win0_0.index t (1 : Fin 4) * 5 + 1 * (3 + 1 * 0) = 3; omega
      | ⟨2, _⟩ => show win0_0.index t (2 : Fin 4) * 512 + 1 * (0 + 1 * (j 1).val) = win0_2.index t (1 : Fin 3) * 512 + 1 * (j 1).val; omega
      | ⟨3, _⟩ => show win0_0.index t (3 : Fin 4) * 512 + 1 * (0 + 1 * c'.val) = c'.val; omega
    ·
      show gath (((cfg0.win 0).blk t).view.emb (r0_5.emb (ix4 (0 : Fin 1) (0 : Fin 1) (⟨(j 1).val, hj1⟩ : Fin 512) c'))) = gath _
      refine congrArg _ (funext fun ax => Fin.ext ?_)
      match ax with
      | ⟨0, _⟩ => show win0_0.index t (0 : Fin 4) * 1 + 1 * (0 + 1 * 0) = win0_2.index t (0 : Fin 3) * 1 + 1 * (j 0).val; omega
      | ⟨1, _⟩ => show win0_0.index t (1 : Fin 4) * 5 + 1 * (4 + 1 * 0) = 4; omega
      | ⟨2, _⟩ => show win0_0.index t (2 : Fin 4) * 512 + 1 * (0 + 1 * (j 1).val) = win0_2.index t (1 : Fin 3) * 512 + 1 * (j 1).val; omega
      | ⟨3, _⟩ => show win0_0.index t (3 : Fin 4) * 512 + 1 * (0 + 1 * c'.val) = c'.val; omega
  · funext a c'
    fin_cases a
    ·
      show gath (((cfg0.win 0).blk t).view.emb (r0_6.emb (ix4 (0 : Fin 1) (0 : Fin 1) (⟨(j 1).val, hj1⟩ : Fin 512) c'))) = gath _
      refine congrArg _ (funext fun ax => Fin.ext ?_)
      match ax with
      | ⟨0, _⟩ => show win0_0.index t (0 : Fin 4) * 1 + 1 * (0 + 1 * 0) = win0_2.index t (0 : Fin 3) * 1 + 1 * (j 0).val; omega
      | ⟨1, _⟩ => show win0_0.index t (1 : Fin 4) * 5 + 1 * (0 + 1 * 0) = 0; omega
      | ⟨2, _⟩ => show win0_0.index t (2 : Fin 4) * 512 + 1 * (0 + 1 * (j 1).val) = win0_2.index t (1 : Fin 3) * 512 + 1 * (j 1).val; omega
      | ⟨3, _⟩ => show win0_0.index t (3 : Fin 4) * 512 + 1 * (256 + 1 * c'.val) = c'.val + 256; omega
    ·
      show gath (((cfg0.win 0).blk t).view.emb (r0_7.emb (ix4 (0 : Fin 1) (0 : Fin 1) (⟨(j 1).val, hj1⟩ : Fin 512) c'))) = gath _
      refine congrArg _ (funext fun ax => Fin.ext ?_)
      match ax with
      | ⟨0, _⟩ => show win0_0.index t (0 : Fin 4) * 1 + 1 * (0 + 1 * 0) = win0_2.index t (0 : Fin 3) * 1 + 1 * (j 0).val; omega
      | ⟨1, _⟩ => show win0_0.index t (1 : Fin 4) * 5 + 1 * (1 + 1 * 0) = 1; omega
      | ⟨2, _⟩ => show win0_0.index t (2 : Fin 4) * 512 + 1 * (0 + 1 * (j 1).val) = win0_2.index t (1 : Fin 3) * 512 + 1 * (j 1).val; omega
      | ⟨3, _⟩ => show win0_0.index t (3 : Fin 4) * 512 + 1 * (256 + 1 * c'.val) = c'.val + 256; omega
    ·
      show gath (((cfg0.win 0).blk t).view.emb (r0_8.emb (ix4 (0 : Fin 1) (0 : Fin 1) (⟨(j 1).val, hj1⟩ : Fin 512) c'))) = gath _
      refine congrArg _ (funext fun ax => Fin.ext ?_)
      match ax with
      | ⟨0, _⟩ => show win0_0.index t (0 : Fin 4) * 1 + 1 * (0 + 1 * 0) = win0_2.index t (0 : Fin 3) * 1 + 1 * (j 0).val; omega
      | ⟨1, _⟩ => show win0_0.index t (1 : Fin 4) * 5 + 1 * (2 + 1 * 0) = 2; omega
      | ⟨2, _⟩ => show win0_0.index t (2 : Fin 4) * 512 + 1 * (0 + 1 * (j 1).val) = win0_2.index t (1 : Fin 3) * 512 + 1 * (j 1).val; omega
      | ⟨3, _⟩ => show win0_0.index t (3 : Fin 4) * 512 + 1 * (256 + 1 * c'.val) = c'.val + 256; omega
    ·
      show gath (((cfg0.win 0).blk t).view.emb (r0_9.emb (ix4 (0 : Fin 1) (0 : Fin 1) (⟨(j 1).val, hj1⟩ : Fin 512) c'))) = gath _
      refine congrArg _ (funext fun ax => Fin.ext ?_)
      match ax with
      | ⟨0, _⟩ => show win0_0.index t (0 : Fin 4) * 1 + 1 * (0 + 1 * 0) = win0_2.index t (0 : Fin 3) * 1 + 1 * (j 0).val; omega
      | ⟨1, _⟩ => show win0_0.index t (1 : Fin 4) * 5 + 1 * (3 + 1 * 0) = 3; omega
      | ⟨2, _⟩ => show win0_0.index t (2 : Fin 4) * 512 + 1 * (0 + 1 * (j 1).val) = win0_2.index t (1 : Fin 3) * 512 + 1 * (j 1).val; omega
      | ⟨3, _⟩ => show win0_0.index t (3 : Fin 4) * 512 + 1 * (256 + 1 * c'.val) = c'.val + 256; omega
    ·
      show gath (((cfg0.win 0).blk t).view.emb (r0_10.emb (ix4 (0 : Fin 1) (0 : Fin 1) (⟨(j 1).val, hj1⟩ : Fin 512) c'))) = gath _
      refine congrArg _ (funext fun ax => Fin.ext ?_)
      match ax with
      | ⟨0, _⟩ => show win0_0.index t (0 : Fin 4) * 1 + 1 * (0 + 1 * 0) = win0_2.index t (0 : Fin 3) * 1 + 1 * (j 0).val; omega
      | ⟨1, _⟩ => show win0_0.index t (1 : Fin 4) * 5 + 1 * (4 + 1 * 0) = 4; omega
      | ⟨2, _⟩ => show win0_0.index t (2 : Fin 4) * 512 + 1 * (0 + 1 * (j 1).val) = win0_2.index t (1 : Fin 3) * 512 + 1 * (j 1).val; omega
      | ⟨3, _⟩ => show win0_0.index t (3 : Fin 4) * 512 + 1 * (256 + 1 * c'.val) = c'.val + 256; omega
  · refine Fin.ext ?_
    show (j 2).val = win0_2.index t (2 : Fin 3) * 256 + 1 * (j 2).val
    omega

/-- An index of the array is in point `t`'s block iff each coordinate is in the block's range on its axis. -/
theorem mem_blk (t : Fin cfg0.N) (i : S4x4096x256.Idx) :
    i ∈ ((cfg0.win 2).blk t).view.set ↔ ∀ a : Fin 3, win0_2.index t a * S1x512x256.size a ≤ (i a).val
      ∧ (i a).val < win0_2.index t a * S1x512x256.size a + S1x512x256.size a := by
  show i ∈ ((View.whole main_v197).slice (win0_2.rect t)).set ↔ _
  rw [View.set_slice_whole, Rect.mem_set_unit]
  exact Iff.rfl

/-- The 32 blocks tile the array: entry (b, n, c) is in the block of point (b, n / 512). -/
theorem cover (i : S4x4096x256.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 256 := (i 2).isLt
  obtain ⟨t, ht⟩ := idx_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 256 ≤ (i 2).val ∧ (i 2).val < win0_2.index t (2 : Fin 3) * 256 + 256; omega

/-- THE RESULT ARRAY after the run is `G` of the arrays the region finds. -/
theorem final (c : Dev nD) : (dats m 0 c).arrAt 2 cfg0.N = G (V m c main_arg1) (V m c main_v196) :=
  (dats m 0 c).arrAt_eq_of_cover 2 (G (V m c main_arg1) (V m c main_v196)) (fun t _ => flushed_eq m c t) cover

/-- The kernel's run with its result named. -/
theorem run : θ_run defs (onTc (τ := τ) (main (F := Ideal))) ⟨m, fun _ => 0, ρ⟩ fun r => ∀ c : Dev nD,
      r.2.mem ((c : Thread nD τ).loc main_v197) = G (m ((c : Thread nD τ).loc main_arg1)) (V m c main_v196)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (by rw [V_main_arg1])), (h c).2⟩)
    (Cert.KernelIdeal.Value.run_blocks m ρ)

end Cert.KernelIdeal.Whole

end
-- ==== Proof.LibBatchGather.lean ====
/-
  Two gathers with a leading batch axis shared by the operand and the start indices, read at an index.
  (1) A stack of images [B, H, W, C] sampled at [B, A, N] positions whose (row, column) pairs are laid out
      [B, A, N, 2]: the result [B, A, N, C] holds at (b, a, n, c) the image b at (row, column, c), each index read signed
      and clamped into its axis.
  (2) A stack of matrices [B, C, M] whose last axis is sampled at [B, E] positions laid out [B, E, 1]: the result
      [B, C, E] holds at (b, c, e) the matrix b at (c, position), the index read signed and clamped.
  General: nothing here mentions a program.
-/
import Idealize.ShloMosaic.PureOps.ShapeOps
import Idealize.ShloMosaic.PureOps.Dims
import Idealize.ShloMosaic.Lib.ValueIdx

namespace Cert.LibBatchGather

open Idealize.ShloMosaic Idealize.ShloMosaic.ValueIdx

variable {α : Type} {w : Nat}

section Pixels
variable {B H W C A N : Nat}

/-- Dimension numbers of (1). -/
abbrev pixelDims (B H W C A N : Nat)
    (wf : GatherDims.WF ⟨4, ![B, H, W, C]⟩ ⟨4, ![B, A, N, 2]⟩ ⟨4, ![B, A, N, C]⟩ [3] [1, 2] [0] [1, 2] [0] 3 ![1, 1, 1, C]) :
    GatherDims ⟨4, ![B, H, W, C]⟩ ⟨4, ![B, A, N, 2]⟩ ⟨4, ![B, A, N, C]⟩ where
  offsetDims := [3]
  collapsedSliceDims := [1, 2]
  operandBatchingDims := [0]
  startIndicesBatchingDims := [0]
  startIndexMap := [1, 2]
  indexVectorDim := 3
  sliceSizes := ![1, 1, 1, C]
  wf := wf

variable (wf : GatherDims.WF ⟨4, ![B, H, W, C]⟩ ⟨4, ![B, A, N, 2]⟩ ⟨4, ![B, A, N, C]⟩ [3] [1, 2] [0] [1, 2] [0] 3 ![1, 1, 1, C])

/-- THE GATHER (1) READ AT (b, a, n, c). -/
theorem gather_pixel_apply (hH : 0 < H) (hW : 0 < W) (x : (⟨4, ![B, H, W, C]⟩ : Shape).Idx → α)
    (idx : IVec ⟨4, ![B, A, N, 2]⟩ w) (b : Fin B) (a : Fin A) (n : Fin N) (c : Fin C) :
    Host.gather (pixelDims B H W C A N wf) x idx (ix4 b a n c)
      = x (ix4 b ⟨min (idx (ix4 b a n (0 : Fin 2))).toInt.toNat (H - 1), by omega⟩
          ⟨min (idx (ix4 b a n (1 : Fin 2))).toInt.toNat (W - 1), by omega⟩ c) := by
  unfold Host.gather
  congr 1
  funext ax
  refine Fin.ext ?_
  show (pixelDims B H W C A N wf).start (ix4 b a n c) idx ax + (pixelDims B H W C A N wf).batchCoord (ix4 b a n c) ax
    + (pixelDims B H W C A N wf).offCoord (ix4 b a n c) ax = _
  match ax with
  | ⟨0, _⟩ =>
    have hk : ¬ (0 : Fin 4) ∈ (pixelDims B H W C A N wf).sKept := fun h =>
      ((GatherDims.mem_sKept _ _).mp h).2 (show (0 : Fin 4) ∈ ([0] : List (Fin 4)) by decide)
    have hs : (pixelDims B H W C A N wf).start (ix4 b a n c) idx 0 = 0 := by
      unfold GatherDims.start
      rw [dif_neg (show ¬ (0 : Fin 4) ∈ ([1, 2] : List (Fin 4)) by decide)]
    show (pixelDims B H W C A N wf).start (ix4 b a n c) idx 0 + (pixelDims B H W C A N wf).batchCoord (ix4 b a n c) 0
      + (pixelDims B H W C A N wf).offCoord (ix4 b a n c) 0 = b.val
    rw [hs, GatherDims.offCoord_eq_zero _ _ _ hk]
    try simp only [Nat.add_zero, Nat.zero_add]
    unfold GatherDims.batchCoord
    rw [dif_pos (show (0 : Fin 4) ∈ (pixelDims B H W C A N wf).operandBatchingDims from (show (0 : Fin 4) ∈ ([0] : List (Fin 4)) by decide))]
    rfl
  | ⟨1, _⟩ =>
    have hk : ¬ (1 : Fin 4) ∈ (pixelDims B H W C A N wf).sKept := fun h =>
      ((GatherDims.mem_sKept _ _).mp h).1 (show (1 : Fin 4) ∈ ([1, 2] : List (Fin 4)) by decide)
    show (pixelDims B H W C A N wf).start (ix4 b a n c) idx 1 + (pixelDims B H W C A N wf).batchCoord (ix4 b a n c) 1
      + (pixelDims B H W C A N wf).offCoord (ix4 b a n c) 1 = _
    rw [GatherDims.offCoord_eq_zero _ _ _ hk, GatherDims.batchCoord_eq_zero _ _ _ (show ¬ (1 : Fin 4) ∈ ([0] : List (Fin 4)) by decide)]
    try simp only [Nat.add_zero, Nat.zero_add]
    unfold GatherDims.start
    rw [dif_pos (show (1 : Fin 4) ∈ (pixelDims B H W C A N wf).startIndexMap from (show (1 : Fin 4) ∈ ([1, 2] : List (Fin 4)) by decide))]
    have hsi : (pixelDims B H W C A N wf).siIdx (ix4 b a n c) ⟨List.idxOf (1 : Fin 4) (pixelDims B H W C A N wf).startIndexMap,
        List.idxOf_lt_length_iff.2 (show (1 : Fin 4) ∈ ([1, 2] : List (Fin 4)) by decide)⟩ = ix4 b a n (0 : Fin 2) := by
      funext d; refine Fin.ext ?_
      match d with
      | ⟨0, _⟩ => rfl
      | ⟨1, _⟩ => rfl
      | ⟨2, _⟩ => rfl
      | ⟨3, _⟩ => rfl
    rw [hsi]
    rfl
  | ⟨2, _⟩ =>
    have hk : ¬ (2 : Fin 4) ∈ (pixelDims B H W C A N wf).sKept := fun h =>
      ((GatherDims.mem_sKept _ _).mp h).1 (show (2 : Fin 4) ∈ ([1, 2] : List (Fin 4)) by decide)
    show (pixelDims B H W C A N wf).start (ix4 b a n c) idx 2 + (pixelDims B H W C A N wf).batchCoord (ix4 b a n c) 2
      + (pixelDims B H W C A N wf).offCoord (ix4 b a n c) 2 = _
    rw [GatherDims.offCoord_eq_zero _ _ _ hk, GatherDims.batchCoord_eq_zero _ _ _ (show ¬ (2 : Fin 4) ∈ ([0] : List (Fin 4)) by decide)]
    try simp only [Nat.add_zero, Nat.zero_add]
    unfold GatherDims.start
    rw [dif_pos (show (2 : Fin 4) ∈ (pixelDims B H W C A N wf).startIndexMap from (show (2 : Fin 4) ∈ ([1, 2] : List (Fin 4)) by decide))]
    have hsi : (pixelDims B H W C A N wf).siIdx (ix4 b a n c) ⟨List.idxOf (2 : Fin 4) (pixelDims B H W C A N wf).startIndexMap,
        List.idxOf_lt_length_iff.2 (show (2 : Fin 4) ∈ ([1, 2] : List (Fin 4)) by decide)⟩ = ix4 b a n (1 : Fin 2) := by
      funext d; refine Fin.ext ?_
      match d with
      | ⟨0, _⟩ => rfl
      | ⟨1, _⟩ => rfl
      | ⟨2, _⟩ => rfl
      | ⟨3, _⟩ => rfl
    rw [hsi]
    rfl
  | ⟨3, _⟩ =>
    have hk : (3 : Fin 4) ∈ (pixelDims B H W C A N wf).sKept :=
      ((GatherDims.mem_sKept _ _).mpr ⟨(show ¬ (3 : Fin 4) ∈ ([1, 2] : List (Fin 4)) by decide),
        (show ¬ (3 : Fin 4) ∈ ([0] : List (Fin 4)) by decide)⟩)
    have hs : (pixelDims B H W C A N wf).start (ix4 b a n c) idx 3 = 0 := by
      unfold GatherDims.start
      rw [dif_neg (show ¬ (3 : Fin 4) ∈ ([1, 2] : List (Fin 4)) by decide)]
    show (pixelDims B H W C A N wf).start (ix4 b a n c) idx 3 + (pixelDims B H W C A N wf).batchCoord (ix4 b a n c) 3
      + (pixelDims B H W C A N wf).offCoord (ix4 b a n c) 3 = c.val
    rw [hs, GatherDims.batchCoord_eq_zero _ _ _ (show ¬ (3 : Fin 4) ∈ ([0] : List (Fin 4)) by decide)]
    try simp only [Nat.add_zero, Nat.zero_add]
    unfold GatherDims.offCoord
    rw [dif_pos hk]
    rfl

end Pixels

section Columns
variable {B C M E : Nat}

/-- Dimension numbers of (2). -/
abbrev columnDims (B C M E : Nat)
    (wf : GatherDims.WF ⟨3, ![B, C, M]⟩ ⟨3, ![B, E, 1]⟩ ⟨3, ![B, C, E]⟩ [1] [2] [0] [2] [0] 2 ![1, C, 1]) :
    GatherDims ⟨3, ![B, C, M]⟩ ⟨3, ![B, E, 1]⟩ ⟨3, ![B, C, E]⟩ where
  offsetDims := [1]
  collapsedSliceDims := [2]
  operandBatchingDims := [0]
  startIndicesBatchingDims := [0]
  startIndexMap := [2]
  indexVectorDim := 2
  sliceSizes := ![1, C, 1]
  wf := wf

variable (wf : GatherDims.WF ⟨3, ![B, C, M]⟩ ⟨3, ![B, E, 1]⟩ ⟨3, ![B, C, E]⟩ [1] [2] [0] [2] [0] 2 ![1, C, 1])

/-- THE GATHER (2) READ AT (b, c, e). -/
theorem gather_column_apply (hM : 0 < M) (x : (⟨3, ![B, C, M]⟩ : Shape).Idx → α)
    (idx : IVec ⟨3, ![B, E, 1]⟩ w) (b : Fin B) (c : Fin C) (e : Fin E) :
    Host.gather (columnDims B C M E wf) x idx (ix3 b c e)
      = x (ix3 b c ⟨min (idx (ix3 b e (0 : Fin 1))).toInt.toNat (M - 1), by omega⟩) := by
  unfold Host.gather
  congr 1
  funext ax
  refine Fin.ext ?_
  show (columnDims B C M E wf).start (ix3 b c e) idx ax + (columnDims B C M E wf).batchCoord (ix3 b c e) ax
    + (columnDims B C M E wf).offCoord (ix3 b c e) ax = _
  match ax with
  | ⟨0, _⟩ =>
    have hk : ¬ (0 : Fin 3) ∈ (columnDims B C M E wf).sKept := fun h =>
      ((GatherDims.mem_sKept _ _).mp h).2 (show (0 : Fin 3) ∈ ([0] : List (Fin 3)) by decide)
    have hs : (columnDims B C M E wf).start (ix3 b c e) idx 0 = 0 := by
      unfold GatherDims.start
      rw [dif_neg (show ¬ (0 : Fin 3) ∈ ([2] : List (Fin 3)) by decide)]
    show (columnDims B C M E wf).start (ix3 b c e) idx 0 + (columnDims B C M E wf).batchCoord (ix3 b c e) 0
      + (columnDims B C M E wf).offCoord (ix3 b c e) 0 = b.val
    rw [hs, GatherDims.offCoord_eq_zero _ _ _ hk]
    try simp only [Nat.add_zero, Nat.zero_add]
    unfold GatherDims.batchCoord
    rw [dif_pos (show (0 : Fin 3) ∈ (columnDims B C M E wf).operandBatchingDims from (show (0 : Fin 3) ∈ ([0] : List (Fin 3)) by decide))]
    rfl
  | ⟨1, _⟩ =>
    have hk : (1 : Fin 3) ∈ (columnDims B C M E wf).sKept :=
      ((GatherDims.mem_sKept _ _).mpr ⟨(show ¬ (1 : Fin 3) ∈ ([2] : List (Fin 3)) by decide),
        (show ¬ (1 : Fin 3) ∈ ([0] : List (Fin 3)) by decide)⟩)
    have hs : (columnDims B C M E wf).start (ix3 b c e) idx 1 = 0 := by
      unfold GatherDims.start
      rw [dif_neg (show ¬ (1 : Fin 3) ∈ ([2] : List (Fin 3)) by decide)]
    show (columnDims B C M E wf).start (ix3 b c e) idx 1 + (columnDims B C M E wf).batchCoord (ix3 b c e) 1
      + (columnDims B C M E wf).offCoord (ix3 b c e) 1 = c.val
    rw [hs, GatherDims.batchCoord_eq_zero _ _ _ (show ¬ (1 : Fin 3) ∈ ([0] : List (Fin 3)) by decide)]
    try simp only [Nat.add_zero, Nat.zero_add]
    unfold GatherDims.offCoord
    rw [dif_pos hk]
    rfl
  | ⟨2, _⟩ =>
    have hk : ¬ (2 : Fin 3) ∈ (columnDims B C M E wf).sKept := fun h =>
      ((GatherDims.mem_sKept _ _).mp h).1 (show (2 : Fin 3) ∈ ([2] : List (Fin 3)) by decide)
    show (columnDims B C M E wf).start (ix3 b c e) idx 2 + (columnDims B C M E wf).batchCoord (ix3 b c e) 2
      + (columnDims B C M E wf).offCoord (ix3 b c e) 2 = _
    rw [GatherDims.offCoord_eq_zero _ _ _ hk, GatherDims.batchCoord_eq_zero _ _ _ (show ¬ (2 : Fin 3) ∈ ([0] : List (Fin 3)) by decide)]
    try simp only [Nat.add_zero, Nat.zero_add]
    unfold GatherDims.start
    rw [dif_pos (show (2 : Fin 3) ∈ (columnDims B C M E wf).startIndexMap from (show (2 : Fin 3) ∈ ([2] : List (Fin 3)) by decide))]
    have hsi : (columnDims B C M E wf).siIdx (ix3 b c e) ⟨List.idxOf (2 : Fin 3) (columnDims B C M E wf).startIndexMap,
        List.idxOf_lt_length_iff.2 (show (2 : Fin 3) ∈ ([2] : List (Fin 3)) by decide)⟩ = ix3 b e (0 : Fin 1) := by
      funext d; refine Fin.ext ?_
      match d with
      | ⟨0, _⟩ => rfl
      | ⟨1, _⟩ => rfl
      | ⟨2, _⟩ => rfl
    rw [hsi]
    rfl

end Columns

end Cert.LibBatchGather
-- ==== Proof.LibGridIndex.lean ====
/-
  Integer grid coordinates carried by extended reals. A floor (or a floor plus one) is an integer or an infinity;
  clipping such a value into [0, N] leaves one of the integers 0 … N; converting that to a signed 32-bit word, and
  converting a row-major combination row·W + column of two such values, gives the words of those naturals; and the
  usual "add the extent if negative" normalisation of such a word, read back signed and clamped into the axis, is the
  natural itself. General: nothing here mentions a program.
-/
import Idealize.ShloMosaic.PureOps.Ideal
import Idealize.ShloMosaic.Lib.ValueIdx

noncomputable section

namespace Cert.LibGridIndex

open Idealize.ShloMosaic

/-- An extended real that is an integer or one of the two infinities. -/
def Integral (x : EReal) : Prop := x = ⊤ ∨ x = ⊥ ∨ ∃ z : ℤ, x = ((z : ℝ) : EReal)

/-- The floor of an extended real (infinities fixed) is integral. -/
theorem integral_floor (x : EReal) : Integral (Ideal.liftRound Int.floor x) := by
  induction x using EReal.rec with
  | bot => exact Or.inr (Or.inl rfl)
  | top => exact Or.inl rfl
  | coe r => exact Or.inr (Or.inr ⟨⌊r⌋, rfl⟩)

/-- Adding one keeps a value integral. -/
theorem integral_add_one {x : EReal} (h : Integral x) : Integral (x + ((1 : ℝ) : EReal)) := by
  rcases h with rfl | rfl | ⟨z, rfl⟩
  · exact Or.inl (EReal.top_add_coe 1)
  · exact Or.inr (Or.inl (EReal.bot_add _))
  · refine Or.inr (Or.inr ⟨z + 1, ?_⟩)
    rw [← EReal.coe_add]; push_cast; rfl

/-- Clipping an integral value into [0, N] leaves one of the naturals 0 … N. -/
theorem clip_integral {x : EReal} (h : Integral x) (N : ℕ) :
    ∃ i : ℕ, i ≤ N ∧ min ((N : ℝ) : EReal) (max ((0 : ℝ) : EReal) x) = ((i : ℝ) : EReal) := by
  have hN0 : ((0 : ℝ) : EReal) ≤ ((N : ℝ) : EReal) := by exact_mod_cast Nat.cast_nonneg N
  rcases h with rfl | rfl | ⟨z, rfl⟩
  · exact ⟨N, le_rfl, by rw [max_eq_right le_top, min_eq_left le_top]⟩
  · exact ⟨0, Nat.zero_le _, by rw [max_eq_left bot_le, min_eq_right hN0]; simp⟩
  · by_cases hz : z ≤ 0
    · refine ⟨0, Nat.zero_le _, ?_⟩
      have : ((z : ℝ) : EReal) ≤ ((0 : ℝ) : EReal) := by exact_mod_cast hz
      rw [max_eq_left this, min_eq_right hN0]; simp
    · have hz0 : ((0 : ℝ) : EReal) ≤ ((z : ℝ) : EReal) := by
        have : (0 : ℤ) ≤ z := by omega
        exact_mod_cast this
      by_cases hN : (N : ℤ) ≤ z
      · refine ⟨N, le_rfl, ?_⟩
        have : ((N : ℝ) : EReal) ≤ ((z : ℝ) : EReal) := by exact_mod_cast hN
        rw [max_eq_right hz0, min_eq_left this]
      · refine ⟨z.toNat, by omega, ?_⟩
        have hzN : ((z : ℝ) : EReal) ≤ ((N : ℝ) : EReal) := by
          have : z ≤ (N : ℤ) := by omega
          exact_mod_cast this
        rw [max_eq_right hz0, min_eq_right hzN]
        have hc : ((z.toNat : ℤ)) = z := Int.toNat_of_nonneg (by omega)
        have : ((z.toNat : ℕ) : ℝ) = (z : ℝ) := by exact_mod_cast hc
        rw [this]

/-- The signed 32-bit word of a natural below 2³¹, read back signed, is that natural. -/
theorem toInt_ofNat_small (i : ℕ) (h : i < 2 ^ 31) : (BitVec.ofNat 32 i).toInt = (i : ℤ) := by
  rw [BitVec.toInt_eq_toNat_cond, BitVec.toNat_ofNat]
  have : i % 2 ^ 32 = i := Nat.mod_eq_of_lt (by omega)
  rw [this]
  split
  · rfl
  · omega

/-- Converting a natural below 2³¹ to a signed 32-bit integer gives its word. -/
theorem fptosi_nat (i : ℕ) (h : i < 2 ^ 31) : Ideal.fptosi 32 ((i : ℝ) : EReal) = BitVec.ofNat 32 i := by
  unfold Ideal.fptosi
  rw [Ideal.toIntClamped_coe, if_pos (Nat.cast_nonneg i), Int.floor_natCast]
  have h1 : min (((2 ^ (32 - 1) : ℕ) : ℤ) - 1) (i : ℤ) = (i : ℤ) := by
    apply min_eq_right; push_cast; omega
  have h2 : max (-((2 ^ (32 - 1) : ℕ) : ℤ)) (i : ℤ) = (i : ℤ) := by
    apply max_eq_right; push_cast; omega
  rw [h1, h2]
  exact BitVec.ofInt_natCast 32 i

/-- Normalising a nonnegative index word ("add the extent if it is negative") leaves it, and read back signed and
    clamped into an axis that holds it, it is the natural it came from. -/
theorem wrap_word (i : ℕ) (h : i < 2 ^ 31) (K : BitVec 32) (M : ℕ) (hM : i ≤ M) :
    min (Scalar.select (IntOp.cmpi .slt (BitVec.ofNat 32 i) 0#32) (IntOp.addi (BitVec.ofNat 32 i) K)
      (BitVec.ofNat 32 i)).toInt.toNat M = i := by
  have hs : IntOp.cmpi .slt (BitVec.ofNat 32 i) 0#32 = 0#1 := by
    unfold IntOp.cmpi
    have : (BitVec.ofNat 32 i).slt 0#32 = false := by
      rw [BitVec.slt, toInt_ofNat_small i h]
      simp
    simp only [this]; rfl
  rw [hs, ValueIdx.select_zero, toInt_ofNat_small i h]
  simp only [Int.toNat_natCast]
  exact min_eq_left hM

/-! ## Row and column against the row-major position -/

/-- The clip of the printed programs: the lower bound is the float of the integer word 0, the upper bound that of 127. -/
def clip127 (z : EReal) : EReal :=
  min ((((127#32 : BitVec 32).toInt : ℝ)) : EReal) (max ((((0#32 : BitVec 32).toInt : ℝ)) : EReal) z)

/-- The normalisation of an index word: the extent added when the word is negative. -/
def wrapWord (K v : BitVec 32) : BitVec 32 := Scalar.select (IntOp.cmpi .slt v 0#32) (IntOp.addi v K) v

/-- An integral value clipped is one of the naturals 0 … 127. -/
theorem clip127_integral {z : EReal} (h : Integral z) : ∃ i : ℕ, i ≤ 127 ∧ clip127 z = ((i : ℝ) : EReal) := by
  have h0 : (((0#32 : BitVec 32).toInt : ℝ)) = (0 : ℝ) := by norm_num
  have h1 : (((127#32 : BitVec 32).toInt : ℝ)) = ((127 : ℕ) : ℝ) := by
    have : (127#32 : BitVec 32).toInt = 127 := by decide
    rw [this]; norm_num
  unfold clip127
  rw [h0, h1]
  exact clip_integral h 127

/-- The index a row or column coordinate selects, from the clipped float: the natural itself. -/
theorem axis_index {z : EReal} {i : ℕ} (hi : i ≤ 127) (hz : clip127 z = ((i : ℝ) : EReal)) (K : BitVec 32) :
    min (wrapWord K (Ideal.fptosi 32 (clip127 z))).toInt.toNat 127 = i := by
  rw [hz, fptosi_nat i (by omega)]
  exact wrap_word i (by omega) K 127 hi

/-- The index the row-major position `row·128 + column` selects, from the two clipped floats. -/
theorem flat_index {w u c128 : EReal} {i j : ℕ} (hi : i ≤ 127) (hj : j ≤ 127) (hw : clip127 w = ((i : ℝ) : EReal))
    (hu : clip127 u = ((j : ℝ) : EReal)) (hc : c128 = ((128 : ℝ) : EReal)) (K : BitVec 32) :
    min (wrapWord K (Ideal.fptosi 32 (clip127 w * c128 + clip127 u))).toInt.toNat 16383 = i * 128 + j := by
  rw [hw, hu, hc]
  have e : ((i : ℝ) : EReal) * ((128 : ℝ) : EReal) + ((j : ℝ) : EReal) = (((i * 128 + j : ℕ) : ℝ) : EReal) := by
    rw [← EReal.coe_mul, ← EReal.coe_add]; push_cast; rfl
  rw [e, fptosi_nat (i * 128 + j) (by omega)]
  exact wrap_word (i * 128 + j) (by omega) K 16383 (by omega)

end Cert.LibGridIndex

end
-- ==== Proof.KernelSample.lean ====
/-
  The host side of the kernel's program, from the floor arrays on, as whole-array functions, and what they hold at an
  index. A corner of the bilinear sample takes the stacked image `T` (channel last), the clipped column and row floats
  and the corner's validity mask: it converts the two floats to index words, normalises them, pairs them (row, column),
  gathers the 512 channels of that pixel and multiplies by the mask as a float. At (b, a, n, ch) a corner holds the
  image b at (row, column, ch) — row and column read off the two words, clamped into the 128 × 128 image — times the
  mask's bit.
-/
import proofs.«100191_j53017076302568_2_alg».proof.Proof.Gen.KernelIdeal
import proofs.«100191_j53017076302568_2_alg».proof.Proof.LibBatchGather
import proofs.«100191_j53017076302568_2_alg».proof.Proof.LibGridIndex
import Idealize.ShloMosaic.Lib.ValueIdx
import Idealize.ShloMosaic.Lib.ValueLayout
import Idealize.ShloMosaic.Lib.Pipeline.Value

noncomputable section

namespace Cert.KernelIdeal.Sample

open Cert.KernelIdeal Cert.KernelIdeal.Gen Idealize.ShloMosaic Idealize.ShloMosaic.ValueIdx
open Cert.LibGridIndex Cert.LibBatchGather

/-- The clip of a float array into [0, 127], bounds converted from integer words. -/
def clipA (U : FVec Ideal S4x5x4096 .f32) : FVec Ideal S4x5x4096 .f32 :=
  minimumf (broadcastInDim S4x5x4096 ![] bcast_S_S4x5x4096 (sitofp .f32 (constantI S_ 32 127#32)))
    (maximumf (broadcastInDim S4x5x4096 ![] bcast_S_S4x5x4096 (sitofp .f32 (constantI S_ 32 0#32))) U)

theorem clipA_apply (U : FVec Ideal S4x5x4096 .f32) (i : S4x5x4096.Idx) : clipA U i = clip127 (U i) := rfl

/-- Index words normalised: 128 added where negative. -/
def wrapA (v : IVec S4x5x4096 32) : IVec S4x5x4096 32 :=
  select (cmpi .slt v (broadcastInDim S4x5x4096 ![] bcast_S_S4x5x4096 (constantI S_ 32 0#32)))
    (addi v (broadcastInDim S4x5x4096 ![] bcast_S_S4x5x4096 (constantI S_ 32 128#32))) v

theorem wrapA_apply (v : IVec S4x5x4096 32) (i : S4x5x4096.Idx) : wrapA v i = wrapWord 128#32 (v i) := rfl

/-- The (row, column) pairs laid out [4, 5, 4096, 2]. -/
def pairA (r c : IVec S4x5x4096 32) : IVec S4x5x4096x2 32 :=
  concatenate S4x5x4096x2 3 [⟨S4x5x4096x1, broadcastInDim S4x5x4096x1 ![0, 1, 2] bcast_S4x5x4096_S4x5x4096x1_0_1_2 r⟩,
    ⟨S4x5x4096x1, broadcastInDim S4x5x4096x1 ![0, 1, 2] bcast_S4x5x4096_S4x5x4096x1_0_1_2 c⟩]
    concatenates_S4x5x4096x1_S4x5x4096x1_S4x5x4096x2_d3

theorem unitCol_apply {α : Type} (r : S4x5x4096.Idx → α) (b : Fin 4) (a : Fin 5) (n : Fin 4096) (z : Fin 1) :
    broadcastInDim S4x5x4096x1 ![0, 1, 2] bcast_S4x5x4096_S4x5x4096x1_0_1_2 r (ix4 b a n z) = r (ix3 b a n) :=
  broadcastInDim_apply _ _ r _ _ (fun ax => by
    match ax with
    | ⟨0, _⟩ => rfl
    | ⟨1, _⟩ => rfl
    | ⟨2, _⟩ => rfl)

theorem pairA_row (r c : IVec S4x5x4096 32) (b : Fin 4) (a : Fin 5) (n : Fin 4096) :
    pairA r c (ix4 b a n (0 : Fin 2)) = r (ix3 b a n) := by
  unfold pairA
  refine (concatenate_pair_apply_left (t := S4x5x4096x2) (s₁ := S4x5x4096x1) (s₂ := S4x5x4096x1) (3 : Fin 4) _ _ _ (ix4 b a n (0 : Fin 2)) rfl
    (ix4 b a n (0 : Fin 1) : S4x5x4096x1.Idx) (fun ax => ?_)).trans
    (unitCol_apply r b a n 0)
  match ax with
  | ⟨0, _⟩ => rfl
  | ⟨1, _⟩ => rfl
  | ⟨2, _⟩ => rfl
  | ⟨3, _⟩ => rfl

theorem pairA_col (r c : IVec S4x5x4096 32) (b : Fin 4) (a : Fin 5) (n : Fin 4096) :
    pairA r c (ix4 b a n (1 : Fin 2)) = c (ix3 b a n) := by
  unfold pairA
  refine (concatenate_pair_apply_right (t := S4x5x4096x2) (s₁ := S4x5x4096x1) (s₂ := S4x5x4096x1) (3 : Fin 4) _ _ _ (ix4 b a n (1 : Fin 2)) rfl rfl
    (ix4 b a n (0 : Fin 1) : S4x5x4096x1.Idx) (fun ax hne => ?_) rfl).trans
    (unitCol_apply c b a n 0)
  match ax with
  | ⟨0, _⟩ => rfl
  | ⟨1, _⟩ => rfl
  | ⟨2, _⟩ => rfl
  | ⟨3, _⟩ => exact absurd rfl hne

/-- One corner of the bilinear sample. -/
def cornerA (T : FVec Ideal S4x128x128x512 .f32) (cu cw : FVec Ideal S4x5x4096 .f32) (mask : IVec S4x5x4096 1) :
    FVec Ideal S4x5x4096x512 .f32 :=
  mulf (Host.gather gather_S4x128x128x512_S4x5x4096x2_S4x5x4096x512_3_12_0_0_12_3_111512 T
      (pairA (wrapA (fptosi 32 cw)) (wrapA (fptosi 32 cu))))
    (broadcastInDim S4x5x4096x512 ![0, 1, 2, 3] bcast_S4x5x4096x1_S4x5x4096x512_0_1_2_3
      (uitofp .f32 (broadcastInDim S4x5x4096x1 ![0, 1, 2] bcast_S4x5x4096_S4x5x4096x1_0_1_2 mask)))

/-- A [4,5,4096,1] array broadcast along 512 channels. -/
theorem chan_apply {α : Type} (v : S4x5x4096x1.Idx → α) (b : Fin 4) (a : Fin 5) (n : Fin 4096) (ch : Fin 512) :
    broadcastInDim S4x5x4096x512 ![0, 1, 2, 3] bcast_S4x5x4096x1_S4x5x4096x512_0_1_2_3 v (ix4 b a n ch) = v (ix4 b a n (0 : Fin 1)) :=
  broadcastInDim_apply _ _ v _ _ (fun ax => by
    match ax with
    | ⟨0, _⟩ => rfl
    | ⟨1, _⟩ => rfl
    | ⟨2, _⟩ => rfl
    | ⟨3, _⟩ => rfl)

/-- THE CORNER AT (b, a, n, ch). -/
theorem cornerA_apply (T : FVec Ideal S4x128x128x512 .f32) (cu cw : FVec Ideal S4x5x4096 .f32) (mask : IVec S4x5x4096 1)
    (b : Fin 4) (a : Fin 5) (n : Fin 4096) (ch : Fin 512) :
    cornerA T cu cw mask (ix4 b a n ch)
      = T (ix4 b ⟨min (wrapWord 128#32 (Ideal.fptosi 32 (cw (ix3 b a n)))).toInt.toNat 127, by omega⟩
            ⟨min (wrapWord 128#32 (Ideal.fptosi 32 (cu (ix3 b a n)))).toInt.toNat 127, by omega⟩ ch)
          * FloatOps.uitofp (F := Ideal) .f32 (mask (ix3 b a n)) := by
  unfold cornerA
  show Host.gather gather_S4x128x128x512_S4x5x4096x2_S4x5x4096x512_3_12_0_0_12_3_111512 T
      (pairA (wrapA (fptosi 32 cw)) (wrapA (fptosi 32 cu))) (ix4 b a n ch)
    * broadcastInDim S4x5x4096x512 ![0, 1, 2, 3] bcast_S4x5x4096x1_S4x5x4096x512_0_1_2_3
      (uitofp .f32 (broadcastInDim S4x5x4096x1 ![0, 1, 2] bcast_S4x5x4096_S4x5x4096x1_0_1_2 mask)) (ix4 b a n ch) = _
  rw [chan_apply]
  show _ * FloatOps.uitofp (F := Ideal) .f32 (broadcastInDim S4x5x4096x1 ![0, 1, 2] bcast_S4x5x4096_S4x5x4096x1_0_1_2 mask (ix4 b a n (0 : Fin 1))) = _
  rw [unitCol_apply]
  refine congrArg (· * _) ?_
  have hg := gather_pixel_apply (B := 4) (H := 128) (W := 128) (C := 512) (A := 5) (N := 4096)
    gather_S4x128x128x512_S4x5x4096x2_S4x5x4096x512_3_12_0_0_12_3_111512_wf (by omega) (by omega) T
    (pairA (wrapA (fptosi 32 cw)) (wrapA (fptosi 32 cu))) b a n ch
  simp only [pairA_row, pairA_col] at hg
  exact hg

/-! ## The four corners combined -/

/-- A corner's validity mask: both floats inside [0, 127]. -/
def maskA (U Wd : FVec Ideal S4x5x4096 .f32) : IVec S4x5x4096 1 :=
  andi (andi (andi (cmpf .oge U (broadcastInDim S4x5x4096 ![] bcast_S_S4x5x4096 (constant S_ .f32 0x00000000#32)))
        (cmpf .ole U (broadcastInDim S4x5x4096 ![] bcast_S_S4x5x4096 (constant S_ .f32 0x42FE0000#32))))
      (cmpf .oge Wd (broadcastInDim S4x5x4096 ![] bcast_S_S4x5x4096 (constant S_ .f32 0x00000000#32))))
    (cmpf .ole Wd (broadcastInDim S4x5x4096 ![] bcast_S_S4x5x4096 (constant S_ .f32 0x42FE0000#32)))

/-- The next pixel along an axis: one added. -/
def plusOne (U : FVec Ideal S4x5x4096 .f32) : FVec Ideal S4x5x4096 .f32 :=
  addf U (broadcastInDim S4x5x4096 ![] bcast_S_S4x5x4096 (constant S_ .f32 0x3F800000#32))

theorem plusOne_apply (U : FVec Ideal S4x5x4096 .f32) (i : S4x5x4096.Idx) :
    plusOne U i = U i + Ideal.ofBits .f32 0x3F800000#32 := rfl

/-- A [4,5,4096] weight broadcast along the 512 channels. -/
def weightA (w : FVec Ideal S4x5x4096 .f32) : FVec Ideal S4x5x4096x512 .f32 :=
  broadcastInDim S4x5x4096x512 ![0, 1, 2, 3] bcast_S4x5x4096x1_S4x5x4096x512_0_1_2_3
    (broadcastInDim S4x5x4096x1 ![0, 1, 2] bcast_S4x5x4096_S4x5x4096x1_0_1_2 w)

theorem weightA_apply (w : FVec Ideal S4x5x4096 .f32) (b : Fin 4) (a : Fin 5) (n : Fin 4096) (ch : Fin 512) :
    weightA w (ix4 b a n ch) = w (ix3 b a n) :=
  (chan_apply _ b a n ch).trans (unitCol_apply w b a n 0)

/-- One corner from the unclipped column and row floats. -/
def sampleA (T : FVec Ideal S4x128x128x512 .f32) (u w : FVec Ideal S4x5x4096 .f32) : FVec Ideal S4x5x4096x512 .f32 :=
  cornerA T (clipA u) (clipA w) (maskA u w)

/-- The bilinear sample: the four corners around (x, y) weighted by the fractional parts. -/
def combineA (T : FVec Ideal S4x128x128x512 .f32) (x0 y0 wx1 wy1 wx0 wy0 : FVec Ideal S4x5x4096 .f32) :
    FVec Ideal S4x5x4096x512 .f32 :=
  addf (addf (addf (mulf (sampleA T x0 y0) (weightA (mulf wx0 wy0))) (mulf (sampleA T (plusOne x0) y0) (weightA (mulf wx1 wy0))))
      (mulf (sampleA T x0 (plusOne y0)) (weightA (mulf wx0 wy1))))
    (mulf (sampleA T (plusOne x0) (plusOne y0)) (weightA (mulf wx1 wy1)))

theorem combineA_apply (T : FVec Ideal S4x128x128x512 .f32) (x0 y0 wx1 wy1 wx0 wy0 : FVec Ideal S4x5x4096 .f32)
    (b : Fin 4) (a : Fin 5) (n : Fin 4096) (ch : Fin 512) :
    combineA T x0 y0 wx1 wy1 wx0 wy0 (ix4 b a n ch)
      = ((sampleA T x0 y0 (ix4 b a n ch) * (wx0 (ix3 b a n) * wy0 (ix3 b a n))
          + sampleA T (plusOne x0) y0 (ix4 b a n ch) * (wx1 (ix3 b a n) * wy0 (ix3 b a n)))
          + sampleA T x0 (plusOne y0) (ix4 b a n ch) * (wx0 (ix3 b a n) * wy1 (ix3 b a n)))
        + sampleA T (plusOne x0) (plusOne y0) (ix4 b a n ch) * (wx1 (ix3 b a n) * wy1 (ix3 b a n)) := by
  unfold combineA
  simp only [ValueIdx.addf_apply, ValueIdx.mulf_apply, weightA_apply]

end Cert.KernelIdeal.Sample

end
-- ==== Proof.RefSample.lean ====
/-
  The reference's host side from the floor arrays on, as whole-array functions, and what they hold at an index. A corner
  of its bilinear sample takes one image flattened to [4, 256, 16384], the clipped column and row floats and the
  corner's validity mask: it forms the row-major position row·128 + column as a float, converts it to an index word,
  lays the words out [4, 20480], normalises them, gathers the 256 channels at that position and multiplies by the mask
  as a float. At (b, c, a, n) a corner holds the image b, channel c, at the position read off the word of (a, n) —
  clamped into the 16384 positions — times the mask's bit.
-/
import proofs.«100191_j53017076302568_2_alg».proof.Proof.Gen.ReferenceIdeal
import proofs.«100191_j53017076302568_2_alg».proof.Proof.LibBatchGather
import proofs.«100191_j53017076302568_2_alg».proof.Proof.LibGridIndex
import Idealize.ShloMosaic.Lib.ValueIdx
import Idealize.ShloMosaic.Lib.ValueLayout
import Idealize.ShloMosaic.Lib.Pipeline.Value

noncomputable section

namespace Cert.ReferenceIdeal.Sample

open Cert.ReferenceIdeal Cert.ReferenceIdeal.Gen Idealize.ShloMosaic Idealize.ShloMosaic.ValueIdx
open Cert.LibGridIndex Cert.LibBatchGather

/-- The clip of a float array into [0, 127], bounds converted from integer words. -/
def clipA (U : FVec Ideal S4x5x4096 .f32) : FVec Ideal S4x5x4096 .f32 :=
  minimumf (broadcastInDim S4x5x4096 ![] bcast_S_S4x5x4096 (sitofp .f32 (constantI S_ 32 127#32)))
    (maximumf (broadcastInDim S4x5x4096 ![] bcast_S_S4x5x4096 (sitofp .f32 (constantI S_ 32 0#32))) U)

theorem clipA_apply (U : FVec Ideal S4x5x4096 .f32) (i : S4x5x4096.Idx) : clipA U i = clip127 (U i) := rfl

/-- The row-major position row·128 + column as index words, laid out [4, 20480]. -/
def flatWords (cw cu : FVec Ideal S4x5x4096 .f32) : IVec S4x20480 32 :=
  shapeCast S4x20480 (fptosi 32 (addf (mulf cw (broadcastInDim S4x5x4096 ![] bcast_S_S4x5x4096 (constant S_ .f32 0x43000000#32))) cu))
    shapeCasts_S4x5x4096_S4x20480

/-- Normalised (16384 added where negative) and given a unit last axis. -/
def flatIdx (cw cu : FVec Ideal S4x5x4096 .f32) : IVec S4x20480x1 32 :=
  broadcastInDim S4x20480x1 ![0, 1] bcast_S4x20480_S4x20480x1_0_1
    (select (cmpi .slt (flatWords cw cu) (broadcastInDim S4x20480 ![] bcast_S_S4x20480 (constantI S_ 32 0#32)))
      (addi (flatWords cw cu) (broadcastInDim S4x20480 ![] bcast_S_S4x20480 (constantI S_ 32 16384#32))) (flatWords cw cu))

/-- Position (a, n) of the [5, 4096] grid in the flattened [20480] axis. -/
def pos (a : Fin 5) (n : Fin 4096) : Fin 20480 := ⟨a.val * 4096 + n.val, by omega⟩

theorem flatWords_apply (cw cu : FVec Ideal S4x5x4096 .f32) (b : Fin 4) (a : Fin 5) (n : Fin 4096) :
    flatWords cw cu (ix2 b (pos a n))
      = Ideal.fptosi 32 (cw (ix3 b a n) * Ideal.ofBits .f32 0x43000000#32 + cu (ix3 b a n)) := by
  unfold flatWords
  refine (shapeCast_apply _ _ (ix2 b (pos a n)) (ix3 b a n) ?_).trans rfl
  rw [Shape.rowMajor_val_three, Shape.rowMajor_val_two]
  show (b.val * 5 + a.val) * 4096 + n.val = b.val * 20480 + (a.val * 4096 + n.val)
  omega

theorem flatIdx_apply (cw cu : FVec Ideal S4x5x4096 .f32) (b : Fin 4) (a : Fin 5) (n : Fin 4096) :
    flatIdx cw cu (ix3 b (pos a n) (0 : Fin 1))
      = wrapWord 16384#32 (Ideal.fptosi 32 (cw (ix3 b a n) * Ideal.ofBits .f32 0x43000000#32 + cu (ix3 b a n))) := by
  unfold flatIdx
  refine (broadcastInDim_apply _ _ _ (ix3 b (pos a n) (0 : Fin 1)) (ix2 b (pos a n)) (fun ax => ?_)).trans ?_
  · match ax with
    | ⟨0, _⟩ => rfl
    | ⟨1, _⟩ => rfl
  · show wrapWord 16384#32 (flatWords cw cu (ix2 b (pos a n))) = _
    rw [flatWords_apply]

/-- One corner of the bilinear sample of one image. -/
def cornerA (IMG : FVec Ideal S4x256x16384 .f32) (cu cw : FVec Ideal S4x5x4096 .f32) (mask : IVec S4x5x4096 1) :
    FVec Ideal S4x256x5x4096 .f32 :=
  mulf (shapeCast S4x256x5x4096 (Host.gather gather_S4x256x16384_S4x20480x1_S4x256x20480_1_2_0_0_2_2_12561 IMG (flatIdx cw cu))
      shapeCasts_S4x256x20480_S4x256x5x4096)
    (broadcastInDim S4x256x5x4096 ![0, 1, 2, 3] bcast_S4x1x5x4096_S4x256x5x4096_0_1_2_3
      (uitofp .f32 (broadcastInDim S4x1x5x4096 ![0, 2, 3] bcast_S4x5x4096_S4x1x5x4096_0_2_3 mask)))

/-- A [4,5,4096] array given a unit channel axis and broadcast along 256 channels. -/
theorem chan_apply {α : Type} (v : S4x1x5x4096.Idx → α) (b : Fin 4) (c : Fin 256) (a : Fin 5) (n : Fin 4096) :
    broadcastInDim S4x256x5x4096 ![0, 1, 2, 3] bcast_S4x1x5x4096_S4x256x5x4096_0_1_2_3 v (ix4 b c a n) = v (ix4 b (0 : Fin 1) a n) :=
  broadcastInDim_apply _ _ v _ _ (fun ax => by
    match ax with
    | ⟨0, _⟩ => rfl
    | ⟨1, _⟩ => rfl
    | ⟨2, _⟩ => rfl
    | ⟨3, _⟩ => rfl)

theorem unitChan_apply {α : Type} (r : S4x5x4096.Idx → α) (b : Fin 4) (z : Fin 1) (a : Fin 5) (n : Fin 4096) :
    broadcastInDim S4x1x5x4096 ![0, 2, 3] bcast_S4x5x4096_S4x1x5x4096_0_2_3 r (ix4 b z a n) = r (ix3 b a n) :=
  broadcastInDim_apply _ _ r _ _ (fun ax => by
    match ax with
    | ⟨0, _⟩ => rfl
    | ⟨1, _⟩ => rfl
    | ⟨2, _⟩ => rfl)

/-- THE CORNER AT (b, c, a, n). -/
theorem cornerA_apply (IMG : FVec Ideal S4x256x16384 .f32) (cu cw : FVec Ideal S4x5x4096 .f32) (mask : IVec S4x5x4096 1)
    (b : Fin 4) (c : Fin 256) (a : Fin 5) (n : Fin 4096) :
    cornerA IMG cu cw mask (ix4 b c a n)
      = IMG (ix3 b c ⟨min (wrapWord 16384#32 (Ideal.fptosi 32 (cw (ix3 b a n) * Ideal.ofBits .f32 0x43000000#32 + cu (ix3 b a n)))).toInt.toNat 16383,
            by omega⟩)
          * FloatOps.uitofp (F := Ideal) .f32 (mask (ix3 b a n)) := by
  unfold cornerA
  show shapeCast S4x256x5x4096 (Host.gather gather_S4x256x16384_S4x20480x1_S4x256x20480_1_2_0_0_2_2_12561 IMG (flatIdx cw cu))
      shapeCasts_S4x256x20480_S4x256x5x4096 (ix4 b c a n)
    * broadcastInDim S4x256x5x4096 ![0, 1, 2, 3] bcast_S4x1x5x4096_S4x256x5x4096_0_1_2_3
      (uitofp .f32 (broadcastInDim S4x1x5x4096 ![0, 2, 3] bcast_S4x5x4096_S4x1x5x4096_0_2_3 mask)) (ix4 b c a n) = _
  rw [chan_apply]
  show _ * FloatOps.uitofp (F := Ideal) .f32 (broadcastInDim S4x1x5x4096 ![0, 2, 3] bcast_S4x5x4096_S4x1x5x4096_0_2_3 mask (ix4 b (0 : Fin 1) a n)) = _
  rw [unitChan_apply]
  refine congrArg (· * _) ?_
  refine (shapeCast_apply _ _ (ix4 b c a n) (ix3 b c (pos a n)) ?_).trans ?_
  · rw [Shape.rowMajor_val_three, Shape.rowMajor_val_four]
    show (b.val * 256 + c.val) * 20480 + (a.val * 4096 + n.val) = ((b.val * 256 + c.val) * 5 + a.val) * 4096 + n.val
    omega
  · have hg := gather_column_apply (B := 4) (C := 256) (M := 16384) (E := 20480)
      gather_S4x256x16384_S4x20480x1_S4x256x20480_1_2_0_0_2_2_12561_wf (by omega) IMG (flatIdx cw cu) b c (pos a n)
    simp only [flatIdx_apply] at hg
    exact hg

/-! ## The four corners combined -/

/-- A corner's validity mask: both floats inside [0, 127]. -/
def maskA (U Wd : FVec Ideal S4x5x4096 .f32) : IVec S4x5x4096 1 :=
  andi (andi (andi (cmpf .oge U (broadcastInDim S4x5x4096 ![] bcast_S_S4x5x4096 (constant S_ .f32 0x00000000#32)))
        (cmpf .ole U (broadcastInDim S4x5x4096 ![] bcast_S_S4x5x4096 (constant S_ .f32 0x42FE0000#32))))
      (cmpf .oge Wd (broadcastInDim S4x5x4096 ![] bcast_S_S4x5x4096 (constant S_ .f32 0x00000000#32))))
    (cmpf .ole Wd (broadcastInDim S4x5x4096 ![] bcast_S_S4x5x4096 (constant S_ .f32 0x42FE0000#32)))

/-- The next pixel along an axis: one added. -/
def plusOne (U : FVec Ideal S4x5x4096 .f32) : FVec Ideal S4x5x4096 .f32 :=
  addf U (broadcastInDim S4x5x4096 ![] bcast_S_S4x5x4096 (constant S_ .f32 0x3F800000#32))

/-- A [4,5,4096] weight given a unit channel axis and broadcast along the 256 channels. -/
def weightA (w : FVec Ideal S4x5x4096 .f32) : FVec Ideal S4x256x5x4096 .f32 :=
  broadcastInDim S4x256x5x4096 ![0, 1, 2, 3] bcast_S4x1x5x4096_S4x256x5x4096_0_1_2_3
    (broadcastInDim S4x1x5x4096 ![0, 2, 3] bcast_S4x5x4096_S4x1x5x4096_0_2_3 w)

theorem weightA_apply (w : FVec Ideal S4x5x4096 .f32) (b : Fin 4) (c : Fin 256) (a : Fin 5) (n : Fin 4096) :
    weightA w (ix4 b c a n) = w (ix3 b a n) :=
  (chan_apply _ b c a n).trans (unitChan_apply w b 0 a n)

/-- One corner from the unclipped column and row floats. -/
def sampleA (IMG : FVec Ideal S4x256x16384 .f32) (u w : FVec Ideal S4x5x4096 .f32) : FVec Ideal S4x256x5x4096 .f32 :=
  cornerA IMG (clipA u) (clipA w) (maskA u w)

/-- The bilinear sample of one image: the four corners around (x, y) weighted by the fractional parts. -/
def combineA (IMG : FVec Ideal S4x256x16384 .f32) (x0 y0 wx1 wy1 wx0 wy0 : FVec Ideal S4x5x4096 .f32) :
    FVec Ideal S4x256x5x4096 .f32 :=
  addf (addf (addf (mulf (sampleA IMG x0 y0) (weightA (mulf wx0 wy0))) (mulf (sampleA IMG (plusOne x0) y0) (weightA (mulf wx1 wy0))))
      (mulf (sampleA IMG x0 (plusOne y0)) (weightA (mulf wx0 wy1))))
    (mulf (sampleA IMG (plusOne x0) (plusOne y0)) (weightA (mulf wx1 wy1)))

theorem combineA_apply (IMG : FVec Ideal S4x256x16384 .f32) (x0 y0 wx1 wy1 wx0 wy0 : FVec Ideal S4x5x4096 .f32)
    (b : Fin 4) (c : Fin 256) (a : Fin 5) (n : Fin 4096) :
    combineA IMG x0 y0 wx1 wy1 wx0 wy0 (ix4 b c a n)
      = ((sampleA IMG x0 y0 (ix4 b c a n) * (wx0 (ix3 b a n) * wy0 (ix3 b a n))
          + sampleA IMG (plusOne x0) y0 (ix4 b c a n) * (wx1 (ix3 b a n) * wy0 (ix3 b a n)))
          + sampleA IMG x0 (plusOne y0) (ix4 b c a n) * (wx0 (ix3 b a n) * wy1 (ix3 b a n)))
        + sampleA IMG (plusOne x0) (plusOne y0) (ix4 b c a n) * (wx1 (ix3 b a n) * wy1 (ix3 b a n)) := by
  unfold combineA
  simp only [ValueIdx.addf_apply, ValueIdx.mulf_apply, weightA_apply]

end Cert.ReferenceIdeal.Sample

end
-- ==== Proof.CornerBridge.lean ====
/-
  One corner of the bilinear sample, the kernel program's spelling against the reference's. The kernel program samples a
  channel-last stack of both images — the features' 256 channels, then the embeddings' 256 — at (row, column) pairs; the
  reference samples each image, flattened over its 128 × 128 pixels, at the row-major position row·128 + column. Where the
  row and column floats are integral (a floor, or a floor plus one) the clipped values are naturals 0 … 127, the index
  words are those naturals, no normalisation or clamping moves them, and the position is row·128 + column exactly: the two
  corners hold the same pixel, channel by channel, times the same mask bit.
-/
import proofs.«100191_j53017076302568_2_alg».proof.Proof.KernelSample
import proofs.«100191_j53017076302568_2_alg».proof.Proof.RefSample

noncomputable section

namespace Cert.CornerBridge

open Idealize.ShloMosaic Idealize.ShloMosaic.ValueIdx Cert.LibGridIndex

/-- The kernel program's image: both images stacked along the channels, then channel last. -/
def imgK (x1 pe : FVec Ideal Cert.KernelIdeal.S4x256x128x128 .f32) : FVec Ideal Cert.KernelIdeal.S4x128x128x512 .f32 :=
  transpose Cert.KernelIdeal.S4x128x128x512 [0, 2, 3, 1]
    (concatenate Cert.KernelIdeal.S4x512x128x128 1 [⟨Cert.KernelIdeal.S4x256x128x128, x1⟩, ⟨Cert.KernelIdeal.S4x256x128x128, pe⟩]
      Cert.KernelIdeal.Gen.concatenates_S4x256x128x128_S4x256x128x128_S4x512x128x128_d1)
    Cert.KernelIdeal.Gen.transposes_S4x512x128x128_S4x128x128x512_0_2_3_1

/-- The reference's image: one image with its pixels flattened. -/
def imgR (x : FVec Ideal Cert.ReferenceIdeal.S4x256x128x128 .f32) : FVec Ideal Cert.ReferenceIdeal.S4x256x16384 .f32 :=
  shapeCast Cert.ReferenceIdeal.S4x256x16384 x Cert.ReferenceIdeal.Gen.shapeCasts_S4x256x128x128_S4x256x16384

/-- The stacked image at a channel below 256 is the first image. -/
theorem imgK_fst (x1 pe : FVec Ideal Cert.KernelIdeal.S4x256x128x128 .f32) (b : Fin 4) (Y X : Fin 128) (c : Fin 256) :
    imgK x1 pe (ix4 b Y X (⟨c.val, by omega⟩ : Fin 512)) = x1 (ix4 b c Y X) := by
  unfold imgK
  refine (transpose_apply _ _ _ (ix4 b Y X (⟨c.val, by omega⟩ : Fin 512)) (ix4 b (⟨c.val, by omega⟩ : Fin 512) Y X) (fun ax => ?_)).trans ?_
  · match ax with
    | ⟨0, _⟩ => rfl
    | ⟨1, _⟩ => rfl
    | ⟨2, _⟩ => rfl
    | ⟨3, _⟩ => rfl
  · refine concatenate_pair_apply_left (t := Cert.KernelIdeal.S4x512x128x128) (s₁ := Cert.KernelIdeal.S4x256x128x128)
      (s₂ := Cert.KernelIdeal.S4x256x128x128) (1 : Fin 4) x1 pe _ _ rfl (ix4 b c Y X) (fun ax => ?_)
    match ax with
    | ⟨0, _⟩ => rfl
    | ⟨1, _⟩ => rfl
    | ⟨2, _⟩ => rfl
    | ⟨3, _⟩ => rfl

/-- The stacked image at channel 256 + c is the second image at channel c. -/
theorem imgK_snd (x1 pe : FVec Ideal Cert.KernelIdeal.S4x256x128x128 .f32) (b : Fin 4) (Y X : Fin 128) (c : Fin 256) :
    imgK x1 pe (ix4 b Y X (⟨c.val + 256, by omega⟩ : Fin 512)) = pe (ix4 b c Y X) := by
  unfold imgK
  refine (transpose_apply _ _ _ (ix4 b Y X (⟨c.val + 256, by omega⟩ : Fin 512)) (ix4 b (⟨c.val + 256, by omega⟩ : Fin 512) Y X) (fun ax => ?_)).trans ?_
  · match ax with
    | ⟨0, _⟩ => rfl
    | ⟨1, _⟩ => rfl
    | ⟨2, _⟩ => rfl
    | ⟨3, _⟩ => rfl
  · refine concatenate_pair_apply_right (t := Cert.KernelIdeal.S4x512x128x128) (s₁ := Cert.KernelIdeal.S4x256x128x128)
      (s₂ := Cert.KernelIdeal.S4x256x128x128) (1 : Fin 4) x1 pe _ _ rfl rfl (ix4 b c Y X) (fun ax hne => ?_) rfl
    match ax with
    | ⟨0, _⟩ => rfl
    | ⟨1, _⟩ => exact absurd rfl hne
    | ⟨2, _⟩ => rfl
    | ⟨3, _⟩ => rfl

/-- The flattened image at position row·128 + column is the image at (row, column). -/
theorem imgR_apply (x : FVec Ideal Cert.ReferenceIdeal.S4x256x128x128 .f32) (b : Fin 4) (c : Fin 256) (f : Fin 16384) (Y X : Fin 128)
    (hf : f.val = Y.val * 128 + X.val) : imgR x (ix3 b c f) = x (ix4 b c Y X) := by
  unfold imgR
  refine shapeCast_apply _ _ (ix3 b c f) (ix4 b c Y X) ?_
  rw [Shape.rowMajor_val_three, Shape.rowMajor_val_four]
  show ((b.val * 256 + c.val) * 128 + Y.val) * 128 + X.val = (b.val * 256 + c.val) * 16384 + f.val
  omega

theorem ofBits_128 : Ideal.ofBits .f32 0x43000000#32 = ((128 : ℝ) : EReal) := by
  simp [Ideal.ofBits, Ideal.ieee, -EReal.coe_mul]; norm_num

variable (x1 pe : FVec Ideal Cert.KernelIdeal.S4x256x128x128 .f32) (U Wd : FVec Ideal Cert.KernelIdeal.S4x5x4096 .f32)
  (mask : IVec Cert.KernelIdeal.S4x5x4096 1)

/-- A FEATURE channel of a corner: the two programs hold the same value. -/
theorem corner_fst (b : Fin 4) (a : Fin 5) (n : Fin 4096) (c : Fin 256) (hU : Integral (U (ix3 b a n))) (hW : Integral (Wd (ix3 b a n))) :
    Cert.KernelIdeal.Sample.cornerA (imgK x1 pe) (Cert.KernelIdeal.Sample.clipA U) (Cert.KernelIdeal.Sample.clipA Wd) mask
        (ix4 b a n (⟨c.val, by omega⟩ : Fin 512))
      = Cert.ReferenceIdeal.Sample.cornerA (imgR x1) (Cert.ReferenceIdeal.Sample.clipA U) (Cert.ReferenceIdeal.Sample.clipA Wd) mask
        (ix4 b c a n) := by
  obtain ⟨j, hj, hju⟩ := clip127_integral hU
  obtain ⟨i, hi, hiw⟩ := clip127_integral hW
  rw [Cert.KernelIdeal.Sample.cornerA_apply, Cert.ReferenceIdeal.Sample.cornerA_apply]
  refine congrArg (· * _) ?_
  have eY : (⟨min (wrapWord 128#32 (Ideal.fptosi 32 (Cert.KernelIdeal.Sample.clipA Wd (ix3 b a n)))).toInt.toNat 127, by omega⟩ : Fin 128)
      = ⟨i, by omega⟩ := Fin.ext (axis_index hi hiw _)
  have eX : (⟨min (wrapWord 128#32 (Ideal.fptosi 32 (Cert.KernelIdeal.Sample.clipA U (ix3 b a n)))).toInt.toNat 127, by omega⟩ : Fin 128)
      = ⟨j, by omega⟩ := Fin.ext (axis_index hj hju _)
  have eF : (⟨min (wrapWord 16384#32 (Ideal.fptosi 32 (Cert.ReferenceIdeal.Sample.clipA Wd (ix3 b a n) * Ideal.ofBits .f32 0x43000000#32
        + Cert.ReferenceIdeal.Sample.clipA U (ix3 b a n)))).toInt.toNat 16383, by omega⟩ : Fin 16384)
      = ⟨i * 128 + j, by omega⟩ := Fin.ext (flat_index hi hj hiw hju ofBits_128 _)
  rw [eY, eX, eF, imgK_fst, imgR_apply x1 b c ⟨i * 128 + j, by omega⟩ ⟨i, by omega⟩ ⟨j, by omega⟩ rfl]

/-- An EMBEDDING channel of a corner: the two programs hold the same value. -/
theorem corner_snd (b : Fin 4) (a : Fin 5) (n : Fin 4096) (c : Fin 256) (hU : Integral (U (ix3 b a n))) (hW : Integral (Wd (ix3 b a n))) :
    Cert.KernelIdeal.Sample.cornerA (imgK x1 pe) (Cert.KernelIdeal.Sample.clipA U) (Cert.KernelIdeal.Sample.clipA Wd) mask
        (ix4 b a n (⟨c.val + 256, by omega⟩ : Fin 512))
      = Cert.ReferenceIdeal.Sample.cornerA (imgR pe) (Cert.ReferenceIdeal.Sample.clipA U) (Cert.ReferenceIdeal.Sample.clipA Wd) mask
        (ix4 b c a n) := by
  obtain ⟨j, hj, hju⟩ := clip127_integral hU
  obtain ⟨i, hi, hiw⟩ := clip127_integral hW
  rw [Cert.KernelIdeal.Sample.cornerA_apply, Cert.ReferenceIdeal.Sample.cornerA_apply]
  refine congrArg (· * _) ?_
  have eY : (⟨min (wrapWord 128#32 (Ideal.fptosi 32 (Cert.KernelIdeal.Sample.clipA Wd (ix3 b a n)))).toInt.toNat 127, by omega⟩ : Fin 128)
      = ⟨i, by omega⟩ := Fin.ext (axis_index hi hiw _)
  have eX : (⟨min (wrapWord 128#32 (Ideal.fptosi 32 (Cert.KernelIdeal.Sample.clipA U (ix3 b a n)))).toInt.toNat 127, by omega⟩ : Fin 128)
      = ⟨j, by omega⟩ := Fin.ext (axis_index hj hju _)
  have eF : (⟨min (wrapWord 16384#32 (Ideal.fptosi 32 (Cert.ReferenceIdeal.Sample.clipA Wd (ix3 b a n) * Ideal.ofBits .f32 0x43000000#32
        + Cert.ReferenceIdeal.Sample.clipA U (ix3 b a n)))).toInt.toNat 16383, by omega⟩ : Fin 16384)
      = ⟨i * 128 + j, by omega⟩ := Fin.ext (flat_index hi hj hiw hju ofBits_128 _)
  rw [eY, eX, eF, imgK_snd, imgR_apply pe b c ⟨i * 128 + j, by omega⟩ ⟨i, by omega⟩ ⟨j, by omega⟩ rfl]

/-! ## The whole sample -/

theorem ofBits_one : Ideal.ofBits .f32 0x3F800000#32 = ((1 : ℝ) : EReal) := by
  simp [Ideal.ofBits, Ideal.ieee, -EReal.coe_mul]; norm_num

theorem integral_plusOne (u : FVec Ideal Cert.KernelIdeal.S4x5x4096 .f32) (i : Cert.KernelIdeal.S4x5x4096.Idx) (h : Integral (u i)) :
    Integral (Cert.KernelIdeal.Sample.plusOne u i) := by
  rw [Cert.KernelIdeal.Sample.plusOne_apply, ofBits_one]; exact integral_add_one h

variable (u w : FVec Ideal Cert.KernelIdeal.S4x5x4096 .f32)

theorem sample_fst (b : Fin 4) (a : Fin 5) (n : Fin 4096) (c : Fin 256) (hu : Integral (u (ix3 b a n))) (hw : Integral (w (ix3 b a n))) :
    Cert.KernelIdeal.Sample.sampleA (imgK x1 pe) u w (ix4 b a n (⟨c.val, by omega⟩ : Fin 512))
      = Cert.ReferenceIdeal.Sample.sampleA (imgR x1) u w (ix4 b c a n) :=
  corner_fst x1 pe u w (Cert.KernelIdeal.Sample.maskA u w) b a n c hu hw

theorem sample_snd (b : Fin 4) (a : Fin 5) (n : Fin 4096) (c : Fin 256) (hu : Integral (u (ix3 b a n))) (hw : Integral (w (ix3 b a n))) :
    Cert.KernelIdeal.Sample.sampleA (imgK x1 pe) u w (ix4 b a n (⟨c.val + 256, by omega⟩ : Fin 512))
      = Cert.ReferenceIdeal.Sample.sampleA (imgR pe) u w (ix4 b c a n) :=
  corner_snd x1 pe u w (Cert.KernelIdeal.Sample.maskA u w) b a n c hu hw

variable (x0 y0 wx1 wy1 wx0 wy0 : FVec Ideal Cert.KernelIdeal.S4x5x4096 .f32)

/-- A FEATURE channel of the kernel program's sample is the reference's sample of the feature image. -/
theorem combine_fst (b : Fin 4) (a : Fin 5) (n : Fin 4096) (c : Fin 256) (hx : Integral (x0 (ix3 b a n))) (hy : Integral (y0 (ix3 b a n))) :
    Cert.KernelIdeal.Sample.combineA (imgK x1 pe) x0 y0 wx1 wy1 wx0 wy0 (ix4 b a n (⟨c.val, by omega⟩ : Fin 512))
      = Cert.ReferenceIdeal.Sample.combineA (imgR x1) x0 y0 wx1 wy1 wx0 wy0 (ix4 b c a n) := by
  have hx1 := integral_plusOne x0 _ hx
  have hy1 := integral_plusOne y0 _ hy
  rw [Cert.KernelIdeal.Sample.combineA_apply, sample_fst x1 pe x0 y0 b a n c hx hy, sample_fst x1 pe _ y0 b a n c hx1 hy,
    sample_fst x1 pe x0 _ b a n c hx hy1, sample_fst x1 pe _ _ b a n c hx1 hy1]
  exact (Cert.ReferenceIdeal.Sample.combineA_apply (imgR x1) x0 y0 wx1 wy1 wx0 wy0 b c a n).symm

/-- An EMBEDDING channel of the kernel program's sample is the reference's sample of the embedding image. -/
theorem combine_snd (b : Fin 4) (a : Fin 5) (n : Fin 4096) (c : Fin 256) (hx : Integral (x0 (ix3 b a n))) (hy : Integral (y0 (ix3 b a n))) :
    Cert.KernelIdeal.Sample.combineA (imgK x1 pe) x0 y0 wx1 wy1 wx0 wy0 (ix4 b a n (⟨c.val + 256, by omega⟩ : Fin 512))
      = Cert.ReferenceIdeal.Sample.combineA (imgR pe) x0 y0 wx1 wy1 wx0 wy0 (ix4 b c a n) := by
  have hx1 := integral_plusOne x0 _ hx
  have hy1 := integral_plusOne y0 _ hy
  rw [Cert.KernelIdeal.Sample.combineA_apply, sample_snd x1 pe x0 y0 b a n c hx hy, sample_snd x1 pe _ y0 b a n c hx1 hy,
    sample_snd x1 pe x0 _ b a n c hx hy1, sample_snd x1 pe _ _ b a n c hx1 hy1]
  exact (Cert.ReferenceIdeal.Sample.combineA_apply (imgR pe) x0 y0 wx1 wy1 wx0 wy0 b c a n).symm

end Cert.CornerBridge

end
-- ==== Proof.KernelHost.lean ====
/-
  What the kernel program's host operations leave in the array the region samples from: the bilinear sample
  (`Sample.combineA`) of the two images stacked along the channels, at the floor arrays and fractional weights that the
  reference's own operations compute from the same two arguments — the two programs' operations up to there are the
  same, operation for operation.
-/
import proofs.«100191_j53017076302568_2_alg».proof.Proof.Gen.KernelIdeal.Frame
import proofs.«100191_j53017076302568_2_alg».proof.Proof.KernelSample
import proofs.«100191_j53017076302568_2_alg».proof.Proof.CornerBridge
import proofs.«100191_j53017076302568_2_alg».proof.Proof.RefRead
import Idealize.ShloMosaic.Lib.StableHlo.Run

noncomputable section

namespace Cert.KernelIdeal.Host

open Cert.KernelIdeal Cert.KernelIdeal.Gen Cert.KernelIdeal.Sample Idealize.ShloMosaic Idealize.ShloMosaic.TcCoe Idealize.SL.Sem
open Idealize.ShloMosaic.StableHlo

variable (m : (ℓ : Loc nD τ sig) → Buf (Elt Ideal) ℓ)

set_option maxHeartbeats 0 in
set_option maxRecDepth 16384 in
/-- The sampled array is the bilinear sample of the stacked image at the floor arrays and weights of the two
    coordinate arguments. -/
theorem sampled_closed (c : Dev nD) :
    V m c main_v196
      = combineA (Cert.CornerBridge.imgK (m ((c : Thread nD τ).loc main_arg0)) (m ((c : Thread nD τ).loc main_arg3)))
          (Cert.ReferenceIdeal.Read.val_main_v30 (F := Ideal) (m ((c : Thread nD τ).loc main_arg2)) (m ((c : Thread nD τ).loc main_arg4)))
          (Cert.ReferenceIdeal.Read.val_main_v31 (F := Ideal) (m ((c : Thread nD τ).loc main_arg2)) (m ((c : Thread nD τ).loc main_arg4)))
          (Cert.ReferenceIdeal.Read.val_main_v32 (F := Ideal) (m ((c : Thread nD τ).loc main_arg2)) (m ((c : Thread nD τ).loc main_arg4)))
          (Cert.ReferenceIdeal.Read.val_main_v33 (F := Ideal) (m ((c : Thread nD τ).loc main_arg2)) (m ((c : Thread nD τ).loc main_arg4)))
          (Cert.ReferenceIdeal.Read.val_main_v35 (F := Ideal) (m ((c : Thread nD τ).loc main_arg2)) (m ((c : Thread nD τ).loc main_arg4)))
          (Cert.ReferenceIdeal.Read.val_main_v37 (F := Ideal) (m ((c : Thread nD τ).loc main_arg2)) (m ((c : Thread nD τ).loc main_arg4))) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

end Cert.KernelIdeal.Host

end
-- ==== Proof.RefTail.lean ====
/-
  The reference's last operations read at one entry. From the sampled feature array `FEAT` and the sampled embedding
  array `EMB` (both [4, 256, 5, 4096], channel first) and the point features, the reference forms for every point (b, n)
  the five cosine similarities over the 256 channels, their softmax over the five offsets — the maximum folded from −∞,
  the total started from zero — and the average of the embeddings with those weights, and adds the point features.
  Entry (b, n, c) of its result is therefore the second arrangement (`SoftAlign.out'`) of the soft alignment of point
  (b, n).
-/
import proofs.«100191_j53017076302568_2_alg».proof.Proof.RefRead
import proofs.«100191_j53017076302568_2_alg».proof.Proof.SoftAlignSpec
import Idealize.ShloMosaic.Lib.ValueIdx
import Idealize.ShloMosaic.PureOps.Ideal.Laws

noncomputable section

open scoped BigOperators

namespace Cert.ReferenceIdeal.Tail

open Cert.ReferenceIdeal Cert.ReferenceIdeal.Gen Cert.ReferenceIdeal.Read Idealize.ShloMosaic Idealize.ShloMosaic.ValueIdx
open Cert.SoftAlign

variable (x0 : (⟨S4x256x128x128, .f32⟩ : BufTy).Contents (Elt Ideal)) (x1 : (⟨S4x4096x256, .f32⟩ : BufTy).Contents (Elt Ideal))
  (x2 : (⟨S4x4096x2, .f32⟩ : BufTy).Contents (Elt Ideal)) (x3 : (⟨S4x256x128x128, .f32⟩ : BufTy).Contents (Elt Ideal))
  (x4 : (⟨S4x5x4096x2, .f32⟩ : BufTy).Contents (Elt Ideal))

/-! ## Where each operation reads -/

theorem e389 (b : Fin 4) (n : Fin 4096) (c : Fin 256) : idx_main_v389 (ix3 b n c) = ix3 b c n := by
  funext d; match d with | ⟨0, _⟩ => rfl | ⟨1, _⟩ => rfl | ⟨2, _⟩ => rfl
theorem e388 (b : Fin 4) (c : Fin 256) (n : Fin 4096) (k : Fin 5) : idx_main_v388 (ix3 b c n) k = ix4 b c k n := by
  funext d; match d with | ⟨0, _⟩ => rfl | ⟨1, _⟩ => rfl | ⟨2, _⟩ => rfl | ⟨3, _⟩ => rfl
theorem e386 (b : Fin 4) (c : Fin 256) (a : Fin 5) (n : Fin 4096) : idx_main_v386 (ix4 b c a n) = ix4 b (0 : Fin 1) a n := by
  funext d; match d with | ⟨0, _⟩ => rfl | ⟨1, _⟩ => rfl | ⟨2, _⟩ => rfl | ⟨3, _⟩ => rfl
theorem e385 (b : Fin 4) (a : Fin 5) (n : Fin 4096) : idx_main_v385 (ix4 b (0 : Fin 1) a n) = ix3 b a n := by
  funext d; match d with | ⟨0, _⟩ => rfl | ⟨1, _⟩ => rfl | ⟨2, _⟩ => rfl
theorem e383 (b : Fin 4) (a : Fin 5) (n : Fin 4096) : idx_main_v383 (ix3 b a n) = ix3 b (0 : Fin 1) n := by
  funext d; match d with | ⟨0, _⟩ => rfl | ⟨1, _⟩ => rfl | ⟨2, _⟩ => rfl
theorem e382 (b : Fin 4) (n : Fin 4096) : idx_main_v382 (ix3 b (0 : Fin 1) n) = ix2 b n := by
  funext d; match d with | ⟨0, _⟩ => rfl | ⟨1, _⟩ => rfl
theorem e381 (b : Fin 4) (n : Fin 4096) (k : Fin 5) : idx_main_v381 (ix2 b n) k = ix3 b k n := by
  funext d; match d with | ⟨0, _⟩ => rfl | ⟨1, _⟩ => rfl | ⟨2, _⟩ => rfl
theorem e378 (b : Fin 4) (a : Fin 5) (n : Fin 4096) : idx_main_v378 (ix3 b a n) = ix3 b (0 : Fin 1) n := by
  funext d; match d with | ⟨0, _⟩ => rfl | ⟨1, _⟩ => rfl | ⟨2, _⟩ => rfl
theorem e377 (b : Fin 4) (n : Fin 4096) : idx_main_v377 (ix3 b (0 : Fin 1) n) = ix2 b n := by
  funext d; match d with | ⟨0, _⟩ => rfl | ⟨1, _⟩ => rfl
theorem e371 (b : Fin 4) (a : Fin 5) (n : Fin 4096) : idx_main_v371 (ix3 b a n) = ix3 b (0 : Fin 1) n := by
  funext d; match d with | ⟨0, _⟩ => rfl | ⟨1, _⟩ => rfl | ⟨2, _⟩ => rfl
theorem e367 (b : Fin 4) (a : Fin 5) (n : Fin 4096) (k : Fin 256) : idx_main_v367 (ix3 b a n) k = ix4 b k a n := by
  funext d; match d with | ⟨0, _⟩ => rfl | ⟨1, _⟩ => rfl | ⟨2, _⟩ => rfl | ⟨3, _⟩ => rfl
theorem e362 (b : Fin 4) (n : Fin 4096) (k : Fin 256) : idx_main_v362 (ix3 b (0 : Fin 1) n) k = ix4 b k (0 : Fin 1) n := by
  funext d; match d with | ⟨0, _⟩ => rfl | ⟨1, _⟩ => rfl | ⟨2, _⟩ => rfl | ⟨3, _⟩ => rfl
theorem e360 (b : Fin 4) (a : Fin 5) (n : Fin 4096) (k : Fin 256) : idx_main_v360 (ix3 b a n) k = ix4 b k a n := by
  funext d; match d with | ⟨0, _⟩ => rfl | ⟨1, _⟩ => rfl | ⟨2, _⟩ => rfl | ⟨3, _⟩ => rfl
theorem e358 (b : Fin 4) (k : Fin 256) (a : Fin 5) (n : Fin 4096) : idx_main_v358 (ix4 b k a n) = ix4 b k (0 : Fin 1) n := by
  funext d; match d with | ⟨0, _⟩ => rfl | ⟨1, _⟩ => rfl | ⟨2, _⟩ => rfl | ⟨3, _⟩ => rfl
theorem e13 (b : Fin 4) (k : Fin 256) (n : Fin 4096) : idx_main_v13 (ix4 b k (0 : Fin 1) n) = ix3 b k n := by
  funext d; match d with | ⟨0, _⟩ => rfl | ⟨1, _⟩ => rfl | ⟨2, _⟩ => rfl
theorem e12 (b : Fin 4) (k : Fin 256) (n : Fin 4096) : idx_main_v12 (ix3 b k n) = ix3 b n k := by
  funext d; match d with | ⟨0, _⟩ => rfl | ⟨1, _⟩ => rfl | ⟨2, _⟩ => rfl

/-! ## The point features, channel first -/

/-- The point features laid out [4, 256, 1, 4096] at (b, k, 0, n) are the features of point (b, n), channel k. -/
theorem rep_apply (b : Fin 4) (k : Fin 256) (n : Fin 4096) :
    val_main_v13 (F := Ideal) x1 (ix4 b k (0 : Fin 1) n) = x1 (ix3 b n k) := by
  rw [val_main_v13_apply, e13, val_main_v12_apply, e12]

theorem ofBits_ninf : Ideal.ofBits .f32 0xFF800000#32 = (⊥ : EReal) := by
  simp [Ideal.ofBits, Ideal.ieee]

/-- The floored length of the point features' row, as the reference computes it. -/
theorem nrmP_apply (b : Fin 4) (n : Fin 4096) :
    val_main_v365 (F := Ideal) x1 (ix3 b (0 : Fin 1) n) = nrm' (fun k => x1 (ix3 b n k)) := by
  rw [val_main_v365_apply, val_main_v363_apply, val_main_v362_apply, val_main_v364_apply]
  simp only [e362, val_main_v361_apply, rep_apply]
  rfl

/-- The floored length of a sampled feature row. -/
theorem nrmF_apply (b : Fin 4) (a : Fin 5) (n : Fin 4096) :
    val_main_v370 (F := Ideal) x0 x2 x4 (ix3 b a n) = nrm' (fun k => val_main_v357 (F := Ideal) x0 x2 x4 (ix4 b k a n)) := by
  rw [val_main_v370_apply, val_main_v368_apply, val_main_v367_apply, val_main_v369_apply]
  simp only [e367, val_main_v366_apply]
  rfl

/-- A cosine similarity. -/
theorem sim_apply (b : Fin 4) (a : Fin 5) (n : Fin 4096) :
    val_main_v373 (F := Ideal) x0 x1 x2 x4 (ix3 b a n)
      = sim' (fun k => x1 (ix3 b n k)) (fun k => val_main_v357 (F := Ideal) x0 x2 x4 (ix4 b k a n)) := by
  rw [val_main_v373_apply, val_main_v360_apply, val_main_v372_apply, val_main_v371_apply, e371, nrmP_apply, nrmF_apply]
  simp only [e360, val_main_v359_apply, val_main_v358_apply, e358, rep_apply]
  rfl

/-- The largest similarity of a point, as the reference folds it. -/
theorem top_apply (b : Fin 4) (n : Fin 4096) :
    val_main_v376 (F := Ideal) x0 x1 x2 x4 (ix2 b n)
      = top' ⊥ (fun a => sim' (fun k => x1 (ix3 b n k)) (fun k => val_main_v357 (F := Ideal) x0 x2 x4 (ix4 b k a n))) := by
  have hred : S4x5x4096.Reduces [1] S4x4096 := by decide
  rw [val_main_v376_apply, val_main_v375_apply]
  unfold val_main_v374
  rw [Host.reduce_eq_fold_single FloatOps.maximumf _ _ reducesTo_S4x5x4096_S4x4096_d1 hred h_S_ (ix2 b n)]
  unfold top'
  have hl : ∀ k : Fin 5, hred.lift (ix2 b n) k = ix3 b k n := fun k => by
    funext d; match d with | ⟨0, _⟩ => rfl | ⟨1, _⟩ => rfl | ⟨2, _⟩ => rfl
  have hf : (val_main_v373 (F := Ideal) x0 x1 x2 x4 ∘ hred.lift (ix2 b n))
      = fun a => sim' (fun k => x1 (ix3 b n k)) (fun k => val_main_v357 (F := Ideal) x0 x2 x4 (ix4 b k a n)) := by
    funext a
    exact (congrArg (val_main_v373 (F := Ideal) x0 x1 x2 x4) (hl a)).trans (sim_apply x0 x1 x2 x4 b a n)
  rw [hf]
  show max (Ideal.ofBits .f32 0xFF800000#32) ((Finset.univ : Finset (Fin 5)).fold max (Ideal.ofBits .f32 0xFF800000#32) _) = _
  rw [ofBits_ninf]

/-- THE RESULT AT (b, n, c). -/
theorem result_apply (b : Fin 4) (n : Fin 4096) (c : Fin 256) :
    val_main_v390 (F := Ideal) x0 x1 x2 x3 x4 (ix3 b n c)
      = out' ⊥ (fun k => x1 (ix3 b n k)) (fun a k => val_main_v357 (F := Ideal) x0 x2 x4 (ix4 b k a n))
          (fun a k => val_main_v185 (F := Ideal) x2 x3 x4 (ix4 b k a n)) c := by
  have hex : ∀ a : Fin 5, val_main_v380 (F := Ideal) x0 x1 x2 x4 (ix3 b a n)
      = ex' ⊥ (fun a => sim' (fun k => x1 (ix3 b n k)) (fun k => val_main_v357 (F := Ideal) x0 x2 x4 (ix4 b k a n))) a := fun a => by
    rw [val_main_v380_apply, val_main_v379_apply, val_main_v378_apply, e378, val_main_v377_apply, e377, top_apply, sim_apply]
    rfl
  have hden : val_main_v381 (F := Ideal) x0 x1 x2 x4 (ix2 b n)
      = zeroW + ∑ a' : Fin 5, ex' ⊥ (fun a => sim' (fun k => x1 (ix3 b n k)) (fun k => val_main_v357 (F := Ideal) x0 x2 x4 (ix4 b k a n))) a' := by
    rw [val_main_v381_apply]
    simp only [e381, hex]
    rfl
  rw [val_main_v390_apply, val_main_v389_apply, e389, val_main_v388_apply]
  simp only [e388, val_main_v387_apply, val_main_v386_apply, e386, val_main_v385_apply, e385, val_main_v384_apply, hex,
    val_main_v383_apply, e383, val_main_v382_apply, e382, hden]
  rfl

end Cert.ReferenceIdeal.Tail

end
-- ==== Proof.RefSampled.lean ====
/-
  The reference's two sampled arrays are the bilinear sample (`Sample.combineA`) of the embedding image and of the
  feature image at the same floor arrays and fractional weights: its host operations for them ARE those whole-array
  functions, operation for operation (the second sample recomputes the floor arrays and weights by the same operations).
-/
import proofs.«100191_j53017076302568_2_alg».proof.Proof.RefRead
import proofs.«100191_j53017076302568_2_alg».proof.Proof.RefSample
import proofs.«100191_j53017076302568_2_alg».proof.Proof.CornerBridge

noncomputable section

namespace Cert.ReferenceIdeal.Sampled

open Cert.ReferenceIdeal Cert.ReferenceIdeal.Gen Cert.ReferenceIdeal.Read Cert.ReferenceIdeal.Sample Idealize.ShloMosaic
open Cert.CornerBridge

variable (x0 : (⟨S4x256x128x128, .f32⟩ : BufTy).Contents (Elt Ideal))
  (x2 : (⟨S4x4096x2, .f32⟩ : BufTy).Contents (Elt Ideal)) (x3 : (⟨S4x256x128x128, .f32⟩ : BufTy).Contents (Elt Ideal))
  (x4 : (⟨S4x5x4096x2, .f32⟩ : BufTy).Contents (Elt Ideal))

/-- The sampled embeddings. -/
theorem emb_eq : val_main_v185 (F := Ideal) x2 x3 x4
    = combineA (imgR x3) (val_main_v30 (F := Ideal) x2 x4) (val_main_v31 (F := Ideal) x2 x4) (val_main_v32 (F := Ideal) x2 x4)
        (val_main_v33 (F := Ideal) x2 x4) (val_main_v35 (F := Ideal) x2 x4) (val_main_v37 (F := Ideal) x2 x4) := rfl

/-- The sampled features. -/
theorem feat_eq : val_main_v357 (F := Ideal) x0 x2 x4
    = combineA (imgR x0) (val_main_v30 (F := Ideal) x2 x4) (val_main_v31 (F := Ideal) x2 x4) (val_main_v32 (F := Ideal) x2 x4)
        (val_main_v33 (F := Ideal) x2 x4) (val_main_v35 (F := Ideal) x2 x4) (val_main_v37 (F := Ideal) x2 x4) := rfl

/-- The column floor array holds integers (or infinities). -/
theorem integral_x0 (i : S4x5x4096.Idx) : Cert.LibGridIndex.Integral (val_main_v30 (F := Ideal) x2 x4 i) :=
  Cert.LibGridIndex.integral_floor _

/-- The row floor array holds integers (or infinities). -/
theorem integral_y0 (i : S4x5x4096.Idx) : Cert.LibGridIndex.Integral (val_main_v31 (F := Ideal) x2 x4 i) :=
  Cert.LibGridIndex.integral_floor _

end Cert.ReferenceIdeal.Sampled

end
-- ==== Proof.Bridge.lean ====
/-
  The two programs' results are one function of the arguments. The kernel's result array is the soft alignment, point by
  point, of the point features and the kernel program's sampled array; the reference's is the same arithmetic in its other
  arrangement over its two sampled arrays; and the kernel program's sampled array holds, channel by channel, the
  reference's sampled features (channels 0 … 255) and sampled embeddings (channels 256 … 511), because every corner of
  the bilinear sample reads the same pixel in both programs (the floor arrays hold integers).
-/
import proofs.«100191_j53017076302568_2_alg».proof.Proof.KernelValue
import proofs.«100191_j53017076302568_2_alg».proof.Proof.KernelHost
import proofs.«100191_j53017076302568_2_alg».proof.Proof.RefTail
import proofs.«100191_j53017076302568_2_alg».proof.Proof.RefSampled
import proofs.«100191_j53017076302568_2_alg».proof.Proof.CornerBridge

noncomputable section

namespace Cert.Bridge

open Idealize.ShloMosaic Idealize.ShloMosaic.TcCoe Idealize.SL.Sem Idealize.ShloMosaic.ValueIdx Cert.SoftAlign

variable (m : (ℓ : Loc Cert.KernelIdeal.nD Cert.KernelIdeal.τ Cert.KernelIdeal.sig) → Buf (Elt Ideal) ℓ)

/-- The kernel's result array is the reference's result term of the same arguments. -/
theorem result_eq (c : Dev Cert.KernelIdeal.nD) :
    Cert.KernelIdeal.Whole.G (m ((c : Thread Cert.KernelIdeal.nD Cert.KernelIdeal.τ).loc Cert.KernelIdeal.main_arg1))
        (Cert.KernelIdeal.Gen.V m c Cert.KernelIdeal.main_v196)
      = Cert.ReferenceIdeal.Read.val_main_v390 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4)) := by
  funext i
  obtain ⟨b, n, k, rfl⟩ : ∃ (b : Fin 4) (n : Fin 4096) (k : Fin 256), i = ix3 b n k :=
    ⟨⟨(i 0).val, (i 0).isLt⟩, ⟨(i 1).val, (i 1).isLt⟩, ⟨(i 2).val, (i 2).isLt⟩, by
      funext d; match d with | ⟨0, _⟩ => rfl | ⟨1, _⟩ => rfl | ⟨2, _⟩ => rfl⟩
  show Cert.KernelIdeal.Whole.G3 _ _ b n k = _
  unfold Cert.KernelIdeal.Whole.G3
  rw [Cert.ReferenceIdeal.Tail.result_apply, out'_eq]
  refine out_congr rfl ?_ ?_ rfl
  · funext a k'
    rw [Cert.KernelIdeal.Host.sampled_closed, Cert.ReferenceIdeal.Sampled.feat_eq]
    exact Cert.CornerBridge.combine_fst _ _ _ _ _ _ _ _ b a n k' (Cert.ReferenceIdeal.Sampled.integral_x0 _ _ _)
      (Cert.ReferenceIdeal.Sampled.integral_y0 _ _ _)
  · funext a k'
    rw [Cert.KernelIdeal.Host.sampled_closed, Cert.ReferenceIdeal.Sampled.emb_eq]
    exact Cert.CornerBridge.combine_snd _ _ _ _ _ _ _ _ b a n k' (Cert.ReferenceIdeal.Sampled.integral_x0 _ _ _)
      (Cert.ReferenceIdeal.Sampled.integral_y0 _ _ _)

end Cert.Bridge

end
-- ==== Proof.lean ====
/-
  The certificate of the soft-alignment kernel against its reference, on the extended reals.

  Both programs sample two 128 × 128 images of 256 channels — point features `x1` and a positional embedding — bilinearly
  at 5 offset positions around each of 4 × 4096 points, compare the point's own feature row with the five sampled feature
  rows by cosine similarity, take the softmax of the five similarities, and add the softmax-weighted average of the five
  sampled embedding rows to the point's feature row.

  The kernel program samples ONE channel-last stack of both images with (row, column) index pairs and hands the [4, 5, 4096,
  512] result to a kernel that works on blocks of 512 points; the reference samples each image, flattened, at row-major
  positions and does the arithmetic with whole-array operations. The proof has three parts.
  * Every corner of the bilinear sample reads the same pixel in both programs: the row and column floats are floors (or
    floors plus one), so their clipped values are naturals 0 … 127, the index words are those naturals, and the row-major
    position is row · 128 + column exactly (Proof/LibGridIndex.lean, Proof/LibBatchGather.lean, Proof/CornerBridge.lean).
  * The kernel's stored block at (r, c) is the soft alignment of row r of its loads (Proof/KernelBody.lean), the 32 blocks
    tile the result (Proof/KernelValue.lean), and the reference's last operations at (b, n, c) are the same arithmetic in
    another arrangement (Proof/RefTail.lean).
  * The two arrangements agree with no finiteness hypothesis: only commutativity of the product, 0 + x = x and
    max ⊥ x = x are used (Proof/SoftAlignSpec.lean). The precondition is never opened.
-/
import proofs.«100191_j53017076302568_2_alg».proof.Defs
import proofs.«100191_j53017076302568_2_alg».proof.Proof.Gen.Kernel
import proofs.«100191_j53017076302568_2_alg».proof.Proof.Gen.Kernel.Skeleton
import proofs.«100191_j53017076302568_2_alg».proof.Proof.Gen.Kernel.Launch
import proofs.«100191_j53017076302568_2_alg».proof.Proof.Gen.Kernel.Points
import proofs.«100191_j53017076302568_2_alg».proof.Proof.Gen.Kernel.Frame
import proofs.«100191_j53017076302568_2_alg».proof.Proof.Gen.KernelIdeal
import proofs.«100191_j53017076302568_2_alg».proof.Proof.Gen.KernelIdeal.Skeleton
import proofs.«100191_j53017076302568_2_alg».proof.Proof.Gen.KernelIdeal.Launch
import proofs.«100191_j53017076302568_2_alg».proof.Proof.Gen.KernelIdeal.Points
import proofs.«100191_j53017076302568_2_alg».proof.Proof.Gen.KernelIdeal.Frame
import proofs.«100191_j53017076302568_2_alg».proof.Proof.Gen.ReferenceIdeal
import proofs.«100191_j53017076302568_2_alg».proof.Proof.Gen.Pre_finite_inputs
import proofs.«100191_j53017076302568_2_alg».proof.Proof.KernelBlocks
import proofs.«100191_j53017076302568_2_alg».proof.Proof.RefRun
import proofs.«100191_j53017076302568_2_alg».proof.Proof.RefRead
import proofs.«100191_j53017076302568_2_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same result array: the kernel's is the soft
    alignment of the point features and its sampled array, the reference's result term is that same function. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v390_eq, (hagree c).1, (hagree c).2.1, (hagree c).2.2.1, (hagree c).2.2.2.1,
    (hagree c).2.2.2.2]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
